-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v112)) (v1 : (c : Dev Cert.KernelIdeal.nD) → Buf (Elt Ideal) ((c.tc : Thread Cert.KernelIdeal.nD Cert.KernelIdeal.τ).loc Cert.KernelIdeal.main_v77)) (v2 : (c : Dev Cert.KernelIdeal.nD) → Buf (Elt Ideal) ((c.tc : Thread Cert.KernelIdeal.nD Cert.KernelIdeal.τ).loc Cert.KernelIdeal.main_v91)) (v3 : (c : Dev Cert.KernelIdeal.nD) → Buf (Elt Ideal) ((c.tc : Thread Cert.KernelIdeal.nD Cert.KernelIdeal.τ).loc Cert.KernelIdeal.main_v49_1)) (v4 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_v91) = v2 c
          ∧ r.2.mem ((c.tc : Thread Cert.KernelIdeal.nD Cert.KernelIdeal.τ).loc Cert.KernelIdeal.main_v49_1) = v3 c
          ∧ r.2.mem ((c.tc : Thread Cert.KernelIdeal.nD Cert.KernelIdeal.τ).loc Cert.KernelIdeal.main_v113) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_v132) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S100000 : Shape := ⟨1, ![100000]⟩
abbrev S64x128 : Shape := ⟨2, ![64, 128]⟩
abbrev S128 : Shape := ⟨1, ![128]⟩
abbrev S128x9 : Shape := ⟨2, ![128, 9]⟩
abbrev S9 : Shape := ⟨1, ![9]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x9 : S_.BroadcastsInDim S128x9 (![] : Fin 0 → Fin S128x9.rank)
  reducesTo_S128x9_S_d0_1 : S128x9.ReducesTo [0, 1] S_
  bcast_S_S9 : S_.BroadcastsInDim S9 (![] : Fin 0 → Fin S9.rank)
  reducesTo_S9_S_d0 : S9.ReducesTo [0] S_

variable [Facts]

def fn_part1 {F : FTy → Type} [FloatOps F] (main_arg6 : FVec F S9 .f32) (main_v13 : IVec S_ 1) (main_v16 : IVec S128x9 1) : IVec S_ 1 :=
  let main_c_5 : IVec S_ 1 := constantI S_ 1 1#1
  let main_v17 : IVec S_ 1 := (fun x v => Host.reduce IntOp.andi x v reducesTo_S128x9_S_d0_1 h_S_) main_v16 main_c_5
  let main_v18 : IVec S_ 1 := andi main_v13 main_v17
  let main_v19 : FVec F S9 .f32 := Host.absf main_arg6
  let main_cst_6 : FVec F S_ .f32 := constant S_ .f32 0x7F800000#32
  let main_v20 : FVec F S9 .f32 := broadcastInDim S9 ![] bcast_S_S9 main_cst_6
  let main_v21 : IVec S9 1 := cmpf .olt main_v19 main_v20
  let main_c_7 : IVec S_ 1 := constantI S_ 1 1#1
  let main_v22 : IVec S_ 1 := (fun x v => Host.reduce IntOp.andi x v reducesTo_S9_S_d0 h_S_) main_v21 main_c_7
  let main_v23 : IVec S_ 1 := andi main_v18 main_v22
  main_v23

def fn {F : FTy → Type} [FloatOps F] (main_arg0 : FVec F S100000x64 .f32) (main_arg1 : IVec S2x800000 32) (main_arg2 : IVec S100000 32) (main_arg3 : FVec F S64x128 .f32) (main_arg4 : FVec F S128 .f32) (main_arg5 : FVec F S128x9 .f32) (main_arg6 : FVec F S9 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x9 .f32 := Host.absf main_arg5
  let main_cst_4 : FVec F S_ .f32 := constant S_ .f32 0x7F800000#32
  let main_v15 : FVec F S128x9 .f32 := broadcastInDim S128x9 ![] bcast_S_S128x9 main_cst_4
  let main_v16 : IVec S128x9 1 := cmpf .olt main_v14 main_v15
  fn_part1 (F := F) main_arg6 main_v13 main_v16
-- ==== Kernel.lean ====
abbrev S100000x64 : Shape := ⟨2, ![100000, 64]⟩
abbrev S2x800000 : Shape := ⟨2, ![2, 800000]⟩
abbrev S100000 : Shape := ⟨1, ![100000]⟩
abbrev S64x128 : Shape := ⟨2, ![64, 128]⟩
abbrev S128 : Shape := ⟨1, ![128]⟩
abbrev S128x9 : Shape := ⟨2, ![128, 9]⟩
abbrev S9 : Shape := ⟨1, ![9]⟩
abbrev S1x800000 : Shape := ⟨2, ![1, 800000]⟩
abbrev S800000 : Shape := ⟨1, ![800000]⟩
abbrev S100000x128 : Shape := ⟨2, ![100000, 128]⟩
abbrev S5000x64 : Shape := ⟨2, ![5000, 64]⟩
abbrev S5000x128 : Shape := ⟨2, ![5000, 128]⟩
abbrev S900000 : Shape := ⟨1, ![900000]⟩
abbrev S_ : Shape := ⟨0, ![]⟩
abbrev S900000x1 : Shape := ⟨2, ![900000, 1]⟩
abbrev S900000x128 : Shape := ⟨2, ![900000, 128]⟩
abbrev S1x128 : Shape := ⟨2, ![1, 128]⟩
abbrev S1x9 : Shape := ⟨2, ![1, 9]⟩
abbrev S100000x9 : Shape := ⟨2, ![100000, 9]⟩
abbrev S5000x9 : Shape := ⟨2, ![5000, 9]⟩
abbrev S5000 : Shape := ⟨1, ![5000]⟩
abbrev S5000x1 : Shape := ⟨2, ![5000, 1]⟩
abbrev S9x128 : Shape := ⟨2, ![9, 128]⟩
abbrev S9x9 : Shape := ⟨2, ![9, 9]⟩
abbrev S800000x1 : Shape := ⟨2, ![800000, 1]⟩
abbrev S800000x9 : Shape := ⟨2, ![800000, 9]⟩
abbrev S9x1 : Shape := ⟨2, ![9, 1]⟩
abbrev S1x9x128 : Shape := ⟨3, ![1, 9, 128]⟩
abbrev S1x9x1 : Shape := ⟨3, ![1, 9, 1]⟩
abbrev S1x9x9 : Shape := ⟨3, ![1, 9, 9]⟩

abbrev nBuf : Space → Nat
  | .hbm => 178
  | .vmem => 20
  | .smem => 0
  | _ => 0

abbrev hbmTy0_0 (i : Nat) : BufTy := match i % 128 with
  | 0 => ⟨S100000x64, .f32⟩
  | 1 => ⟨S2x800000, .i32⟩
  | 2 => ⟨S100000, .i32⟩
  | 3 => ⟨S64x128, .f32⟩
  | 4 => ⟨S128, .f32⟩
  | 5 => ⟨S128x9, .f32⟩
  | 6 => ⟨S9, .f32⟩
  | 7 => ⟨S1x800000, .i32⟩
  | 8 => ⟨S800000, .i32⟩
  | 9 => ⟨S1x800000, .i32⟩
  | 10 => ⟨S800000, .i32⟩
  | 11 => ⟨S100000x128, .f32⟩
  | 12 => ⟨S100000, .i32⟩
  | 13 => ⟨S1x800000, .i32⟩
  | 14 => ⟨S800000, .i32⟩
  | 15 => ⟨S900000, .i32⟩
  | 16 => ⟨S1x800000, .i32⟩
  | 17 => ⟨S800000, .i32⟩
  | 18 => ⟨S900000, .i32⟩
  | 19 => ⟨S_, .f32⟩
  | 20 => ⟨S900000, .f32⟩
  | 21 => ⟨S_, .f32⟩
  | 22 => ⟨S100000, .f32⟩
  | 23 => ⟨S900000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S900000, .i32⟩
  | 31 => ⟨S900000, .i1⟩
  | 32 => ⟨S_, .i32⟩
  | 33 => ⟨S900000, .i32⟩
  | 34 => ⟨S900000, .i32⟩
  | 35 => ⟨S900000, .i32⟩
  | 36 => ⟨S900000x1, .i32⟩
  | 37 => ⟨S900000, .f32⟩
  | 38 => ⟨S_, .i32⟩
  | 39 => ⟨S900000, .i32⟩
  | 40 => ⟨S900000, .i1⟩
  | 41 => ⟨S_, .i32⟩
  | 42 => ⟨S900000, .i32⟩
  | 43 => ⟨S900000, .i32⟩
  | 44 => ⟨S900000, .i32⟩
  | 45 => ⟨S900000x1, .i32⟩
  | 46 => ⟨S900000, .f32⟩
  | 47 => ⟨S900000, .f32⟩
  | 48 => ⟨S900000x1, .f32⟩
  | 49 => ⟨S_, .i32⟩
  | 50 => ⟨S900000, .i32⟩
  | 51 => ⟨S900000, .i1⟩
  | 52 => ⟨S_, .i32⟩
  | 53 => ⟨S900000, .i32⟩
  | 54 => ⟨S900000, .i32⟩
  | 55 => ⟨S900000, .i32⟩
  | 56 => ⟨S900000x1, .i32⟩
  | 57 => ⟨S900000x128, .f32⟩
  | 58 => ⟨S900000x128, .f32⟩
  | 59 => ⟨S900000x128, .f32⟩
  | 60 => ⟨S_, .f32⟩
  | 61 => ⟨S100000x128, .f32⟩
  | 62 => ⟨S900000x1, .i32⟩
  | 63 => ⟨S100000x128, .f32⟩
  | 64 => ⟨S1x128, .f32⟩
  | 65 => ⟨S1x9, .f32⟩
  | 66 => ⟨S100000x128, .f32⟩
  | 67 => ⟨S100000x9, .f32⟩
  | 68 => ⟨S9x128, .f32⟩
  | 69 => ⟨S9x9, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x9, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x9, .f32⟩
  | 88 => ⟨S9x9, .f32⟩
  | 89 => ⟨S9x9, .i32⟩
  | 90 => ⟨S9x9, .i32⟩
  | 91 => ⟨S_, .i32⟩
  | 92 => ⟨S9x9, .i32⟩
  | 93 => ⟨S9x9, .i32⟩
  | 94 => ⟨S9x9, .i1⟩
  | 95 => ⟨S_, .f32⟩
  | 96 => ⟨S9x9, .f32⟩
  | 97 => ⟨S9x9, .f32⟩
  | 98 => ⟨S_, .f32⟩
  | 99 => ⟨S_, .f32⟩
  | 100 => ⟨S_, .f32⟩
  | 101 => ⟨S800000, .f32⟩
  | 102 => ⟨S_, .f32⟩
  | 103 => ⟨S100000, .f32⟩
  | 104 => ⟨S800000x1, .i32⟩
  | 105 => ⟨S100000, .f32⟩
  | 106 => ⟨S100000x9, .f32⟩
  | 107 => ⟨S_, .f32⟩
  | 108 => ⟨S100000, .f32⟩
  | 109 => ⟨S100000, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S9x9, .f32⟩
  | 117 => ⟨S_, .f32⟩
  | 118 => ⟨S_, .f32⟩
  | 119 => ⟨S_, .f32⟩
  | 120 => ⟨S9x9, .f32⟩
  | 121 => ⟨S9x9, .f32⟩
  | 122 => ⟨S9x9, .i32⟩
  | 123 => ⟨S9x9, .i32⟩
  | 124 => ⟨S_, .i32⟩
  | 125 => ⟨S9x9, .i32⟩
  | 126 => ⟨S9x9, .i32⟩
  | 127 => ⟨S9x9, .i1⟩
  | _ => ⟨S100000x64, .f32⟩

abbrev hbmTy0_1 (i : Nat) : BufTy := match i % 128 with
  | 0 => ⟨S9x9, .f32⟩
  | 1 => ⟨S_, .f32⟩
  | 2 => ⟨S_, .f32⟩
  | 3 => ⟨S9x9, .f32⟩
  | 4 => ⟨S9x9, .f32⟩
  | 5 => ⟨S9x9, .f32⟩
  | 6 => ⟨S9x9, .f32⟩
  | 7 => ⟨S_, .f32⟩
  | 8 => ⟨S_, .f32⟩
  | 9 => ⟨S_, .f32⟩
  | 10 => ⟨S9x9, .i32⟩
  | 11 => ⟨S9x9, .i32⟩
  | 12 => ⟨S_, .i32⟩
  | 13 => ⟨S9x9, .i32⟩
  | 14 => ⟨S9x9, .i32⟩
  | 15 => ⟨S9x9, .i1⟩
  | 16 => ⟨S9x9, .f32⟩
  | 17 => ⟨S_, .f32⟩
  | 18 => ⟨S9x9, .f32⟩
  | 19 => ⟨S9x9, .f32⟩
  | 20 => ⟨S9x9, .f32⟩
  | 21 => ⟨S_, .f32⟩
  | 22 => ⟨S9, .f32⟩
  | 23 => ⟨S_, .f32⟩
  | 24 => ⟨S9, .f32⟩
  | 25 => ⟨S9, .f32⟩
  | 26 => ⟨S9, .f32⟩
  | 27 => ⟨S9x1, .f32⟩
  | 28 => ⟨S9x9, .f32⟩
  | 29 => ⟨S9x9, .f32⟩
  | 30 => ⟨S1x9, .f32⟩
  | 31 => ⟨S9x9, .f32⟩
  | 32 => ⟨S9x9, .f32⟩
  | 33 => ⟨S1x9x128, .f32⟩
  | 34 => ⟨S_, .f32⟩
  | 35 => ⟨S1x9, .f32⟩
  | 36 => ⟨S_, .f32⟩
  | 37 => ⟨S1x9, .f32⟩
  | 38 => ⟨S1x9, .f32⟩
  | 39 => ⟨S1x9x1, .f32⟩
  | 40 => ⟨S1x9x128, .f32⟩
  | 41 => ⟨S1x9x128, .f32⟩
  | 42 => ⟨S1x9x128, .f32⟩
  | 43 => ⟨S_, .f32⟩
  | 44 => ⟨S1x9, .f32⟩
  | 45 => ⟨S1x9x1, .f32⟩
  | 46 => ⟨S1x9x1, .f32⟩
  | 47 => ⟨S1x9x128, .f32⟩
  | 48 => ⟨S1x9x128, .f32⟩
  | 49 => ⟨S1x9x9, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x9, .f32⟩
  | .local _ .vmem, ⟨9, _⟩ => ⟨S1x9, .f32⟩
  | .local _ .vmem, ⟨10, _⟩ => ⟨S5000x128, .f32⟩
  | .local _ .vmem, ⟨11, _⟩ => ⟨S5000x128, .f32⟩
  | .local _ .vmem, ⟨12, _⟩ => ⟨S5000x9, .f32⟩
  | .local _ .vmem, ⟨13, _⟩ => ⟨S5000x9, .f32⟩
  | .local _ .vmem, ⟨14, _⟩ => ⟨S5000x9, .f32⟩
  | .local _ .vmem, ⟨15, _⟩ => ⟨S5000x9, .f32⟩
  | .local _ .vmem, ⟨16, _⟩ => ⟨S5000x128, .f32⟩
  | .local _ .vmem, ⟨17, _⟩ => ⟨S5000x128, .f32⟩
  | .local _ .vmem, ⟨18, _⟩ => ⟨S9x128, .f32⟩
  | .local _ .vmem, ⟨19, _⟩ => ⟨S9x9, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49_0 : Ref sig .tc := ⟨.hbm, 66, rfl⟩
abbrev main_v49_1 : Ref sig .tc := ⟨.hbm, 67, rfl⟩
abbrev main_v50_0 : Ref sig .tc := ⟨.hbm, 68, rfl⟩
abbrev main_v50_1 : Ref sig .tc := ⟨.hbm, 69, rfl⟩
abbrev main_c_8 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_10 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_call0_v0 : Ref sig .tc := ⟨.hbm, 89, rfl⟩
abbrev main_call0_v1 : Ref sig .tc := ⟨.hbm, 90, rfl⟩
abbrev main_call0_c : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_cst : Ref sig .tc := ⟨.hbm, 95, rfl⟩
abbrev main_call0_v5 : Ref sig .tc := ⟨.hbm, 96, rfl⟩
abbrev main_call0_v6 : Ref sig .tc := ⟨.hbm, 97, rfl⟩
abbrev main_call0_cst_0 : Ref sig .tc := ⟨.hbm, 98, rfl⟩
abbrev main_v66 : Ref sig .tc := ⟨.hbm, 99, rfl⟩
abbrev main_cst_12 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_14 : Ref sig .tc := ⟨.hbm, 107, rfl⟩
abbrev main_v72 : Ref sig .tc := ⟨.hbm, 108, rfl⟩
abbrev main_v73 : Ref sig .tc := ⟨.hbm, 109, rfl⟩
abbrev main_cst_15 : Ref sig .tc := ⟨.hbm, 110, rfl⟩
abbrev main_v74 : Ref sig .tc := ⟨.hbm, 111, rfl⟩
abbrev main_cst_16 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_call1_v0 : Ref sig .tc := ⟨.hbm, 116, rfl⟩
abbrev main_call1_cst : Ref sig .tc := ⟨.hbm, 117, rfl⟩
abbrev main_call1_v1 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_c_17 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_18 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_call2_v0 : Ref sig .tc := ⟨.hbm, 134, rfl⟩
abbrev main_call2_cst : Ref sig .tc := ⟨.hbm, 135, rfl⟩
abbrev main_call2_v1 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_c_19 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_20 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_cst_21 : Ref sig .tc := ⟨.hbm, 149, rfl⟩
abbrev main_v101 : Ref sig .tc := ⟨.hbm, 150, rfl⟩
abbrev main_cst_22 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_call3_cst : Ref sig .tc := ⟨.hbm, 162, rfl⟩
abbrev main_call3_v0 : Ref sig .tc := ⟨.hbm, 163, rfl⟩
abbrev main_call3_cst_0 : Ref sig .tc := ⟨.hbm, 164, rfl⟩
abbrev main_call3_v1 : Ref sig .tc := ⟨.hbm, 165, rfl⟩
abbrev main_call3_v2 : Ref sig .tc := ⟨.hbm, 166, rfl⟩
abbrev main_call3_v3 : Ref sig .tc := ⟨.hbm, 167, rfl⟩
abbrev main_call3_v4 : Ref sig .tc := ⟨.hbm, 168, rfl⟩
abbrev main_call3_v5 : Ref sig .tc := ⟨.hbm, 169, rfl⟩
abbrev main_call3_v6 : Ref sig .tc := ⟨.hbm, 170, rfl⟩
abbrev main_call3_cst_1 : Ref sig .tc := ⟨.hbm, 171, rfl⟩
abbrev main_call3_v7 : Ref sig .tc := ⟨.hbm, 172, rfl⟩
abbrev main_call3_v8 : Ref sig .tc := ⟨.hbm, 173, rfl⟩
abbrev main_call3_v9 : Ref sig .tc := ⟨.hbm, 174, rfl⟩
abbrev main_call3_v10 : Ref sig .tc := ⟨.hbm, 175, rfl⟩
abbrev main_v112 : Ref sig .tc := ⟨.hbm, 176, rfl⟩
abbrev main_v113 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x9 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x9 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x9 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x9 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S9x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S9x9 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  shapeCasts_S128_S1x128 : S128.ShapeCasts S1x128
  shapeCasts_S9_S1x9 : S9.ShapeCasts S1x9
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x9_S128x9_0_0 : ∀ a, (![0, 0] : Fin 2 → Nat) a + S128x9.size a ≤ S128x9.size a
  h_S128x9 : 0 < S128x9.numel
  inb_S1x9_S1x9_0_0 : ∀ a, (![0, 0] : Fin 2 → Nat) a + S1x9.size a ≤ S1x9.size a
  h_S1x9 : 0 < S1x9.numel
  shapeCasts_S1x9_S1x9 : S1x9.ShapeCasts S1x9
  broadcasts_S1x9_S5000x9 : S1x9.Broadcasts S5000x9
  reduces_S5000x9_S5000 : S5000x9.Reduces [1] S5000
  shapeCasts_S5000_S5000x1 : S5000.ShapeCasts S5000x1
  broadcasts_S5000x1_S5000x9 : S5000x1.Broadcasts S5000x9
  inb_S5000x9_S5000x9_0_0 : ∀ a, (![0, 0] : Fin 2 → Nat) a + S5000x9.size a ≤ S5000x9.size a
  h_S5000x9 : 0 < S5000x9.numel
  inb_S9x128_S9x128_0_0 : ∀ a, (![0, 0] : Fin 2 → Nat) a + S9x128.size a ≤ S9x128.size a
  h_S9x128 : 0 < S9x128.numel
  inb_S9x9_S9x9_0_0 : ∀ a, (![0, 0] : Fin 2 → Nat) a + S9x9.size a ≤ S9x9.size a
  h_S9x9 : 0 < S9x9.numel
  shapeCasts_S5000x9_S5000x9 : S5000x9.ShapeCasts S5000x9
  shapeCasts_S9x128_S9x128 : S9x128.ShapeCasts S9x128
  shapeCasts_S9x9_S9x9 : S9x9.ShapeCasts S9x9
  bcast_S_S800000 : S_.BroadcastsInDim S800000 (![] : Fin 0 → Fin S800000.rank)
  bcast_S800000_S800000x1_0 : S800000.BroadcastsInDim S800000x1 (![0] : Fin 1 → Fin S800000x1.rank)
  bcast_S_S9x9 : S_.BroadcastsInDim S9x9 (![] : Fin 0 → Fin S9x9.rank)
  reducesTo_S9x9_S_d0_1 : S9x9.ReducesTo [0, 1] S_
  h_S_ : 0 < S_.numel
  reducesTo_S100000x9_S100000_d1 : S100000x9.ReducesTo [1] S100000
  reducesTo_S100000_S_d0 : S100000.ReducesTo [0] S_
  reducesTo_S9x9_S9_d1 : S9x9.ReducesTo [1] S9
  bcast_S_S9 : S_.BroadcastsInDim S9 (![] : Fin 0 → Fin S9.rank)
  bcast_S9_S9x1_0 : S9.BroadcastsInDim S9x1 (![0] : Fin 1 → Fin S9x1.rank)
  bcast_S9x1_S9x9_0_1 : S9x1.BroadcastsInDim S9x9 (![0, 1] : Fin 2 → Fin S9x9.rank)
  bcast_S9_S1x9_1 : S9.BroadcastsInDim S1x9 (![1] : Fin 1 → Fin S1x9.rank)
  bcast_S1x9_S9x9_0_1 : S1x9.BroadcastsInDim S9x9 (![0, 1] : Fin 2 → Fin S9x9.rank)
  bcast_S9x128_S1x9x128_1_2 : S9x128.BroadcastsInDim S1x9x128 (![1, 2] : Fin 2 → Fin S1x9x128.rank)
  reducesTo_S1x9x128_S1x9_d2 : S1x9x128.ReducesTo [2] S1x9
  bcast_S_S1x9 : S_.BroadcastsInDim S1x9 (![] : Fin 0 → Fin S1x9.rank)
  bcast_S1x9_S1x9x1_0_1 : S1x9.BroadcastsInDim S1x9x1 (![0, 1] : Fin 2 → Fin S1x9x1.rank)
  bcast_S1x9x1_S1x9x128_0_1_2 : S1x9x1.BroadcastsInDim S1x9x128 (![0, 1, 2] : Fin 3 → Fin S1x9x128.rank)
  bcast_S9x9_S1x9x9_1_2 : S9x9.BroadcastsInDim S1x9x9 (![1, 2] : Fin 2 → Fin S1x9x9.rank)
  dot_S5000x64_S64x128_S5000x128_1_0_0_1_n_n_wf : DotDims.WF S5000x64 S64x128 S5000x128 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S5000x128_S128x9_S5000x9_1_0_0_1_n_n_wf : DotDims.WF S5000x128 S128x9 S5000x9 [1] [0] [0] [1] [] []
  dot_S5000x9_S5000x128_S9x128_0_0_1_1_n_n_wf : DotDims.WF S5000x9 S5000x128 S9x128 [0] [0] [1] [1] [] []
  dot_S5000x9_S5000x9_S9x9_0_0_1_1_n_n_wf : DotDims.WF S5000x9 S5000x9 S9x9 [0] [0] [1] [1] [] []
  gather_S100000x9_S800000x1_S800000x9_1_0_n_n_0_1_19_wf : GatherDims.WF S100000x9 S800000x1 S800000x9 [1] [0] [] [0] [] 1 ![1, 9]
  dot_S800000x9_S800000x9_S9x9_0_0_1_1_n_n_wf : DotDims.WF S800000x9 S800000x9 S9x9 [0] [0] [1] [1] [] []
  scatter_S100000_S800000x1_S800000_n_0_0_1_wf : ScatterDims.WF S100000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x9.size a ≤ S128x9.size a
  hwx1_2 : ∀ i : grid1.Coords, EltTy.bits .f32 = 32 ∨ (Rect.block (s := S128x9) S128x9.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x9.size a ≤ S1x9.size a
  hwx1_3 : ∀ i : grid1.Coords, EltTy.bits .f32 = 32 ∨ (Rect.block (s := S1x9) S1x9.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x9.size a ≤ S100000x9.size a
  hwx1_5 : ∀ i : grid1.Coords, EltTy.bits .f32 = 32 ∨ (Rect.block (s := S100000x9) S5000x9.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x9.size a ≤ S100000x9.size a
  hwx2_0 : ∀ i : grid2.Coords, EltTy.bits .f32 = 32 ∨ (Rect.block (s := S100000x9) S5000x9.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S9x128.size a ≤ S9x128.size a
  hwx2_2 : ∀ i : grid2.Coords, EltTy.bits .f32 = 32 ∨ (Rect.block (s := S9x128) S9x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S9x9.size a ≤ S9x9.size a
  hwx2_3 : ∀ i : grid2.Coords, EltTy.bits .f32 = 32 ∨ (Rect.block (s := S9x9) S9x9.size (cc2_transform_3 i) (hinb2_3 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S5000x128_S128x9_S5000x9_1_0_0_1_n_n : DotDims S5000x128 S128x9 S5000x9 where
  lhsContracting := [1]
  rhsContracting := [0]
  lhsNonContracting := [0]
  rhsNonContracting := [1]
  lhsBatch := []
  rhsBatch := []
  wf := dot_S5000x128_S128x9_S5000x9_1_0_0_1_n_n_wf
def dot_S5000x9_S5000x128_S9x128_0_0_1_1_n_n : DotDims S5000x9 S5000x128 S9x128 where
  lhsContracting := [0]
  rhsContracting := [0]
  lhsNonContracting := [1]
  rhsNonContracting := [1]
  lhsBatch := []
  rhsBatch := []
  wf := dot_S5000x9_S5000x128_S9x128_0_0_1_1_n_n_wf
def dot_S5000x9_S5000x9_S9x9_0_0_1_1_n_n : DotDims S5000x9 S5000x9 S9x9 where
  lhsContracting := [0]
  rhsContracting := [0]
  lhsNonContracting := [1]
  rhsNonContracting := [1]
  lhsBatch := []
  rhsBatch := []
  wf := dot_S5000x9_S5000x9_S9x9_0_0_1_1_n_n_wf
def gather_S100000x9_S800000x1_S800000x9_1_0_n_n_0_1_19 : GatherDims S100000x9 S800000x1 S800000x9 where
  offsetDims := [1]
  collapsedSliceDims := [0]
  operandBatchingDims := []
  startIndicesBatchingDims := []
  startIndexMap := [0]
  indexVectorDim := 1
  sliceSizes := ![1, 9]
  wf := gather_S100000x9_S800000x1_S800000x9_1_0_n_n_0_1_19_wf
def dot_S800000x9_S800000x9_S9x9_0_0_1_1_n_n : DotDims S800000x9 S800000x9 S9x9 where
  lhsContracting := [0]
  rhsContracting := [0]
  lhsNonContracting := [1]
  rhsNonContracting := [1]
  lhsBatch := []
  rhsBatch := []
  wf := dot_S800000x9_S800000x9_S9x9_0_0_1_1_n_n_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x9.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x9.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v49_1) S5000x9.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49_1) S5000x9.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49_0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50_0) S9x128.size cc2_transform_2 reads2_2 true true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50_1) S9x9.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S100000 : Shape := ⟨1, ![100000]⟩
abbrev S64x128 : Shape := ⟨2, ![64, 128]⟩
abbrev S128 : Shape := ⟨1, ![128]⟩
abbrev S128x9 : Shape := ⟨2, ![128, 9]⟩
abbrev S9 : Shape := ⟨1, ![9]⟩
abbrev S1x800000 : Shape := ⟨2, ![1, 800000]⟩
abbrev S800000 : Shape := ⟨1, ![800000]⟩
abbrev S100000x128 : Shape := ⟨2, ![100000, 128]⟩
abbrev S900000 : Shape := ⟨1, ![900000]⟩
abbrev S_ : Shape := ⟨0, ![]⟩
abbrev S900000x1 : Shape := ⟨2, ![900000, 1]⟩
abbrev S900000x128 : Shape := ⟨2, ![900000, 128]⟩
abbrev S1x128 : Shape := ⟨2, ![1, 128]⟩
abbrev S100000x9 : Shape := ⟨2, ![100000, 9]⟩
abbrev S1x9 : Shape := ⟨2, ![1, 9]⟩
abbrev S100000x1 : Shape := ⟨2, ![100000, 1]⟩
abbrev S9x100000 : Shape := ⟨2, ![9, 100000]⟩
abbrev S9x128 : Shape := ⟨2, ![9, 128]⟩
abbrev S800000x1 : Shape := ⟨2, ![800000, 1]⟩
abbrev S800000x9 : Shape := ⟨2, ![800000, 9]⟩
abbrev S9x9 : Shape := ⟨2, ![9, 9]⟩
abbrev S9x1 : Shape := ⟨2, ![9, 1]⟩
abbrev S1x9x128 : Shape := ⟨3, ![1, 9, 128]⟩
abbrev S1x9x1 : Shape := ⟨3, ![1, 9, 1]⟩
abbrev S1x9x9 : Shape := ⟨3, ![1, 9, 9]⟩

abbrev nBuf : Space → Nat
  | .hbm => 200
  | .vmem => 0
  | .smem => 0
  | _ => 0

abbrev hbmTy0_0 (i : Nat) : BufTy := match i % 128 with
  | 0 => ⟨S100000x64, .f32⟩
  | 1 => ⟨S2x800000, .i32⟩
  | 2 => ⟨S100000, .i32⟩
  | 3 => ⟨S64x128, .f32⟩
  | 4 => ⟨S128, .f32⟩
  | 5 => ⟨S128x9, .f32⟩
  | 6 => ⟨S9, .f32⟩
  | 7 => ⟨S1x800000, .i32⟩
  | 8 => ⟨S800000, .i32⟩
  | 9 => ⟨S1x800000, .i32⟩
  | 10 => ⟨S800000, .i32⟩
  | 11 => ⟨S100000x128, .f32⟩
  | 12 => ⟨S100000, .i32⟩
  | 13 => ⟨S1x800000, .i32⟩
  | 14 => ⟨S800000, .i32⟩
  | 15 => ⟨S900000, .i32⟩
  | 16 => ⟨S1x800000, .i32⟩
  | 17 => ⟨S800000, .i32⟩
  | 18 => ⟨S900000, .i32⟩
  | 19 => ⟨S_, .f32⟩
  | 20 => ⟨S900000, .f32⟩
  | 21 => ⟨S_, .f32⟩
  | 22 => ⟨S100000, .f32⟩
  | 23 => ⟨S900000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S900000, .i32⟩
  | 31 => ⟨S900000, .i1⟩
  | 32 => ⟨S_, .i32⟩
  | 33 => ⟨S900000, .i32⟩
  | 34 => ⟨S900000, .i32⟩
  | 35 => ⟨S900000, .i32⟩
  | 36 => ⟨S900000x1, .i32⟩
  | 37 => ⟨S900000, .f32⟩
  | 38 => ⟨S_, .i32⟩
  | 39 => ⟨S900000, .i32⟩
  | 40 => ⟨S900000, .i1⟩
  | 41 => ⟨S_, .i32⟩
  | 42 => ⟨S900000, .i32⟩
  | 43 => ⟨S900000, .i32⟩
  | 44 => ⟨S900000, .i32⟩
  | 45 => ⟨S900000x1, .i32⟩
  | 46 => ⟨S900000, .f32⟩
  | 47 => ⟨S900000, .f32⟩
  | 48 => ⟨S900000x1, .f32⟩
  | 49 => ⟨S_, .i32⟩
  | 50 => ⟨S900000, .i32⟩
  | 51 => ⟨S900000, .i1⟩
  | 52 => ⟨S_, .i32⟩
  | 53 => ⟨S900000, .i32⟩
  | 54 => ⟨S900000, .i32⟩
  | 55 => ⟨S900000, .i32⟩
  | 56 => ⟨S900000x1, .i32⟩
  | 57 => ⟨S900000x128, .f32⟩
  | 58 => ⟨S900000x128, .f32⟩
  | 59 => ⟨S900000x128, .f32⟩
  | 60 => ⟨S_, .f32⟩
  | 61 => ⟨S100000x128, .f32⟩
  | 62 => ⟨S900000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x9, .f32⟩
  | 71 => ⟨S1x9, .f32⟩
  | 72 => ⟨S100000x9, .f32⟩
  | 73 => ⟨S100000x9, .f32⟩
  | 74 => ⟨S_, .f32⟩
  | 75 => ⟨S100000, .f32⟩
  | 76 => ⟨S_, .f32⟩
  | 77 => ⟨S100000, .f32⟩
  | 78 => ⟨S100000, .f32⟩
  | 79 => ⟨S100000x1, .f32⟩
  | 80 => ⟨S100000x9, .f32⟩
  | 81 => ⟨S100000x9, .f32⟩
  | 82 => ⟨S100000x9, .f32⟩
  | 83 => ⟨S_, .f32⟩
  | 84 => ⟨S100000, .f32⟩
  | 85 => ⟨S100000x1, .f32⟩
  | 86 => ⟨S100000x9, .f32⟩
  | 87 => ⟨S100000x9, .f32⟩
  | 88 => ⟨S9x100000, .f32⟩
  | 89 => ⟨S9x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x9, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x9, .f32⟩
  | 108 => ⟨S9x9, .f32⟩
  | 109 => ⟨S9x9, .i32⟩
  | 110 => ⟨S9x9, .i32⟩
  | 111 => ⟨S_, .i32⟩
  | 112 => ⟨S9x9, .i32⟩
  | 113 => ⟨S9x9, .i32⟩
  | 114 => ⟨S9x9, .i1⟩
  | 115 => ⟨S_, .f32⟩
  | 116 => ⟨S9x9, .f32⟩
  | 117 => ⟨S9x9, .f32⟩
  | 118 => ⟨S_, .f32⟩
  | 119 => ⟨S_, .f32⟩
  | 120 => ⟨S_, .f32⟩
  | 121 => ⟨S800000, .f32⟩
  | 122 => ⟨S_, .f32⟩
  | 123 => ⟨S100000, .f32⟩
  | 124 => ⟨S800000x1, .i32⟩
  | 125 => ⟨S100000, .f32⟩
  | 126 => ⟨S100000x9, .f32⟩
  | 127 => ⟨S_, .f32⟩
  | _ => ⟨S100000x64, .f32⟩

abbrev hbmTy0_1 (i : Nat) : BufTy := match i % 128 with
  | 0 => ⟨S100000, .f32⟩
  | 1 => ⟨S100000, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S9x100000, .f32⟩
  | 9 => ⟨S9x9, .f32⟩
  | 10 => ⟨S9x9, .f32⟩
  | 11 => ⟨S_, .f32⟩
  | 12 => ⟨S_, .f32⟩
  | 13 => ⟨S_, .f32⟩
  | 14 => ⟨S9x9, .f32⟩
  | 15 => ⟨S9x9, .f32⟩
  | 16 => ⟨S9x9, .i32⟩
  | 17 => ⟨S9x9, .i32⟩
  | 18 => ⟨S_, .i32⟩
  | 19 => ⟨S9x9, .i32⟩
  | 20 => ⟨S9x9, .i32⟩
  | 21 => ⟨S9x9, .i1⟩
  | 22 => ⟨S9x9, .f32⟩
  | 23 => ⟨S_, .f32⟩
  | 24 => ⟨S_, .f32⟩
  | 25 => ⟨S9x9, .f32⟩
  | 26 => ⟨S9x9, .f32⟩
  | 27 => ⟨S9x9, .f32⟩
  | 28 => ⟨S9x9, .f32⟩
  | 29 => ⟨S_, .f32⟩
  | 30 => ⟨S_, .f32⟩
  | 31 => ⟨S_, .f32⟩
  | 32 => ⟨S9x9, .i32⟩
  | 33 => ⟨S9x9, .i32⟩
  | 34 => ⟨S_, .i32⟩
  | 35 => ⟨S9x9, .i32⟩
  | 36 => ⟨S9x9, .i32⟩
  | 37 => ⟨S9x9, .i1⟩
  | 38 => ⟨S9x9, .f32⟩
  | 39 => ⟨S_, .f32⟩
  | 40 => ⟨S9x9, .f32⟩
  | 41 => ⟨S9x9, .f32⟩
  | 42 => ⟨S9x9, .f32⟩
  | 43 => ⟨S_, .f32⟩
  | 44 => ⟨S9, .f32⟩
  | 45 => ⟨S_, .f32⟩
  | 46 => ⟨S9, .f32⟩
  | 47 => ⟨S9, .f32⟩
  | 48 => ⟨S9, .f32⟩
  | 49 => ⟨S9x1, .f32⟩
  | 50 => ⟨S9x9, .f32⟩
  | 51 => ⟨S9x9, .f32⟩
  | 52 => ⟨S1x9, .f32⟩
  | 53 => ⟨S9x9, .f32⟩
  | 54 => ⟨S9x9, .f32⟩
  | 55 => ⟨S1x9x128, .f32⟩
  | 56 => ⟨S_, .f32⟩
  | 57 => ⟨S1x9, .f32⟩
  | 58 => ⟨S_, .f32⟩
  | 59 => ⟨S1x9, .f32⟩
  | 60 => ⟨S1x9, .f32⟩
  | 61 => ⟨S1x9x1, .f32⟩
  | 62 => ⟨S1x9x128, .f32⟩
  | 63 => ⟨S1x9x128, .f32⟩
  | 64 => ⟨S1x9x128, .f32⟩
  | 65 => ⟨S_, .f32⟩
  | 66 => ⟨S1x9, .f32⟩
  | 67 => ⟨S1x9x1, .f32⟩
  | 68 => ⟨S1x9x1, .f32⟩
  | 69 => ⟨S1x9x128, .f32⟩
  | 70 => ⟨S1x9x128, .f32⟩
  | 71 => ⟨S1x9x9, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_call0_cst : Ref sig .tc := ⟨.hbm, 67, rfl⟩
abbrev main_call0_v0 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_11 : Ref sig .tc := ⟨.hbm, 90, rfl⟩
abbrev main_v68 : Ref sig .tc := ⟨.hbm, 91, rfl⟩
abbrev main_v69 : Ref sig .tc := ⟨.hbm, 92, rfl⟩
abbrev main_c_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_13 : Ref sig .tc := ⟨.hbm, 99, rfl⟩
abbrev main_v75 : Ref sig .tc := ⟨.hbm, 100, rfl⟩
abbrev main_v76 : Ref sig .tc := ⟨.hbm, 101, rfl⟩
abbrev main_c_14 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_call1_v0 : Ref sig .tc := ⟨.hbm, 109, rfl⟩
abbrev main_call1_v1 : Ref sig .tc := ⟨.hbm, 110, rfl⟩
abbrev main_call1_c : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_call1_cst : Ref sig .tc := ⟨.hbm, 115, rfl⟩
abbrev main_call1_v5 : Ref sig .tc := ⟨.hbm, 116, rfl⟩
abbrev main_call1_v6 : Ref sig .tc := ⟨.hbm, 117, rfl⟩
abbrev main_call1_cst_0 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_cst_16 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_17 : Ref sig .tc := ⟨.hbm, 127, rfl⟩
abbrev main_v89 : Ref sig .tc := ⟨.hbm, 128, rfl⟩
abbrev main_v90 : Ref sig .tc := ⟨.hbm, 129, rfl⟩
abbrev main_cst_18 : Ref sig .tc := ⟨.hbm, 130, rfl⟩
abbrev main_v91 : Ref sig .tc := ⟨.hbm, 131, rfl⟩
abbrev main_cst_19 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_call2_v0 : Ref sig .tc := ⟨.hbm, 138, rfl⟩
abbrev main_call2_cst : Ref sig .tc := ⟨.hbm, 139, rfl⟩
abbrev main_call2_v1 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_c_20 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_21 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_call3_v0 : Ref sig .tc := ⟨.hbm, 156, rfl⟩
abbrev main_call3_cst : Ref sig .tc := ⟨.hbm, 157, rfl⟩
abbrev main_call3_v1 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_c_22 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_23 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_cst_24 : Ref sig .tc := ⟨.hbm, 171, rfl⟩
abbrev main_v120 : Ref sig .tc := ⟨.hbm, 172, rfl⟩
abbrev main_cst_25 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_call4_cst : Ref sig .tc := ⟨.hbm, 184, rfl⟩
abbrev main_call4_v0 : Ref sig .tc := ⟨.hbm, 185, rfl⟩
abbrev main_call4_cst_0 : Ref sig .tc := ⟨.hbm, 186, rfl⟩
abbrev main_call4_v1 : Ref sig .tc := ⟨.hbm, 187, rfl⟩
abbrev main_call4_v2 : Ref sig .tc := ⟨.hbm, 188, rfl⟩
abbrev main_call4_v3 : Ref sig .tc := ⟨.hbm, 189, rfl⟩
abbrev main_call4_v4 : Ref sig .tc := ⟨.hbm, 190, rfl⟩
abbrev main_call4_v5 : Ref sig .tc := ⟨.hbm, 191, rfl⟩
abbrev main_call4_v6 : Ref sig .tc := ⟨.hbm, 192, rfl⟩
abbrev main_call4_cst_1 : Ref sig .tc := ⟨.hbm, 193, rfl⟩
abbrev main_call4_v7 : Ref sig .tc := ⟨.hbm, 194, rfl⟩
abbrev main_call4_v8 : Ref sig .tc := ⟨.hbm, 195, rfl⟩
abbrev main_call4_v9 : Ref sig .tc := ⟨.hbm, 196, rfl⟩
abbrev main_call4_v10 : Ref sig .tc := ⟨.hbm, 197, rfl⟩
abbrev main_v131 : Ref sig .tc := ⟨.hbm, 198, rfl⟩
abbrev main_v132 : Ref sig .tc := ⟨.hbm, 199, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S9_S1x9_1 : S9.BroadcastsInDim S1x9 (![1] : Fin 1 → Fin S1x9.rank)
  bcast_S1x9_S100000x9_0_1 : S1x9.BroadcastsInDim S100000x9 (![0, 1] : Fin 2 → Fin S100000x9.rank)
  reducesTo_S100000x9_S100000_d1 : S100000x9.ReducesTo [1] S100000
  h_S_ : 0 < S_.numel
  bcast_S100000_S100000x1_0 : S100000.BroadcastsInDim S100000x1 (![0] : Fin 1 → Fin S100000x1.rank)
  bcast_S100000x1_S100000x9_0_1 : S100000x1.BroadcastsInDim S100000x9 (![0, 1] : Fin 2 → Fin S100000x9.rank)
  transposes_S100000x9_S9x100000_1_0 : S100000x9.Transposes [1, 0] S9x100000
  bcast_S_S800000 : S_.BroadcastsInDim S800000 (![] : Fin 0 → Fin S800000.rank)
  bcast_S800000_S800000x1_0 : S800000.BroadcastsInDim S800000x1 (![0] : Fin 1 → Fin S800000x1.rank)
  bcast_S_S9x9 : S_.BroadcastsInDim S9x9 (![] : Fin 0 → Fin S9x9.rank)
  reducesTo_S9x9_S_d0_1 : S9x9.ReducesTo [0, 1] S_
  reducesTo_S100000_S_d0 : S100000.ReducesTo [0] S_
  reducesTo_S9x9_S9_d1 : S9x9.ReducesTo [1] S9
  bcast_S_S9 : S_.BroadcastsInDim S9 (![] : Fin 0 → Fin S9.rank)
  bcast_S9_S9x1_0 : S9.BroadcastsInDim S9x1 (![0] : Fin 1 → Fin S9x1.rank)
  bcast_S9x1_S9x9_0_1 : S9x1.BroadcastsInDim S9x9 (![0, 1] : Fin 2 → Fin S9x9.rank)
  bcast_S1x9_S9x9_0_1 : S1x9.BroadcastsInDim S9x9 (![0, 1] : Fin 2 → Fin S9x9.rank)
  bcast_S9x128_S1x9x128_1_2 : S9x128.BroadcastsInDim S1x9x128 (![1, 2] : Fin 2 → Fin S1x9x128.rank)
  reducesTo_S1x9x128_S1x9_d2 : S1x9x128.ReducesTo [2] S1x9
  bcast_S_S1x9 : S_.BroadcastsInDim S1x9 (![] : Fin 0 → Fin S1x9.rank)
  bcast_S1x9_S1x9x1_0_1 : S1x9.BroadcastsInDim S1x9x1 (![0, 1] : Fin 2 → Fin S1x9x1.rank)
  bcast_S1x9x1_S1x9x128_0_1_2 : S1x9x1.BroadcastsInDim S1x9x128 (![0, 1, 2] : Fin 3 → Fin S1x9x128.rank)
  bcast_S9x9_S1x9x9_1_2 : S9x9.BroadcastsInDim S1x9x9 (![1, 2] : Fin 2 → Fin S1x9x9.rank)
  dot_S100000x64_S64x128_S100000x128_1_0_0_1_n_n_wf : DotDims.WF S100000x64 S64x128 S100000x128 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x9_S100000x9_1_0_0_1_n_n_wf : DotDims.WF S100000x128 S128x9 S100000x9 [1] [0] [0] [1] [] []
  dot_S9x100000_S100000x128_S9x128_1_0_0_1_n_n_wf : DotDims.WF S9x100000 S100000x128 S9x128 [1] [0] [0] [1] [] []
  gather_S100000x9_S800000x1_S800000x9_1_0_n_n_0_1_19_wf : GatherDims.WF S100000x9 S800000x1 S800000x9 [1] [0] [] [0] [] 1 ![1, 9]
  dot_S800000x9_S800000x9_S9x9_0_0_1_1_n_n_wf : DotDims.WF S800000x9 S800000x9 S9x9 [0] [0] [1] [1] [] []
  scatter_S100000_S800000x1_S800000_n_0_0_1_wf : ScatterDims.WF S100000 S800000x1 S800000 [] [0] [0] 1
  dot_S9x100000_S100000x9_S9x9_1_0_0_1_n_n_wf : DotDims.WF S9x100000 S100000x9 S9x9 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x9_S100000x9_1_0_0_1_n_n : DotDims S100000x128 S128x9 S100000x9 where
  lhsContracting := [1]
  rhsContracting := [0]
  lhsNonContracting := [0]
  rhsNonContracting := [1]
  lhsBatch := []
  rhsBatch := []
  wf := dot_S100000x128_S128x9_S100000x9_1_0_0_1_n_n_wf
def dot_S9x100000_S100000x128_S9x128_1_0_0_1_n_n : DotDims S9x100000 S100000x128 S9x128 where
  lhsContracting := [1]
  rhsContracting := [0]
  lhsNonContracting := [0]
  rhsNonContracting := [1]
  lhsBatch := []
  rhsBatch := []
  wf := dot_S9x100000_S100000x128_S9x128_1_0_0_1_n_n_wf
def gather_S100000x9_S800000x1_S800000x9_1_0_n_n_0_1_19 : GatherDims S100000x9 S800000x1 S800000x9 where
  offsetDims := [1]
  collapsedSliceDims := [0]
  operandBatchingDims := []
  startIndicesBatchingDims := []
  startIndexMap := [0]
  indexVectorDim := 1
  sliceSizes := ![1, 9]
  wf := gather_S100000x9_S800000x1_S800000x9_1_0_n_n_0_1_19_wf
def dot_S800000x9_S800000x9_S9x9_0_0_1_1_n_n : DotDims S800000x9 S800000x9 S9x9 where
  lhsContracting := [0]
  rhsContracting := [0]
  lhsNonContracting := [1]
  rhsNonContracting := [1]
  lhsBatch := []
  rhsBatch := []
  wf := dot_S800000x9_S800000x9_S9x9_0_0_1_1_n_n_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S9x100000_S100000x9_S9x9_1_0_0_1_n_n : DotDims S9x100000 S100000x9 S9x9 where
  lhsContracting := [1]
  rhsContracting := [0]
  lhsNonContracting := [0]
  rhsNonContracting := [1]
  lhsBatch := []
  rhsBatch := []
  wf := dot_S9x100000_S100000x9_S9x9_1_0_0_1_n_n_wf

class Facts : Prop extends Facts₀ where

variable [Facts]
-- ==== Proof.KRun.lean ====
/-
  The idealized kernel program's run with its five results named: every weakly fair execution of @main terminates,
  nothing faulting, each result buffer ends at the contents the last boundary valuation `Gen.W14` gives it (the fold
  of the host stretches and of the three regions' write-backs from the launch memory), and the argument arrays end
  as launched.
-/
import proofs.«148048_j2284922601976_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its fourteen segments, read against the final state: every unscoped buffer holds what the
    last boundary valuation says, in particular the five results; the arguments are read back to the launch memory. -/
theorem run : θ_run defs (onTc (τ := τ) (main (F := F))) ⟨m, fun _ => 0, ρ⟩ (fun r => ∀ c : Dev nD,
      r.2.mem ((c.tc : Thread nD τ).loc main_v112) = W14 m ρ c (Proc.devRef .tc main_v112)
      ∧      r.2.mem ((c.tc : Thread nD τ).loc main_v77) = W14 m ρ c (Proc.devRef .tc main_v77)
      ∧      r.2.mem ((c.tc : Thread nD τ).loc main_v91) = W14 m ρ c (Proc.devRef .tc main_v91)
      ∧      r.2.mem ((c.tc : Thread nD τ).loc main_v49_1) = W14 m ρ c (Proc.devRef .tc main_v49_1)
      ∧      r.2.mem ((c.tc : Thread nD τ).loc main_v113) = W14 m ρ c (Proc.devRef .tc main_v113)
      ∧      r.2.mem ((c.tc : Thread nD τ).loc main_arg0) = m ((c.tc : Thread nD τ).loc main_arg0)
      ∧      r.2.mem ((c.tc : Thread nD τ).loc main_arg1) = m ((c.tc : Thread nD τ).loc main_arg1)
      ∧      r.2.mem ((c.tc : Thread nD τ).loc main_arg2) = m ((c.tc : Thread nD τ).loc main_arg2)
      ∧      r.2.mem ((c.tc : Thread nD τ).loc main_arg3) = m ((c.tc : Thread nD τ).loc main_arg3)
      ∧      r.2.mem ((c.tc : Thread nD τ).loc main_arg4) = m ((c.tc : Thread nD τ).loc main_arg4)
      ∧      r.2.mem ((c.tc : Thread nD τ).loc main_arg5) = m ((c.tc : Thread nD τ).loc main_arg5)
      ∧      r.2.mem ((c.tc : Thread nD τ).loc main_arg6) = m ((c.tc : Thread nD τ).loc main_arg6)) :=
    Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v112 (by decide)),
       h c _ (mem_uc main_v77 (by decide)),
       h c _ (mem_uc main_v91 (by decide)),
       h c _ (mem_uc main_v49_1 (by decide)),
       h c _ (mem_uc main_v113 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c)⟩)

end Cert.KernelIdeal.KRun

end
-- ==== Proof.RefOps.lean ====
/-
  The reference program's @main as four consecutive lists of host operations, in program order, each callee's body
  written at its call site over that call's buffers: `refA` computes the graph aggregation and adds the bias
  (statements up to %49), `refS` the rectifier, the projection and the row softmax (up to %65, the assignment
  matrix s), `refT1` and `refT2` everything downstream of s (the pooled features and adjacency, the two losses, the
  normalised adjacency and the row log-softmax).
-/
import proofs.«148048_j2284922601976_1_alg».proof.ReferenceIdeal
import Idealize.ShloMosaic.Lib.StableHlo.Run

set_option maxRecDepth 16384

noncomputable section

namespace Cert.ReferenceIdeal.RefOps

open Idealize.ShloMosaic Idealize.ShloMosaic.TcCoe Idealize.SL.Sem
open Cert.ReferenceIdeal Cert.ReferenceIdeal.Facts₀ Cert.ReferenceIdeal.Facts

variable {F : FTy → Type} [FloatOps F] [Cert.ReferenceIdeal.Facts]

set_option maxHeartbeats 4000000 in
/-- Statements %0 … %49 of @main: the edge lists, x·W1, the degree normalisation, the scatter-add aggregation, the bias. -/
abbrev refA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg3 main_v4 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.nullary main_v5 (iotaInDim S100000 32 0),
    StableHlo.unary main_arg1 main_v6 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v6 main_v7 rfl shapeCasts_S1x800000_S800000,
    StableHlo.binary main_v7 main_v5 main_v8 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.unary main_arg1 main_v9 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v9 main_v10 rfl shapeCasts_S1x800000_S800000,
    StableHlo.binary main_v10 main_v5 main_v11 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.nullary main_cst (constant S_ .f32 0x3F800000#32),
    StableHlo.unary main_cst main_v12 (broadcastInDim S900000 ![] bcast_S_S900000 : (⟨S_, .f32⟩ : BufTy).Contents (Elt F) → (⟨S900000, .f32⟩ : BufTy).Contents (Elt F)),
    StableHlo.nullary main_cst_0 (constant S_ .f32 0x00000000#32),
    StableHlo.unary main_cst_0 main_v13 (broadcastInDim S100000 ![] bcast_S_S100000 : (⟨S_, .f32⟩ : BufTy).Contents (Elt F) → (⟨S100000, .f32⟩ : BufTy).Contents (Elt F)),
    StableHlo.unary main_v11 main_v14 (broadcastInDim S900000x1 ![0] bcast_S900000_S900000x1_0 : (⟨S900000, .i32⟩ : BufTy).Contents (Elt F) → (⟨S900000x1, .i32⟩ : BufTy).Contents (Elt F)),
    StableHlo.ternary main_v13 main_v14 main_v12 main_v15 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    StableHlo.nullary main_cst_1 (constant S_ .f32 0x3F800000#32),
    StableHlo.unary main_cst_1 main_v16 (broadcastInDim S100000 ![] bcast_S_S100000 : (⟨S_, .f32⟩ : BufTy).Contents (Elt F) → (⟨S100000, .f32⟩ : BufTy).Contents (Elt F)),
    StableHlo.binary main_v15 main_v16 main_v17 (maximumf : (⟨S100000, .f32⟩ : BufTy).Contents (Elt F) → (⟨S100000, .f32⟩ : BufTy).Contents (Elt F) → (⟨S100000, .f32⟩ : BufTy).Contents (Elt F)),
    StableHlo.unary main_v17 main_v18 (Host.rsqrt : (⟨S100000, .f32⟩ : BufTy).Contents (Elt F) → (⟨S100000, .f32⟩ : BufTy).Contents (Elt F)),
    StableHlo.nullary main_c (constantI S_ 32 0#32),
    StableHlo.unary main_c main_v19 (broadcastInDim S900000 ![] bcast_S_S900000 : (⟨S_, .i32⟩ : BufTy).Contents (Elt F) → (⟨S900000, .i32⟩ : BufTy).Contents (Elt F)),
    StableHlo.binary main_v8 main_v19 main_v20 (cmpi .slt : (⟨S900000, .i32⟩ : BufTy).Contents (Elt F) → (⟨S900000, .i32⟩ : BufTy).Contents (Elt F) → (⟨S900000, .i1⟩ : BufTy).Contents (Elt F)),
    StableHlo.nullary main_c_2 (constantI S_ 32 100000#32),
    StableHlo.unary main_c_2 main_v21 (broadcastInDim S900000 ![] bcast_S_S900000 : (⟨S_, .i32⟩ : BufTy).Contents (Elt F) → (⟨S900000, .i32⟩ : BufTy).Contents (Elt F)),
    StableHlo.binary main_v8 main_v21 main_v22 (addi : (⟨S900000, .i32⟩ : BufTy).Contents (Elt F) → (⟨S900000, .i32⟩ : BufTy).Contents (Elt F) → (⟨S900000, .i32⟩ : BufTy).Contents (Elt F)),
    StableHlo.ternary main_v20 main_v22 main_v8 main_v23 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v23 main_v24 (broadcastInDim S900000x1 ![0] bcast_S900000_S900000x1_0 : (⟨S900000, .i32⟩ : BufTy).Contents (Elt F) → (⟨S900000x1, .i32⟩ : BufTy).Contents (Elt F)),
    StableHlo.binary main_v18 main_v24 main_v25 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.nullary main_c_3 (constantI S_ 32 0#32),
    StableHlo.unary main_c_3 main_v26 (broadcastInDim S900000 ![] bcast_S_S900000 : (⟨S_, .i32⟩ : BufTy).Contents (Elt F) → (⟨S900000, .i32⟩ : BufTy).Contents (Elt F)),
    StableHlo.binary main_v11 main_v26 main_v27 (cmpi .slt : (⟨S900000, .i32⟩ : BufTy).Contents (Elt F) → (⟨S900000, .i32⟩ : BufTy).Contents (Elt F) → (⟨S900000, .i1⟩ : BufTy).Contents (Elt F)),
    StableHlo.nullary main_c_4 (constantI S_ 32 100000#32),
    StableHlo.unary main_c_4 main_v28 (broadcastInDim S900000 ![] bcast_S_S900000 : (⟨S_, .i32⟩ : BufTy).Contents (Elt F) → (⟨S900000, .i32⟩ : BufTy).Contents (Elt F)),
    StableHlo.binary main_v11 main_v28 main_v29 (addi : (⟨S900000, .i32⟩ : BufTy).Contents (Elt F) → (⟨S900000, .i32⟩ : BufTy).Contents (Elt F) → (⟨S900000, .i32⟩ : BufTy).Contents (Elt F)),
    StableHlo.ternary main_v27 main_v29 main_v11 main_v30 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v30 main_v31 (broadcastInDim S900000x1 ![0] bcast_S900000_S900000x1_0 : (⟨S900000, .i32⟩ : BufTy).Contents (Elt F) → (⟨S900000x1, .i32⟩ : BufTy).Contents (Elt F)),
    StableHlo.binary main_v18 main_v31 main_v32 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.binary main_v25 main_v32 main_v33 (mulf : (⟨S900000, .f32⟩ : BufTy).Contents (Elt F) → (⟨S900000, .f32⟩ : BufTy).Contents (Elt F) → (⟨S900000, .f32⟩ : BufTy).Contents (Elt F)),
    StableHlo.unary main_v33 main_v34 (broadcastInDim S900000x1 ![0] bcast_S900000_S900000x1_0 : (⟨S900000, .f32⟩ : BufTy).Contents (Elt F) → (⟨S900000x1, .f32⟩ : BufTy).Contents (Elt F)),
    StableHlo.nullary main_c_5 (constantI S_ 32 0#32),
    StableHlo.unary main_c_5 main_v35 (broadcastInDim S900000 ![] bcast_S_S900000 : (⟨S_, .i32⟩ : BufTy).Contents (Elt F) → (⟨S900000, .i32⟩ : BufTy).Contents (Elt F)),
    StableHlo.binary main_v8 main_v35 main_v36 (cmpi .slt : (⟨S900000, .i32⟩ : BufTy).Contents (Elt F) → (⟨S900000, .i32⟩ : BufTy).Contents (Elt F) → (⟨S900000, .i1⟩ : BufTy).Contents (Elt F)),
    StableHlo.nullary main_c_6 (constantI S_ 32 100000#32),
    StableHlo.unary main_c_6 main_v37 (broadcastInDim S900000 ![] bcast_S_S900000 : (⟨S_, .i32⟩ : BufTy).Contents (Elt F) → (⟨S900000, .i32⟩ : BufTy).Contents (Elt F)),
    StableHlo.binary main_v8 main_v37 main_v38 (addi : (⟨S900000, .i32⟩ : BufTy).Contents (Elt F) → (⟨S900000, .i32⟩ : BufTy).Contents (Elt F) → (⟨S900000, .i32⟩ : BufTy).Contents (Elt F)),
    StableHlo.ternary main_v36 main_v38 main_v8 main_v39 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v39 main_v40 (broadcastInDim S900000x1 ![0] bcast_S900000_S900000x1_0 : (⟨S900000, .i32⟩ : BufTy).Contents (Elt F) → (⟨S900000x1, .i32⟩ : BufTy).Contents (Elt F)),
    StableHlo.binary main_v4 main_v40 main_v41 ((fun x i => Host.gather gather_S100000x128_S900000x1_S900000x128_1_0_n_n_0_1_1128 x i) : (⟨S100000x128, .f32⟩ : BufTy).Contents (Elt F) → (⟨S900000x1, .i32⟩ : BufTy).Contents (Elt F) → (⟨S900000x128, .f32⟩ : BufTy).Contents (Elt F)),
    StableHlo.unary main_v34 main_v42 (broadcastInDim S900000x128 ![0, 1] bcast_S900000x1_S900000x128_0_1 : (⟨S900000x1, .f32⟩ : BufTy).Contents (Elt F) → (⟨S900000x128, .f32⟩ : BufTy).Contents (Elt F)),
    StableHlo.binary main_v42 main_v41 main_v43 (mulf : (⟨S900000x128, .f32⟩ : BufTy).Contents (Elt F) → (⟨S900000x128, .f32⟩ : BufTy).Contents (Elt F) → (⟨S900000x128, .f32⟩ : BufTy).Contents (Elt F)),
    StableHlo.nullary main_cst_7 (constant S_ .f32 0x00000000#32),
    StableHlo.unary main_cst_7 main_v44 (broadcastInDim S100000x128 ![] bcast_S_S100000x128 : (⟨S_, .f32⟩ : BufTy).Contents (Elt F) → (⟨S100000x128, .f32⟩ : BufTy).Contents (Elt F)),
    StableHlo.unary main_v11 main_v45 (broadcastInDim S900000x1 ![0] bcast_S900000_S900000x1_0 : (⟨S900000, .i32⟩ : BufTy).Contents (Elt F) → (⟨S900000x1, .i32⟩ : BufTy).Contents (Elt F)),
    StableHlo.ternary main_v44 main_v45 main_v43 main_v46 ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)),
    StableHlo.unary main_arg4 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v48 main_v49 (addf : (⟨S100000x128, .f32⟩ : BufTy).Contents (Elt F) → (⟨S100000x128, .f32⟩ : BufTy).Contents (Elt F) → (⟨S100000x128, .f32⟩ : BufTy).Contents (Elt F)) ]
set_option maxHeartbeats 4000000 in
/-- @relu's body, the projection hx·Wp + bp and the row softmax: up to %65. -/
abbrev refS : List (HloOp τ sig (Elt F)) :=
  [ StableHlo.TRef.nullary main_call0.cst (constant S_ .f32 0x00000000#32),
    StableHlo.TRef.unary main_call0.cst main_call0.v0 (broadcastInDim S100000x128 ![] bcast_S_S100000x128),
    StableHlo.TRef.binary (.of main_v49 : StableHlo.TRef sig ⟨S100000x128, .f32⟩) main_call0.v0 main_call0.v1 maximumf,
    StableHlo.binary main_v50 main_arg5 main_v51 ((fun l r => Host.dotGeneral dot_S100000x128_S128x9_S100000x9_1_0_0_1_n_n none l r) : (⟨S100000x128, .f32⟩ : BufTy).Contents (Elt F) → (⟨S128x9, .f32⟩ : BufTy).Contents (Elt F) → (⟨S100000x9, .f32⟩ : BufTy).Contents (Elt F)),
    StableHlo.unary main_arg6 main_v52 (broadcastInDim S1x9 ![1] bcast_S9_S1x9_1 : (⟨S9, .f32⟩ : BufTy).Contents (Elt F) → (⟨S1x9, .f32⟩ : BufTy).Contents (Elt F)),
    StableHlo.unary main_v52 main_v53 (broadcastInDim S100000x9 ![0, 1] bcast_S1x9_S100000x9_0_1 : (⟨S1x9, .f32⟩ : BufTy).Contents (Elt F) → (⟨S100000x9, .f32⟩ : BufTy).Contents (Elt F)),
    StableHlo.binary main_v51 main_v53 main_v54 (addf : (⟨S100000x9, .f32⟩ : BufTy).Contents (Elt F) → (⟨S100000x9, .f32⟩ : BufTy).Contents (Elt F) → (⟨S100000x9, .f32⟩ : BufTy).Contents (Elt F)),
    StableHlo.nullary main_cst_8 (constant S_ .f32 0xFF800000#32),
    StableHlo.binary main_v54 main_cst_8 main_v55 ((fun x v => Host.reduce FloatOps.maximumf x v reducesTo_S100000x9_S100000_d1 h_S_) : (⟨S100000x9, .f32⟩ : BufTy).Contents (Elt F) → (⟨S_, .f32⟩ : BufTy).Contents (Elt F) → (⟨S100000, .f32⟩ : BufTy).Contents (Elt F)),
    StableHlo.nullary main_cst_9 (constant S_ .f32 0xFF800000#32),
    StableHlo.unary main_cst_9 main_v56 (broadcastInDim S100000 ![] bcast_S_S100000 : (⟨S_, .f32⟩ : BufTy).Contents (Elt F) → (⟨S100000, .f32⟩ : BufTy).Contents (Elt F)),
    StableHlo.binary main_v56 main_v55 main_v57 (maximumf : (⟨S100000, .f32⟩ : BufTy).Contents (Elt F) → (⟨S100000, .f32⟩ : BufTy).Contents (Elt F) → (⟨S100000, .f32⟩ : BufTy).Contents (Elt F)),
    StableHlo.unary main_v57 main_v58 (broadcastInDim S100000x1 ![0] bcast_S100000_S100000x1_0 : (⟨S100000, .f32⟩ : BufTy).Contents (Elt F) → (⟨S100000x1, .f32⟩ : BufTy).Contents (Elt F)),
    StableHlo.unary main_v58 main_v59 (broadcastInDim S100000x9 ![0, 1] bcast_S100000x1_S100000x9_0_1 : (⟨S100000x1, .f32⟩ : BufTy).Contents (Elt F) → (⟨S100000x9, .f32⟩ : BufTy).Contents (Elt F)),
    StableHlo.binary main_v54 main_v59 main_v60 (subf : (⟨S100000x9, .f32⟩ : BufTy).Contents (Elt F) → (⟨S100000x9, .f32⟩ : BufTy).Contents (Elt F) → (⟨S100000x9, .f32⟩ : BufTy).Contents (Elt F)),
    StableHlo.unary main_v60 main_v61 (Host.exp : (⟨S100000x9, .f32⟩ : BufTy).Contents (Elt F) → (⟨S100000x9, .f32⟩ : BufTy).Contents (Elt F)),
    StableHlo.nullary main_cst_10 (constant S_ .f32 0x00000000#32),
    StableHlo.binary main_v61 main_cst_10 main_v62 ((fun x v => Host.reduceAdd x v reducesTo_S100000x9_S100000_d1 h_S_) : (⟨S100000x9, .f32⟩ : BufTy).Contents (Elt F) → (⟨S_, .f32⟩ : BufTy).Contents (Elt F) → (⟨S100000, .f32⟩ : BufTy).Contents (Elt F)),
    StableHlo.unary main_v62 main_v63 (broadcastInDim S100000x1 ![0] bcast_S100000_S100000x1_0 : (⟨S100000, .f32⟩ : BufTy).Contents (Elt F) → (⟨S100000x1, .f32⟩ : BufTy).Contents (Elt F)),
    StableHlo.unary main_v63 main_v64 (broadcastInDim S100000x9 ![0, 1] bcast_S100000x1_S100000x9_0_1 : (⟨S100000x1, .f32⟩ : BufTy).Contents (Elt F) → (⟨S100000x9, .f32⟩ : BufTy).Contents (Elt F)),
    StableHlo.binary main_v61 main_v64 main_v65 (Host.divf : (⟨S100000x9, .f32⟩ : BufTy).Contents (Elt F) → (⟨S100000x9, .f32⟩ : BufTy).Contents (Elt F) → (⟨S100000x9, .f32⟩ : BufTy).Contents (Elt F)) ]
set_option maxHeartbeats 4000000 in
/-- From %66 to the end of @main's second window: the pooled features, the pooled adjacency with @trace's body, the cut loss, sᵀ·s and the first @norm. -/
abbrev refT1 : List (HloOp τ sig (Elt F)) :=
  [ StableHlo.unary main_v65 main_v66 ((transpose S9x100000 [1, 0] · transposes_S100000x9_S9x100000_1_0) : (⟨S100000x9, .f32⟩ : BufTy).Contents (Elt F) → (⟨S9x100000, .f32⟩ : BufTy).Contents (Elt F)),
    StableHlo.binary main_v66 main_v50 main_v67 ((fun l r => Host.dotGeneral dot_S9x100000_S100000x128_S9x128_1_0_0_1_n_n none l r) : (⟨S9x100000, .f32⟩ : BufTy).Contents (Elt F) → (⟨S100000x128, .f32⟩ : BufTy).Contents (Elt F) → (⟨S9x128, .f32⟩ : BufTy).Contents (Elt F)),
    StableHlo.nullary main_c_11 (constantI S_ 32 0#32),
    StableHlo.unary main_c_11 main_v68 (broadcastInDim S800000 ![] bcast_S_S800000 : (⟨S_, .i32⟩ : BufTy).Contents (Elt F) → (⟨S800000, .i32⟩ : BufTy).Contents (Elt F)),
    StableHlo.binary main_v1 main_v68 main_v69 (cmpi .slt : (⟨S800000, .i32⟩ : BufTy).Contents (Elt F) → (⟨S800000, .i32⟩ : BufTy).Contents (Elt F) → (⟨S800000, .i1⟩ : BufTy).Contents (Elt F)),
    StableHlo.nullary main_c_12 (constantI S_ 32 100000#32),
    StableHlo.unary main_c_12 main_v70 (broadcastInDim S800000 ![] bcast_S_S800000 : (⟨S_, .i32⟩ : BufTy).Contents (Elt F) → (⟨S800000, .i32⟩ : BufTy).Contents (Elt F)),
    StableHlo.binary main_v1 main_v70 main_v71 (addi : (⟨S800000, .i32⟩ : BufTy).Contents (Elt F) → (⟨S800000, .i32⟩ : BufTy).Contents (Elt F) → (⟨S800000, .i32⟩ : BufTy).Contents (Elt F)),
    StableHlo.ternary main_v69 main_v71 main_v1 main_v72 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v72 main_v73 (broadcastInDim S800000x1 ![0] bcast_S800000_S800000x1_0 : (⟨S800000, .i32⟩ : BufTy).Contents (Elt F) → (⟨S800000x1, .i32⟩ : BufTy).Contents (Elt F)),
    StableHlo.binary main_v65 main_v73 main_v74 ((fun x i => Host.gather gather_S100000x9_S800000x1_S800000x9_1_0_n_n_0_1_19 x i) : (⟨S100000x9, .f32⟩ : BufTy).Contents (Elt F) → (⟨S800000x1, .i32⟩ : BufTy).Contents (Elt F) → (⟨S800000x9, .f32⟩ : BufTy).Contents (Elt F)),
    StableHlo.nullary main_c_13 (constantI S_ 32 0#32),
    StableHlo.unary main_c_13 main_v75 (broadcastInDim S800000 ![] bcast_S_S800000 : (⟨S_, .i32⟩ : BufTy).Contents (Elt F) → (⟨S800000, .i32⟩ : BufTy).Contents (Elt F)),
    StableHlo.binary main_v3 main_v75 main_v76 (cmpi .slt : (⟨S800000, .i32⟩ : BufTy).Contents (Elt F) → (⟨S800000, .i32⟩ : BufTy).Contents (Elt F) → (⟨S800000, .i1⟩ : BufTy).Contents (Elt F)),
    StableHlo.nullary main_c_14 (constantI S_ 32 100000#32),
    StableHlo.unary main_c_14 main_v77 (broadcastInDim S800000 ![] bcast_S_S800000 : (⟨S_, .i32⟩ : BufTy).Contents (Elt F) → (⟨S800000, .i32⟩ : BufTy).Contents (Elt F)),
    StableHlo.binary main_v3 main_v77 main_v78 (addi : (⟨S800000, .i32⟩ : BufTy).Contents (Elt F) → (⟨S800000, .i32⟩ : BufTy).Contents (Elt F) → (⟨S800000, .i32⟩ : BufTy).Contents (Elt F)),
    StableHlo.ternary main_v76 main_v78 main_v3 main_v79 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v79 main_v80 (broadcastInDim S800000x1 ![0] bcast_S800000_S800000x1_0 : (⟨S800000, .i32⟩ : BufTy).Contents (Elt F) → (⟨S800000x1, .i32⟩ : BufTy).Contents (Elt F)),
    StableHlo.binary main_v65 main_v80 main_v81 ((fun x i => Host.gather gather_S100000x9_S800000x1_S800000x9_1_0_n_n_0_1_19 x i) : (⟨S100000x9, .f32⟩ : BufTy).Contents (Elt F) → (⟨S800000x1, .i32⟩ : BufTy).Contents (Elt F) → (⟨S800000x9, .f32⟩ : BufTy).Contents (Elt F)),
    StableHlo.binary main_v74 main_v81 main_v82 ((fun l r => Host.dotGeneral dot_S800000x9_S800000x9_S9x9_0_0_1_1_n_n none l r) : (⟨S800000x9, .f32⟩ : BufTy).Contents (Elt F) → (⟨S800000x9, .f32⟩ : BufTy).Contents (Elt F) → (⟨S9x9, .f32⟩ : BufTy).Contents (Elt F)),
    StableHlo.TRef.nullary main_call1.v0 (iotaInDim S9x9 32 0),
    StableHlo.TRef.nullary main_call1.v1 (iotaInDim S9x9 32 1),
    StableHlo.TRef.nullary main_call1.c (constantI S_ 32 0#32),
    StableHlo.TRef.unary main_call1.c main_call1.v2 (broadcastInDim S9x9 ![] bcast_S_S9x9),
    StableHlo.TRef.binary main_call1.v0 main_call1.v2 main_call1.v3 addi,
    StableHlo.TRef.binary main_call1.v3 main_call1.v1 main_call1.v4 (cmpi .eq),
    StableHlo.TRef.nullary main_call1.cst (constant S_ .f32 0x00000000#32),
    StableHlo.TRef.unary main_call1.cst main_call1.v5 (broadcastInDim S9x9 ![] bcast_S_S9x9),
    StableHlo.TRef.ternary main_call1.v4 (.of main_v82 : StableHlo.TRef sig ⟨S9x9, .f32⟩) main_call1.v5 main_call1.call0.v0 select,
    StableHlo.TRef.nullary main_call1.cst_0 (constant S_ .f32 0x00000000#32),
    StableHlo.TRef.binary main_call1.call0.v0 main_call1.cst_0 main_call1.v7 (fun x v => Host.reduceAdd x v reducesTo_S9x9_S_d0_1 h_S_),
    StableHlo.nullary main_cst_15 (constant S_ .f32 0x3F800000#32),
    StableHlo.unary main_cst_15 main_v84 (broadcastInDim S800000 ![] bcast_S_S800000 : (⟨S_, .f32⟩ : BufTy).Contents (Elt F) → (⟨S800000, .f32⟩ : BufTy).Contents (Elt F)),
    StableHlo.nullary main_cst_16 (constant S_ .f32 0x00000000#32),
    StableHlo.unary main_cst_16 main_v85 (broadcastInDim S100000 ![] bcast_S_S100000 : (⟨S_, .f32⟩ : BufTy).Contents (Elt F) → (⟨S100000, .f32⟩ : BufTy).Contents (Elt F)),
    StableHlo.unary main_v3 main_v86 (broadcastInDim S800000x1 ![0] bcast_S800000_S800000x1_0 : (⟨S800000, .i32⟩ : BufTy).Contents (Elt F) → (⟨S800000x1, .i32⟩ : BufTy).Contents (Elt F)),
    StableHlo.ternary main_v85 main_v86 main_v84 main_v87 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.binary main_v65 main_v65 main_v88 (mulf : (⟨S100000x9, .f32⟩ : BufTy).Contents (Elt F) → (⟨S100000x9, .f32⟩ : BufTy).Contents (Elt F) → (⟨S100000x9, .f32⟩ : BufTy).Contents (Elt F)),
    StableHlo.nullary main_cst_17 (constant S_ .f32 0x00000000#32),
    StableHlo.binary main_v88 main_cst_17 main_v89 ((fun x v => Host.reduceAdd x v reducesTo_S100000x9_S100000_d1 h_S_) : (⟨S100000x9, .f32⟩ : BufTy).Contents (Elt F) → (⟨S_, .f32⟩ : BufTy).Contents (Elt F) → (⟨S100000, .f32⟩ : BufTy).Contents (Elt F)),
    StableHlo.binary main_v87 main_v89 main_v90 (mulf : (⟨S100000, .f32⟩ : BufTy).Contents (Elt F) → (⟨S100000, .f32⟩ : BufTy).Contents (Elt F) → (⟨S100000, .f32⟩ : BufTy).Contents (Elt F)),
    StableHlo.nullary main_cst_18 (constant S_ .f32 0x00000000#32),
    StableHlo.binary main_v90 main_cst_18 main_v91 ((fun x v => Host.reduceAdd x v reducesTo_S100000_S_d0 h_S_) : (⟨S100000, .f32⟩ : BufTy).Contents (Elt F) → (⟨S_, .f32⟩ : BufTy).Contents (Elt F) → (⟨S_, .f32⟩ : BufTy).Contents (Elt F)),
    StableHlo.nullary main_cst_19 (constant S_ .f32 0x26901D7D#32),
    StableHlo.binary main_v91 main_cst_19 main_v92 (addf : (⟨S_, .f32⟩ : BufTy).Contents (Elt F) → (⟨S_, .f32⟩ : BufTy).Contents (Elt F) → (⟨S_, .f32⟩ : BufTy).Contents (Elt F)),
    StableHlo.binary main_v83 main_v92 main_v93 (Host.divf : (⟨S_, .f32⟩ : BufTy).Contents (Elt F) → (⟨S_, .f32⟩ : BufTy).Contents (Elt F) → (⟨S_, .f32⟩ : BufTy).Contents (Elt F)),
    StableHlo.unary main_v93 main_v94 (Host.negf : (⟨S_, .f32⟩ : BufTy).Contents (Elt F) → (⟨S_, .f32⟩ : BufTy).Contents (Elt F)),
    StableHlo.unary main_v65 main_v95 ((transpose S9x100000 [1, 0] · transposes_S100000x9_S9x100000_1_0) : (⟨S100000x9, .f32⟩ : BufTy).Contents (Elt F) → (⟨S9x100000, .f32⟩ : BufTy).Contents (Elt F)),
    StableHlo.binary main_v95 main_v65 main_v96 ((fun l r => Host.dotGeneral dot_S9x100000_S100000x9_S9x9_1_0_0_1_n_n none l r) : (⟨S9x100000, .f32⟩ : BufTy).Contents (Elt F) → (⟨S100000x9, .f32⟩ : BufTy).Contents (Elt F) → (⟨S9x9, .f32⟩ : BufTy).Contents (Elt F)),
    StableHlo.TRef.binary (.of main_v96 : StableHlo.TRef sig ⟨S9x9, .f32⟩) (.of main_v96 : StableHlo.TRef sig ⟨S9x9, .f32⟩) main_call2.v0 mulf,
    StableHlo.TRef.nullary main_call2.cst (constant S_ .f32 0x00000000#32),
    StableHlo.TRef.binary main_call2.v0 main_call2.cst main_call2.v1 (fun x v => Host.reduceAdd x v reducesTo_S9x9_S_d0_1 h_S_),
    StableHlo.TRef.unary main_call2.v1 main_call2.v2 Host.sqrt ]
set_option maxHeartbeats 4000000 in
/-- @main's third window: the orthogonality loss, the normalised pooled adjacency, @log_softmax's body. -/
abbrev refT2 : List (HloOp τ sig (Elt F)) :=
  [ StableHlo.unary main_v97 main_v98 (broadcastInDim S9x9 ![] bcast_S_S9x9 : (⟨S_, .f32⟩ : BufTy).Contents (Elt F) → (⟨S9x9, .f32⟩ : BufTy).Contents (Elt F)),
    StableHlo.binary main_v96 main_v98 main_v99 (Host.divf : (⟨S9x9, .f32⟩ : BufTy).Contents (Elt F) → (⟨S9x9, .f32⟩ : BufTy).Contents (Elt F) → (⟨S9x9, .f32⟩ : BufTy).Contents (Elt F)),
    StableHlo.nullary main_v100 (iotaInDim S9x9 32 0),
    StableHlo.nullary main_v101 (iotaInDim S9x9 32 1),
    StableHlo.nullary main_c_20 (constantI S_ 32 0#32),
    StableHlo.unary main_c_20 main_v102 (broadcastInDim S9x9 ![] bcast_S_S9x9 : (⟨S_, .i32⟩ : BufTy).Contents (Elt F) → (⟨S9x9, .i32⟩ : BufTy).Contents (Elt F)),
    StableHlo.binary main_v100 main_v102 main_v103 (addi : (⟨S9x9, .i32⟩ : BufTy).Contents (Elt F) → (⟨S9x9, .i32⟩ : BufTy).Contents (Elt F) → (⟨S9x9, .i32⟩ : BufTy).Contents (Elt F)),
    StableHlo.binary main_v103 main_v101 main_v104 (cmpi .eq : (⟨S9x9, .i32⟩ : BufTy).Contents (Elt F) → (⟨S9x9, .i32⟩ : BufTy).Contents (Elt F) → (⟨S9x9, .i1⟩ : BufTy).Contents (Elt F)),
    StableHlo.unary main_v104 main_v105 (uitofp .f32 : (⟨S9x9, .i1⟩ : BufTy).Contents (Elt F) → (⟨S9x9, .f32⟩ : BufTy).Contents (Elt F)),
    StableHlo.nullary main_cst_21 (constant S_ .f32 0x41100000#32),
    StableHlo.unary main_cst_21 main_v106 (Host.sqrt : (⟨S_, .f32⟩ : BufTy).Contents (Elt F) → (⟨S_, .f32⟩ : BufTy).Contents (Elt F)),
    StableHlo.unary main_v106 main_v107 (broadcastInDim S9x9 ![] bcast_S_S9x9 : (⟨S_, .f32⟩ : BufTy).Contents (Elt F) → (⟨S9x9, .f32⟩ : BufTy).Contents (Elt F)),
    StableHlo.binary main_v105 main_v107 main_v108 (Host.divf : (⟨S9x9, .f32⟩ : BufTy).Contents (Elt F) → (⟨S9x9, .f32⟩ : BufTy).Contents (Elt F) → (⟨S9x9, .f32⟩ : BufTy).Contents (Elt F)),
    StableHlo.binary main_v99 main_v108 main_v109 (subf : (⟨S9x9, .f32⟩ : BufTy).Contents (Elt F) → (⟨S9x9, .f32⟩ : BufTy).Contents (Elt F) → (⟨S9x9, .f32⟩ : BufTy).Contents (Elt F)),
    StableHlo.TRef.binary (.of main_v109 : StableHlo.TRef sig ⟨S9x9, .f32⟩) (.of main_v109 : StableHlo.TRef sig ⟨S9x9, .f32⟩) main_call3.v0 mulf,
    StableHlo.TRef.nullary main_call3.cst (constant S_ .f32 0x00000000#32),
    StableHlo.TRef.binary main_call3.v0 main_call3.cst main_call3.v1 (fun x v => Host.reduceAdd x v reducesTo_S9x9_S_d0_1 h_S_),
    StableHlo.TRef.unary main_call3.v1 main_call3.v2 Host.sqrt,
    StableHlo.nullary main_v111 (iotaInDim S9x9 32 0),
    StableHlo.nullary main_v112 (iotaInDim S9x9 32 1),
    StableHlo.nullary main_c_22 (constantI S_ 32 0#32),
    StableHlo.unary main_c_22 main_v113 (broadcastInDim S9x9 ![] bcast_S_S9x9 : (⟨S_, .i32⟩ : BufTy).Contents (Elt F) → (⟨S9x9, .i32⟩ : BufTy).Contents (Elt F)),
    StableHlo.binary main_v111 main_v113 main_v114 (addi : (⟨S9x9, .i32⟩ : BufTy).Contents (Elt F) → (⟨S9x9, .i32⟩ : BufTy).Contents (Elt F) → (⟨S9x9, .i32⟩ : BufTy).Contents (Elt F)),
    StableHlo.binary main_v114 main_v112 main_v115 (cmpi .eq : (⟨S9x9, .i32⟩ : BufTy).Contents (Elt F) → (⟨S9x9, .i32⟩ : BufTy).Contents (Elt F) → (⟨S9x9, .i1⟩ : BufTy).Contents (Elt F)),
    StableHlo.unary main_v115 main_v116 (uitofp .f32 : (⟨S9x9, .i1⟩ : BufTy).Contents (Elt F) → (⟨S9x9, .f32⟩ : BufTy).Contents (Elt F)),
    StableHlo.nullary main_cst_23 (constant S_ .f32 0x3F800000#32),
    StableHlo.unary main_cst_23 main_v117 (broadcastInDim S9x9 ![] bcast_S_S9x9 : (⟨S_, .f32⟩ : BufTy).Contents (Elt F) → (⟨S9x9, .f32⟩ : BufTy).Contents (Elt F)),
    StableHlo.binary main_v117 main_v116 main_v118 (subf : (⟨S9x9, .f32⟩ : BufTy).Contents (Elt F) → (⟨S9x9, .f32⟩ : BufTy).Contents (Elt F) → (⟨S9x9, .f32⟩ : BufTy).Contents (Elt F)),
    StableHlo.binary main_v82 main_v118 main_v119 (mulf : (⟨S9x9, .f32⟩ : BufTy).Contents (Elt F) → (⟨S9x9, .f32⟩ : BufTy).Contents (Elt F) → (⟨S9x9, .f32⟩ : BufTy).Contents (Elt F)),
    StableHlo.nullary main_cst_24 (constant S_ .f32 0x00000000#32),
    StableHlo.binary main_v119 main_cst_24 main_v120 ((fun x v => Host.reduceAdd x v reducesTo_S9x9_S9_d1 h_S_) : (⟨S9x9, .f32⟩ : BufTy).Contents (Elt F) → (⟨S_, .f32⟩ : BufTy).Contents (Elt F) → (⟨S9, .f32⟩ : BufTy).Contents (Elt F)),
    StableHlo.nullary main_cst_25 (constant S_ .f32 0x26901D7D#32),
    StableHlo.unary main_cst_25 main_v121 (broadcastInDim S9 ![] bcast_S_S9 : (⟨S_, .f32⟩ : BufTy).Contents (Elt F) → (⟨S9, .f32⟩ : BufTy).Contents (Elt F)),
    StableHlo.binary main_v120 main_v121 main_v122 (addf : (⟨S9, .f32⟩ : BufTy).Contents (Elt F) → (⟨S9, .f32⟩ : BufTy).Contents (Elt F) → (⟨S9, .f32⟩ : BufTy).Contents (Elt F)),
    StableHlo.unary main_v122 main_v123 (Host.rsqrt : (⟨S9, .f32⟩ : BufTy).Contents (Elt F) → (⟨S9, .f32⟩ : BufTy).Contents (Elt F)),
    StableHlo.unary main_v123 main_v124 (broadcastInDim S9x1 ![0] bcast_S9_S9x1_0 : (⟨S9, .f32⟩ : BufTy).Contents (Elt F) → (⟨S9x1, .f32⟩ : BufTy).Contents (Elt F)),
    StableHlo.unary main_v124 main_v125 (broadcastInDim S9x9 ![0, 1] bcast_S9x1_S9x9_0_1 : (⟨S9x1, .f32⟩ : BufTy).Contents (Elt F) → (⟨S9x9, .f32⟩ : BufTy).Contents (Elt F)),
    StableHlo.binary main_v125 main_v119 main_v126 (mulf : (⟨S9x9, .f32⟩ : BufTy).Contents (Elt F) → (⟨S9x9, .f32⟩ : BufTy).Contents (Elt F) → (⟨S9x9, .f32⟩ : BufTy).Contents (Elt F)),
    StableHlo.unary main_v123 main_v127 (broadcastInDim S1x9 ![1] bcast_S9_S1x9_1 : (⟨S9, .f32⟩ : BufTy).Contents (Elt F) → (⟨S1x9, .f32⟩ : BufTy).Contents (Elt F)),
    StableHlo.unary main_v127 main_v128 (broadcastInDim S9x9 ![0, 1] bcast_S1x9_S9x9_0_1 : (⟨S1x9, .f32⟩ : BufTy).Contents (Elt F) → (⟨S9x9, .f32⟩ : BufTy).Contents (Elt F)),
    StableHlo.binary main_v126 main_v128 main_v129 (mulf : (⟨S9x9, .f32⟩ : BufTy).Contents (Elt F) → (⟨S9x9, .f32⟩ : BufTy).Contents (Elt F) → (⟨S9x9, .f32⟩ : BufTy).Contents (Elt F)),
    StableHlo.unary main_v67 main_v130 (broadcastInDim S1x9x128 ![1, 2] bcast_S9x128_S1x9x128_1_2 : (⟨S9x128, .f32⟩ : BufTy).Contents (Elt F) → (⟨S1x9x128, .f32⟩ : BufTy).Contents (Elt F)),
    StableHlo.TRef.nullary main_call4.cst (constant S_ .f32 0xFF800000#32),
    StableHlo.TRef.binary (.of main_v130 : StableHlo.TRef sig ⟨S1x9x128, .f32⟩) main_call4.cst main_call4.v0 (fun x v => Host.reduce FloatOps.maximumf x v reducesTo_S1x9x128_S1x9_d2 h_S_),
    StableHlo.TRef.nullary main_call4.cst_0 (constant S_ .f32 0xFF800000#32),
    StableHlo.TRef.unary main_call4.cst_0 main_call4.v1 (broadcastInDim S1x9 ![] bcast_S_S1x9),
    StableHlo.TRef.binary main_call4.v1 main_call4.v0 main_call4.v2 maximumf,
    StableHlo.TRef.unary main_call4.v2 main_call4.v3 (broadcastInDim S1x9x1 ![0, 1] bcast_S1x9_S1x9x1_0_1),
    StableHlo.TRef.unary main_call4.v3 main_call4.v4 (broadcastInDim S1x9x128 ![0, 1, 2] bcast_S1x9x1_S1x9x128_0_1_2),
    StableHlo.TRef.binary (.of main_v130 : StableHlo.TRef sig ⟨S1x9x128, .f32⟩) main_call4.v4 main_call4.v5 subf,
    StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S1x9x128_S1x9_d2 h_S_),
    StableHlo.TRef.unary main_call4.v7 main_call4.v8 (broadcastInDim S1x9x1 ![0, 1] bcast_S1x9_S1x9x1_0_1),
    StableHlo.TRef.unary main_call4.v8 main_call4.v9 Host.log,
    StableHlo.TRef.unary main_call4.v9 main_call4.v10 (broadcastInDim S1x9x128 ![0, 1, 2] bcast_S1x9x1_S1x9x128_0_1_2),
    StableHlo.TRef.binary main_call4.v5 main_call4.v10 main_call4.v11 subf,
    StableHlo.unary main_v129 main_v132 (broadcastInDim S1x9x9 ![1, 2] bcast_S9x9_S1x9x9_1_2 : (⟨S9x9, .f32⟩ : BufTy).Contents (Elt F) → (⟨S1x9x9, .f32⟩ : BufTy).Contents (Elt F)) ]
end Cert.ReferenceIdeal.RefOps

end
-- ==== Proof.RefRunL.lean ====
/-
  General facts about a line of host operations used to read the reference program's run: the fold of buffer
  contents through two lines run one after the other, and which buffers a line leaves alone.
-/
import proofs.«148048_j2284922601976_1_alg».proof.Proof.RefOps
import Idealize.ShloMosaic.Lib.Pipeline.Regions

noncomputable section

namespace Cert.ReferenceIdeal.RefRun

open Idealize.ShloMosaic Idealize.ShloMosaic.TcCoe Idealize.SL.Sem Idealize.ShloMosaic.StableHlo
open Cert.ReferenceIdeal

variable {F : FTy → Type} [FloatOps F]

/-- The buffer contents after two lines run one after the other: the second line's fold from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every operation of two lines holds of every operation of their concatenation. -/
theorem forall_append_of {p : HloOp τ sig (Elt F) → Prop} {l₁ l₂ : List (HloOp τ sig (Elt F))}
    (h₁ : l₁.Forall p) (h₂ : l₂.Forall p) : (l₁ ++ l₂).Forall p :=
  List.forall_append.2 ⟨h₁, h₂⟩

/-- An operation whose one written buffer is the reference `y`, a member of the list `W`, writes inside `W`. -/
theorem writes_sub_of_mem {W : List (Ref sig .tc)} {y : Ref sig .tc} (h : y ∈ W) :
    ({Proc.devRef .tc y} : Finset (DevRef τ sig)) ⊆ (W.map (Proc.devRef (τ := τ) .tc)).toFinset := by
  rw [Finset.singleton_subset_iff, List.mem_toFinset]
  exact List.mem_map_of_mem h

end Cert.ReferenceIdeal.RefRun

end
-- ==== Proof.RefRunA.lean ====
/-
  The reference program's first window (statements %0 … %49) as the line of host operations `refA`, and the side
  facts of that line: its operations touch TensorCore buffers only, determine their results, and write only the listed
  buffers.
-/
import proofs.«148048_j2284922601976_1_alg».proof.Proof.RefRunL

set_option maxRecDepth 16384

noncomputable section

namespace Cert.ReferenceIdeal.RefRun

open Idealize.ShloMosaic Idealize.ShloMosaic.TcCoe Idealize.SL.Sem Idealize.ShloMosaic.StableHlo
open Cert.ReferenceIdeal Cert.ReferenceIdeal.Facts₀ Cert.ReferenceIdeal.Facts Cert.ReferenceIdeal.RefOps

variable {F : FTy → Type} [FloatOps F] [Cert.ReferenceIdeal.Facts]

/-- The first window of @main is the line `refA`: each statement is one operation, in order. -/
theorem part0_eq (c : Dev nD) : main_part0 (F := F) c = seq refA := by
  chain_rfl

/-- The buffers the first window's line writes, one per operation, in order. -/
abbrev refA_W : List (Ref sig .tc) :=
  [
    main_v0, main_v1, main_v2, main_v3, main_v4, main_v5, main_v6, main_v7, main_v8, main_v9,
    main_v10, main_v11, main_cst, main_v12, main_cst_0, main_v13, main_v14, main_v15, main_cst_1, main_v16,
    main_v17, main_v18, main_c, main_v19, main_v20, main_c_2, main_v21, main_v22, main_v23, main_v24,
    main_v25, main_c_3, main_v26, main_v27, main_c_4, main_v28, main_v29, main_v30, main_v31, main_v32,
    main_v33, main_v34, main_c_5, main_v35, main_v36, main_c_6, main_v37, main_v38, main_v39, main_v40,
    main_v41, main_v42, main_v43, main_cst_7, main_v44, main_v45, main_v46, main_v47, main_v48, main_v49 ]

/-- Every operation of the first window's line touches TensorCore references only. -/
theorem refA_sub : (refA : List (HloOp τ sig (Elt F))).Forall fun op => op.bufs ⊆ tcRefs τ sig :=
  ⟨
    unary_bufs_sub .., reshape_bufs_sub .., unary_bufs_sub .., reshape_bufs_sub .., binary_bufs_sub .., nullary_bufs_sub ..,
    unary_bufs_sub .., reshape_bufs_sub .., binary_bufs_sub .., unary_bufs_sub .., reshape_bufs_sub .., binary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..⟩

/-- Every operation of the first window's line determines its results. -/
theorem refA_fresh : (refA : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

/-- Every operation of the first window's line writes a buffer of `refA_W`. -/
theorem refA_writes : (refA : List (HloOp τ sig (Elt F))).Forall fun op =>
    op.writes ⊆ ((refA_W).map (Proc.devRef (τ := τ) .tc)).toFinset :=
  ⟨
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide)⟩

/-- A buffer outside `refA_W` holds after the first window's line what it held before. -/
theorem refA_keeps {r : Ref sig .tc} (hr : r ∉ refA_W) (V : Valuation τ sig (Elt F)) :
    after refA V (Proc.devRef .tc r) = V (Proc.devRef .tc r) :=
  after_of_writes_sub refA V refA_writes hr

end Cert.ReferenceIdeal.RefRun

end
-- ==== Proof.RefRunB.lean ====
/-
  The reference program's second window (statements %50 … %97) as the two lines of host operations `refS` (up to the
  assignment matrix %65) and `refT1` (the rest), and the side facts of the two lines: their operations touch TensorCore
  buffers only, determine their results, and write only the listed buffers.
-/
import proofs.«148048_j2284922601976_1_alg».proof.Proof.RefRunL

set_option maxRecDepth 16384

noncomputable section

namespace Cert.ReferenceIdeal.RefRun

open Idealize.ShloMosaic Idealize.ShloMosaic.TcCoe Idealize.SL.Sem Idealize.ShloMosaic.StableHlo
open Cert.ReferenceIdeal Cert.ReferenceIdeal.Facts₀ Cert.ReferenceIdeal.Facts Cert.ReferenceIdeal.RefOps

variable {F : FTy → Type} [FloatOps F] [Cert.ReferenceIdeal.Facts]

/-- The second window of @main is the line `refS` followed by the line `refT1`: each statement is one operation,
    the three callee bodies (the rectifier, the trace with its select, the first Frobenius norm) unfold at their calls
    over the calls' buffers, and sequencing re-associates by computation. -/
theorem part1_chain (c : Dev nD) : main_part1 (F := F) c = (seq refS >>= fun _ => seq refT1) := by
  chain_rfl

/-- The second window as one line. -/
theorem part1_eq (c : Dev nD) : main_part1 (F := F) c = seq (refS ++ refT1) :=
  (part1_chain c).trans (seq_append refS refT1).symm

/-- The buffers the line `refS` writes, one per operation, in order. -/
abbrev refS_W : List (Ref sig .tc) :=
  [
    main_call0_cst, main_call0_v0, main_v50, main_v51, main_v52, main_v53, main_v54, main_cst_8, main_v55, main_cst_9,
    main_v56, main_v57, main_v58, main_v59, main_v60, main_v61, main_cst_10, main_v62, main_v63, main_v64,
    main_v65 ]

/-- Every operation of the line `refS` touches TensorCore references only. -/
theorem refS_sub : (refS : List (HloOp τ sig (Elt F))).Forall fun op => op.bufs ⊆ tcRefs τ sig :=
  ⟨
    nullary_bufs_sub .., unary_bufs_sub .., binary_bufs_sub .., binary_bufs_sub .., unary_bufs_sub .., unary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub ..⟩

/-- Every operation of the line `refS` determines its results. -/
theorem refS_fresh : (refS : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl⟩

/-- Every operation of the line `refS` writes a buffer of `refS_W`. -/
theorem refS_writes : (refS : List (HloOp τ sig (Elt F))).Forall fun op =>
    op.writes ⊆ ((refS_W).map (Proc.devRef (τ := τ) .tc)).toFinset :=
  ⟨
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide)⟩

/-- A buffer outside `refS_W` holds after the line `refS` what it held before. -/
theorem refS_keeps {r : Ref sig .tc} (hr : r ∉ refS_W) (V : Valuation τ sig (Elt F)) :
    after refS V (Proc.devRef .tc r) = V (Proc.devRef .tc r) :=
  after_of_writes_sub refS V refS_writes hr

/-- The buffers the line `refT1` writes, one per operation, in order. -/
abbrev refT1_W : List (Ref sig .tc) :=
  [
    main_v66, main_v67, main_c_11, main_v68, main_v69, main_c_12, main_v70, main_v71, main_v72, main_v73,
    main_v74, main_c_13, main_v75, main_v76, main_c_14, main_v77, main_v78, main_v79, main_v80, main_v81,
    main_v82, main_call1_v0, main_call1_v1, main_call1_c, main_call1_v2, main_call1_v3, main_call1_v4, main_call1_cst, main_call1_v5, main_call1_v6,
    main_call1_cst_0, main_v83, main_cst_15, main_v84, main_cst_16, main_v85, main_v86, main_v87, main_v88, main_cst_17,
    main_v89, main_v90, main_cst_18, main_v91, main_cst_19, main_v92, main_v93, main_v94, main_v95, main_v96,
    main_call2_v0, main_call2_cst, main_call2_v1, main_v97 ]

/-- Every operation of the line `refT1` touches TensorCore references only. -/
theorem refT1_sub : (refT1 : List (HloOp τ sig (Elt F))).Forall fun op => op.bufs ⊆ tcRefs τ sig :=
  ⟨
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., nullary_bufs_sub .., nullary_bufs_sub ..,
    unary_bufs_sub .., binary_bufs_sub .., binary_bufs_sub .., nullary_bufs_sub .., unary_bufs_sub .., ternary_bufs_sub ..,
    nullary_bufs_sub .., binary_bufs_sub .., nullary_bufs_sub .., unary_bufs_sub .., nullary_bufs_sub .., unary_bufs_sub ..,
    unary_bufs_sub .., ternary_bufs_sub .., binary_bufs_sub .., nullary_bufs_sub .., binary_bufs_sub .., binary_bufs_sub ..,
    nullary_bufs_sub .., binary_bufs_sub .., nullary_bufs_sub .., binary_bufs_sub .., binary_bufs_sub .., unary_bufs_sub ..,
    unary_bufs_sub .., binary_bufs_sub .., binary_bufs_sub .., nullary_bufs_sub .., binary_bufs_sub .., unary_bufs_sub ..⟩

/-- Every operation of the line `refT1` determines its results. -/
theorem refT1_fresh : (refT1 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

/-- Every operation of the line `refT1` writes a buffer of `refT1_W`. -/
theorem refT1_writes : (refT1 : List (HloOp τ sig (Elt F))).Forall fun op =>
    op.writes ⊆ ((refT1_W).map (Proc.devRef (τ := τ) .tc)).toFinset :=
  ⟨
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide)⟩

/-- A buffer outside `refT1_W` holds after the line `refT1` what it held before. -/
theorem refT1_keeps {r : Ref sig .tc} (hr : r ∉ refT1_W) (V : Valuation τ sig (Elt F)) :
    after refT1 V (Proc.devRef .tc r) = V (Proc.devRef .tc r) :=
  after_of_writes_sub refT1 V refT1_writes hr

end Cert.ReferenceIdeal.RefRun

end
-- ==== Proof.RefRunC.lean ====
/-
  The reference program's third window (statements from %98 on) as the line of host operations `refT2`, and the
  side facts of that line: its operations touch TensorCore buffers only, determine their results, and write only the
  listed buffers.
-/
import proofs.«148048_j2284922601976_1_alg».proof.Proof.RefRunL

set_option maxRecDepth 16384

noncomputable section

namespace Cert.ReferenceIdeal.RefRun

open Idealize.ShloMosaic Idealize.ShloMosaic.TcCoe Idealize.SL.Sem Idealize.ShloMosaic.StableHlo
open Cert.ReferenceIdeal Cert.ReferenceIdeal.Facts₀ Cert.ReferenceIdeal.Facts Cert.ReferenceIdeal.RefOps

variable {F : FTy → Type} [FloatOps F] [Cert.ReferenceIdeal.Facts]

/-- The third window of @main is the line `refT2`: each statement is one operation, the two callee bodies (the second
    Frobenius norm, the row log-softmax) unfold at their calls over the calls' buffers, and sequencing re-associates by
    computation. -/
theorem part2_eq (c : Dev nD) : main_part2 (F := F) c = seq refT2 := by
  chain_rfl

/-- The buffers the third window's line writes, one per operation, in order. -/
abbrev refT2_W : List (Ref sig .tc) :=
  [
    main_v98, main_v99, main_v100, main_v101, main_c_20, main_v102, main_v103, main_v104, main_v105, main_cst_21,
    main_v106, main_v107, main_v108, main_v109, main_call3_v0, main_call3_cst, main_call3_v1, main_v110, main_v111, main_v112,
    main_c_22, main_v113, main_v114, main_v115, main_v116, main_cst_23, main_v117, main_v118, main_v119, main_cst_24,
    main_v120, main_cst_25, main_v121, main_v122, main_v123, main_v124, main_v125, main_v126, main_v127, main_v128,
    main_v129, main_v130, main_call4_cst, main_call4_v0, main_call4_cst_0, main_call4_v1, main_call4_v2, main_call4_v3, main_call4_v4, main_call4_v5,
    main_call4_v6, main_call4_cst_1, main_call4_v7, main_call4_v8, main_call4_v9, main_call4_v10, main_v131, main_v132 ]

/-- Every operation of the third window's line touches TensorCore references only. -/
theorem refT2_sub : (refT2 : List (HloOp τ sig (Elt F))).Forall fun op => op.bufs ⊆ tcRefs τ sig :=
  ⟨
    unary_bufs_sub .., binary_bufs_sub .., nullary_bufs_sub .., nullary_bufs_sub .., nullary_bufs_sub .., unary_bufs_sub ..,
    binary_bufs_sub .., binary_bufs_sub .., unary_bufs_sub .., nullary_bufs_sub .., unary_bufs_sub .., unary_bufs_sub ..,
    binary_bufs_sub .., binary_bufs_sub .., binary_bufs_sub .., nullary_bufs_sub .., binary_bufs_sub .., unary_bufs_sub ..,
    nullary_bufs_sub .., nullary_bufs_sub .., nullary_bufs_sub .., unary_bufs_sub .., binary_bufs_sub .., binary_bufs_sub ..,
    unary_bufs_sub .., nullary_bufs_sub .., unary_bufs_sub .., binary_bufs_sub .., binary_bufs_sub .., nullary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub .., unary_bufs_sub ..⟩

/-- Every operation of the third window's line determines its results. -/
theorem refT2_fresh : (refT2 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

/-- Every operation of the third window's line writes a buffer of `refT2_W`. -/
theorem refT2_writes : (refT2 : List (HloOp τ sig (Elt F))).Forall fun op =>
    op.writes ⊆ ((refT2_W).map (Proc.devRef (τ := τ) .tc)).toFinset :=
  ⟨
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide)⟩

/-- A buffer outside `refT2_W` holds after the third window's line what it held before. -/
theorem refT2_keeps {r : Ref sig .tc} (hr : r ∉ refT2_W) (V : Valuation τ sig (Elt F)) :
    after refT2 V (Proc.devRef .tc r) = V (Proc.devRef .tc r) :=
  after_of_writes_sub refT2 V refT2_writes hr

end Cert.ReferenceIdeal.RefRun

end
-- ==== Proof.RefRun.lean ====
/-
  The reference program's run. Its @main is a straight line of host operations — the three windows in order, the five
  callee bodies written at their calls — so every weakly fair execution terminates with each TensorCore buffer at the
  fold of the operations' results over the launch contents (`RW`), and the seven argument buffers, which no operation
  writes, end as launched.
-/
import proofs.«148048_j2284922601976_1_alg».proof.Proof.RefRunA
import proofs.«148048_j2284922601976_1_alg».proof.Proof.RefRunB
import proofs.«148048_j2284922601976_1_alg».proof.Proof.RefRunC

set_option maxRecDepth 16384

noncomputable section

namespace Cert.ReferenceIdeal.RefRun

open Idealize.ShloMosaic Idealize.ShloMosaic.TcCoe Idealize.SL.Sem Idealize.ShloMosaic.StableHlo
open Cert.ReferenceIdeal Cert.ReferenceIdeal.Facts₀ Cert.ReferenceIdeal.Facts Cert.ReferenceIdeal.RefOps

variable {F : FTy → Type} [FloatOps F] [Cert.ReferenceIdeal.Facts]

/-- The first window's operations. -/
abbrev opsA : List (HloOp τ sig (Elt F)) := refA
/-- The second window's operations: up to the assignment matrix, then the rest. -/
abbrev opsB : List (HloOp τ sig (Elt F)) := refS ++ refT1
/-- The third window's operations. -/
abbrev opsC : List (HloOp τ sig (Elt F)) := refT2
/-- @main's operations, in order. -/
abbrev ops : List (HloOp τ sig (Elt F)) := opsA ++ (opsB ++ opsC)

/-- @main is the line `ops`: its three windows in order, each the line of its operations. -/
theorem main_eq (c : Dev nD) : main (F := F) c = seq ops := by
  have h : main (F := F) c
      = (main_part0 (F := F) c >>= fun _ => main_part1 (F := F) c >>= fun _ => main_part2 (F := F) c) := rfl
  rw [h, part0_eq, part1_eq, part2_eq]
  exact ((seq_append refA ((refS ++ refT1) ++ refT2)).trans
    (congrArg (fun k => seq refA >>= fun _ => k) (seq_append (refS ++ refT1) refT2))).symm

/-- The reference's signature scopes no TensorCore buffer. -/
theorem scopedRefs_eq : (Finset.univ.filter fun b : Ref sig .tc => b.isScoped) = ∅ := by decide
/-- The reference's signature scopes no semaphore. -/
theorem scopedSems_eq : (Finset.univ.filter fun sm : SemLoc sig => sm.isScoped .tc) = ∅ := by decide

/-- Every operation of @main touches TensorCore references only. -/
theorem ops_sub : (ops : List (HloOp τ sig (Elt F))).Forall fun op => op.bufs ⊆ tcRefs τ sig :=
  forall_append_of refA_sub (forall_append_of (forall_append_of refS_sub refT1_sub) refT2_sub)

/-- Every operation of @main determines its results. -/
theorem ops_fresh : (ops : List (HloOp τ sig (Elt F))).Forall fun op => op.fresh = ∅ :=
  forall_append_of refA_fresh (forall_append_of (forall_append_of refS_fresh refT1_fresh) refT2_fresh)

/-- The fold through all of @main's operations is the four lines' folds, one after the other. -/
theorem after_ops (V : Valuation τ sig (Elt F)) :
    after ops V = after refT2 (after refT1 (after refS (after refA V))) :=
  (after_append refA ((refS ++ refT1) ++ refT2) V).trans
    ((after_append (refS ++ refT1) refT2 _).trans (congrArg (after refT2) (after_append refS refT1 _)))

/-- Core `c`'s buffer contents when @main returns, from the launch memory `m`: the four lines' folds in order. -/
def RW (m : (ℓ : Loc nD τ sig) → Buf (Elt F) ℓ) (c : Dev nD) : Valuation τ sig (Elt F) :=
  after refT2 (after refT1 (after refS (after refA (fun b => m ((c : Dev nD), b)))))

/-- On every device, for any float values, from any memory with zero counters: every weakly fair execution of @main
    terminates with each TensorCore buffer at `RW`. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = RW m c (Proc.devRef .tc b) :=
  (θ_run defs _ _).mono (fun _ h c b => (h c b).trans (congrFun (after_ops (launchContents m c)) _))
    (run_seq scopedRefs_eq scopedSems_eq defs main (fun _ => ops) main_eq (fun _ => ops_sub) m ρ
      (fun _ => List.forall_iff_forall_mem.1 ops_fresh))

/-! No operation writes an argument buffer: each ends as launched. -/

theorem RW_main_arg0 (m : (ℓ : Loc nD τ sig) → Buf (Elt F) ℓ) (c : Dev nD) :
    RW m c (Proc.devRef .tc main_arg0) = m ((c : Thread nD τ).loc main_arg0) :=
  (refT2_keeps (by decide) _).trans ((refT1_keeps (by decide) _).trans ((refS_keeps (by decide) _).trans
    (refA_keeps (by decide) _)))

theorem RW_main_arg1 (m : (ℓ : Loc nD τ sig) → Buf (Elt F) ℓ) (c : Dev nD) :
    RW m c (Proc.devRef .tc main_arg1) = m ((c : Thread nD τ).loc main_arg1) :=
  (refT2_keeps (by decide) _).trans ((refT1_keeps (by decide) _).trans ((refS_keeps (by decide) _).trans
    (refA_keeps (by decide) _)))

theorem RW_main_arg2 (m : (ℓ : Loc nD τ sig) → Buf (Elt F) ℓ) (c : Dev nD) :
    RW m c (Proc.devRef .tc main_arg2) = m ((c : Thread nD τ).loc main_arg2) :=
  (refT2_keeps (by decide) _).trans ((refT1_keeps (by decide) _).trans ((refS_keeps (by decide) _).trans
    (refA_keeps (by decide) _)))

theorem RW_main_arg3 (m : (ℓ : Loc nD τ sig) → Buf (Elt F) ℓ) (c : Dev nD) :
    RW m c (Proc.devRef .tc main_arg3) = m ((c : Thread nD τ).loc main_arg3) :=
  (refT2_keeps (by decide) _).trans ((refT1_keeps (by decide) _).trans ((refS_keeps (by decide) _).trans
    (refA_keeps (by decide) _)))

theorem RW_main_arg4 (m : (ℓ : Loc nD τ sig) → Buf (Elt F) ℓ) (c : Dev nD) :
    RW m c (Proc.devRef .tc main_arg4) = m ((c : Thread nD τ).loc main_arg4) :=
  (refT2_keeps (by decide) _).trans ((refT1_keeps (by decide) _).trans ((refS_keeps (by decide) _).trans
    (refA_keeps (by decide) _)))

theorem RW_main_arg5 (m : (ℓ : Loc nD τ sig) → Buf (Elt F) ℓ) (c : Dev nD) :
    RW m c (Proc.devRef .tc main_arg5) = m ((c : Thread nD τ).loc main_arg5) :=
  (refT2_keeps (by decide) _).trans ((refT1_keeps (by decide) _).trans ((refS_keeps (by decide) _).trans
    (refA_keeps (by decide) _)))

theorem RW_main_arg6 (m : (ℓ : Loc nD τ sig) → Buf (Elt F) ℓ) (c : Dev nD) :
    RW m c (Proc.devRef .tc main_arg6) = m ((c : Thread nD τ).loc main_arg6) :=
  (refT2_keeps (by decide) _).trans ((refT1_keeps (by decide) _).trans ((refS_keeps (by decide) _).trans
    (refA_keeps (by decide) _)))

/-! A result the later lines do not write is read off the fold at the line that writes it. -/

/-- %65 — the row softmax s, @main's fourth result — is written by `refS` and by no later operation. -/
theorem RW_main_v65 (m : (ℓ : Loc nD τ sig) → Buf (Elt F) ℓ) (c : Dev nD) :
    RW m c (Proc.devRef .tc main_v65)
      = after refS (after refA (fun b => m ((c : Dev nD), b))) (Proc.devRef .tc main_v65) :=
  (refT2_keeps (by decide) _).trans (refT1_keeps (by decide) _)

/-- %94 — the negated quotient %83 / (%91 + 1e-15), @main's second result — is written by `refT1` and by no later
    operation. -/
theorem RW_main_v94 (m : (ℓ : Loc nD τ sig) → Buf (Elt F) ℓ) (c : Dev nD) :
    RW m c (Proc.devRef .tc main_v94)
      = after refT1 (after refS (after refA (fun b => m ((c : Dev nD), b)))) (Proc.devRef .tc main_v94) :=
  refT2_keeps (by decide) _

end Cert.ReferenceIdeal.RefRun

end
-- ==== Proof.RegionH1.lean ====
/-
  The first dense layer as one function of its two arrays: h = x · W1, entry by entry.

  Row r of the result depends on row r of x only: h[r, f] = Σ_k x[r, k] · W1[k, f], a sum of 64 products of extended
  reals. Nothing here mentions a program.
-/
import Idealize.ShloMosaic.PureOps.Ideal
import Idealize.ShloMosaic.Lib.ValueIdx

noncomputable section

open scoped BigOperators

namespace Cert.SpecH

open Idealize.ShloMosaic Idealize.ShloMosaic.ValueIdx

/-- The product of a [100000, 64] array with a [64, 128] array, at (r, f): the sum over k of x[r, k] · w[k, f]. -/
def h (x : (⟨2, ![100000, 64]⟩ : Shape).Idx → EReal) (w : (⟨2, ![64, 128]⟩ : Shape).Idx → EReal) :
    (⟨2, ![100000, 128]⟩ : Shape).Idx → EReal :=
  fun i => ∑ k : Fin 64, x (ix2 (⟨(i 0).val, idx2_lt0 i⟩ : Fin 100000) k) * w (ix2 k (⟨(i 1).val, idx2_lt1 i⟩ : Fin 128))

/-- The product read at coordinates given as numbers below the extents. -/
theorem h_apply (x : (⟨2, ![100000, 64]⟩ : Shape).Idx → EReal) (w : (⟨2, ![64, 128]⟩ : Shape).Idx → EReal)
    (r : Fin 100000) (f : Fin 128) :
    h x w (ix2 r f) = ∑ k : Fin 64, x (ix2 r k) * w (ix2 k f) := rfl

/-- The product read at an index whose coordinates are known. -/
theorem h_apply_of_val (x : (⟨2, ![100000, 64]⟩ : Shape).Idx → EReal) (w : (⟨2, ![64, 128]⟩ : Shape).Idx → EReal)
    (i : (⟨2, ![100000, 128]⟩ : Shape).Idx) (r : Fin 100000) (f : Fin 128)
    (h0 : (i 0).val = r.val) (h1 : (i 1).val = f.val) :
    h x w i = ∑ k : Fin 64, x (ix2 r k) * w (ix2 k f) := by
  have e : i = ix2 r f := funext fun d => Fin.ext (by
    match d with
    | ⟨0, _⟩ => exact h0
    | ⟨1, _⟩ => exact h1)
  rw [e]; rfl

end Cert.SpecH

end
-- ==== Proof.LibContract.lean ====
/-
  Two contractions read at an index, at the ideal values, as plain sums over the contracted coordinate.

  A matrix product `[M, K] × [K, N]` accumulated into a zero splat (a kernel's `tpu.matmul`) is, at `(p, f)`,
  `Σ_k l[p, k] · r[k, f]`; a stack of rows `[A, B, K]` contracted with one matrix `[K, N]` on its last axis (a host
  `dot_general`, what `einsum('gck,kf->gcf')` lowers to) is, at `(g, b, f)`, `Σ_k l[g, b, k] · r[k, f]`. The dimension
  numbers are taken as a record whose six axis lists are the literal ones and whose well-formedness proof is ANY proof:
  a printed record with those lists is such a record by unfolding, whatever proof it carries.
-/
import Idealize.ShloMosaic.PureOps.Ideal.Laws
import Idealize.ShloMosaic.Lib.ValueIdx

noncomputable section

open scoped BigOperators

namespace Cert.LibContract

open Idealize.ShloMosaic Idealize.ShloMosaic.ValueIdx

/-! ## A matrix product -/

/-- The dimension numbers of `[M, K] × [K, N] → [M, N]`: the left operand contracted on its columns, the right on its
    rows. -/
abbrev matDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section Mat
variable {M K N : Nat} (wf : DotDims.WF ⟨2, ![M, K]⟩ ⟨2, ![K, N]⟩ ⟨2, ![M, N]⟩ [1] [0] [0] [1] [] [])

/-- The left operand's row is the result's row. -/
theorem mat_lhs_0 (i : (⟨2, ![M, N]⟩ : Shape).Idx) (q : (matDims M K N wf).contr.Idx) :
    ((matDims M K N wf).lhsIdx i q 0).val = (i 0).val := by
  unfold DotDims.lhsIdx
  rw [dif_neg (show ¬(0 : Fin 2) ∈ (matDims M K N wf).lhsBatch from List.not_mem_nil),
    dif_pos (show (0 : Fin 2) ∈ (matDims M K N wf).lhsNonContracting from List.mem_singleton.mpr rfl)]
  rfl

/-- The left operand's column is the contracted coordinate. -/
theorem mat_lhs_1 (i : (⟨2, ![M, N]⟩ : Shape).Idx) (q : (matDims M K N wf).contr.Idx) :
    ((matDims M K N wf).lhsIdx i q 1).val = (q ⟨0, Nat.one_pos⟩).val :=
  (matDims M K N wf).lhsIdx_val_of_single rfl i q

/-- The right operand's row is the contracted coordinate. -/
theorem mat_rhs_0 (i : (⟨2, ![M, N]⟩ : Shape).Idx) (q : (matDims M K N wf).contr.Idx) :
    ((matDims M K N wf).rhsIdx i q 0).val = (q ⟨0, Nat.one_pos⟩).val :=
  (matDims M K N wf).rhsIdx_val_of_single rfl i q

/-- The right operand's column is the result's column. -/
theorem mat_rhs_1 (i : (⟨2, ![M, N]⟩ : Shape).Idx) (q : (matDims M K N wf).contr.Idx) :
    ((matDims M K N wf).rhsIdx i q 1).val = (i 1).val := by
  unfold DotDims.rhsIdx
  rw [dif_neg (show ¬(1 : Fin 2) ∈ (matDims M K N wf).rhsBatch from List.not_mem_nil),
    dif_pos (show (1 : Fin 2) ∈ (matDims M K N wf).rhsNonContracting from List.mem_singleton.mpr rfl)]
  rfl

/-- A matrix product into the zero splat, at `(p, f)`: the sum over `k` of `l[p, k] · r[k, f]`. -/
theorem matmul_zero_apply {φ₁ φ₂ : FTy} (prec : Option ContractPrecision) (l : FVec Ideal ⟨2, ![M, K]⟩ φ₁)
    (r : FVec Ideal ⟨2, ![K, N]⟩ φ₂) (p : Fin M) (f : Fin N) :
    matmul (matDims M K N wf) prec l r (constant (F := Ideal) ⟨2, ![M, N]⟩ .f32 0x00000000#32) (ix2 p f)
      = ∑ k : Fin K, l (ix2 p k) * r (ix2 k f) := by
  show FloatOps.matmul (matDims M K N wf) prec l r _ (ix2 p f) = _
  rw [Ideal.matmul_constant_zero_apply, ← Equiv.sum_comp (contrEquiv1 (matDims M K N wf) K rfl rfl).symm]
  refine Finset.sum_congr rfl fun k _ => ?_
  have hk := contrEquiv1_symm_val (matDims M K N wf) K rfl rfl k
  have el : (matDims M K N wf).lhsIdx (ix2 p f) ((contrEquiv1 (matDims M K N wf) K rfl rfl).symm k) = ix2 p k :=
    funext fun a => Fin.ext (by
      match a with
      | ⟨0, _⟩ => exact mat_lhs_0 wf _ _
      | ⟨1, _⟩ => exact (mat_lhs_1 wf _ _).trans hk)
  have er : (matDims M K N wf).rhsIdx (ix2 p f) ((contrEquiv1 (matDims M K N wf) K rfl rfl).symm k) = ix2 k f :=
    funext fun a => Fin.ext (by
      match a with
      | ⟨0, _⟩ => exact (mat_rhs_0 wf _ _).trans hk
      | ⟨1, _⟩ => exact mat_rhs_1 wf _ _)
  rw [el, er]

end Mat

/-! ## A stack of rows against one matrix -/

/-- The dimension numbers of `[A, B, K] × [K, N] → [A, B, N]`: the left operand contracted on its last axis, the right on
    its rows, no batch axis. -/
abbrev rowsDims (A B K N : Nat)
    (wf : DotDims.WF ⟨3, ![A, B, K]⟩ ⟨2, ![K, N]⟩ ⟨3, ![A, B, N]⟩ [2] [0] [0, 1] [1] [] []) :
    DotDims ⟨3, ![A, B, K]⟩ ⟨2, ![K, N]⟩ ⟨3, ![A, B, N]⟩ where
  lhsContracting := [2]
  rhsContracting := [0]
  lhsNonContracting := [0, 1]
  rhsNonContracting := [1]
  lhsBatch := []
  rhsBatch := []
  wf := wf

section Rows
variable {A B K N : Nat} (wf : DotDims.WF ⟨3, ![A, B, K]⟩ ⟨2, ![K, N]⟩ ⟨3, ![A, B, N]⟩ [2] [0] [0, 1] [1] [] [])

theorem rows_lhs_0 (i : (⟨3, ![A, B, N]⟩ : Shape).Idx) (q : (rowsDims A B K N wf).contr.Idx) :
    ((rowsDims A B K N wf).lhsIdx i q 0).val = (i 0).val := by
  unfold DotDims.lhsIdx
  rw [dif_neg (show ¬(0 : Fin 3) ∈ (rowsDims A B K N wf).lhsBatch from List.not_mem_nil),
    dif_pos (show (0 : Fin 3) ∈ (rowsDims A B K N wf).lhsNonContracting from List.mem_cons_self)]
  rfl

theorem rows_lhs_1 (i : (⟨3, ![A, B, N]⟩ : Shape).Idx) (q : (rowsDims A B K N wf).contr.Idx) :
    ((rowsDims A B K N wf).lhsIdx i q 1).val = (i 1).val := by
  unfold DotDims.lhsIdx
  rw [dif_neg (show ¬(1 : Fin 3) ∈ (rowsDims A B K N wf).lhsBatch from List.not_mem_nil),
    dif_pos (show (1 : Fin 3) ∈ (rowsDims A B K N wf).lhsNonContracting from List.mem_cons_of_mem _ (List.mem_singleton.mpr rfl))]
  rfl

theorem rows_lhs_2 (i : (⟨3, ![A, B, N]⟩ : Shape).Idx) (q : (rowsDims A B K N wf).contr.Idx) :
    ((rowsDims A B K N wf).lhsIdx i q 2).val = (q ⟨0, Nat.one_pos⟩).val :=
  (rowsDims A B K N wf).lhsIdx_val_of_single rfl i q

theorem rows_rhs_0 (i : (⟨3, ![A, B, N]⟩ : Shape).Idx) (q : (rowsDims A B K N wf).contr.Idx) :
    ((rowsDims A B K N wf).rhsIdx i q 0).val = (q ⟨0, Nat.one_pos⟩).val :=
  (rowsDims A B K N wf).rhsIdx_val_of_single rfl i q

theorem rows_rhs_1 (i : (⟨3, ![A, B, N]⟩ : Shape).Idx) (q : (rowsDims A B K N wf).contr.Idx) :
    ((rowsDims A B K N wf).rhsIdx i q 1).val = (i 2).val := by
  unfold DotDims.rhsIdx
  rw [dif_neg (show ¬(1 : Fin 2) ∈ (rowsDims A B K N wf).rhsBatch from List.not_mem_nil),
    dif_pos (show (1 : Fin 2) ∈ (rowsDims A B K N wf).rhsNonContracting from List.mem_singleton.mpr rfl)]
  rfl

/-- The host's contraction of a stack of rows with one matrix, at `(g, b, f)`: the sum over `k` of
    `l[g, b, k] · r[k, f]`. -/
theorem dotGeneral_rows_apply {φ₁ φ₂ : FTy} (prec : Option ContractPrecision) (l : FVec Ideal ⟨3, ![A, B, K]⟩ φ₁)
    (r : FVec Ideal ⟨2, ![K, N]⟩ φ₂) (g : Fin A) (b : Fin B) (f : Fin N) :
    Host.dotGeneral (rowsDims A B K N wf) prec l r (ix3 g b f) = ∑ k : Fin K, l (ix3 g b k) * r (ix2 k f) := by
  show FloatOps.dotGeneral (rowsDims A B K N wf) prec _ l r (ix3 g b f) = _
  rw [Ideal.dotGeneral_apply, ← Equiv.sum_comp (contrEquiv1 (rowsDims A B K N wf) K rfl rfl).symm]
  refine Finset.sum_congr rfl fun k _ => ?_
  have hk := contrEquiv1_symm_val (rowsDims A B K N wf) K rfl rfl k
  have el : (rowsDims A B K N wf).lhsIdx (ix3 g b f) ((contrEquiv1 (rowsDims A B K N wf) K rfl rfl).symm k) = ix3 g b k :=
    funext fun a => Fin.ext (by
      match a with
      | ⟨0, _⟩ => exact rows_lhs_0 wf _ _
      | ⟨1, _⟩ => exact rows_lhs_1 wf _ _
      | ⟨2, _⟩ => exact (rows_lhs_2 wf _ _).trans hk)
  have er : (rowsDims A B K N wf).rhsIdx (ix3 g b f) ((contrEquiv1 (rowsDims A B K N wf) K rfl rfl).symm k) = ix2 k f :=
    funext fun a => Fin.ext (by
      match a with
      | ⟨0, _⟩ => exact (rows_rhs_0 wf _ _).trans hk
      | ⟨1, _⟩ => exact rows_rhs_1 wf _ _)
  rw [el, er]

end Rows

end Cert.LibContract

end
-- ==== Proof.RegionH2.lean ====
/-
  One row block of the first dense layer, read at an entry.

  The body of the first region multiplies its [5000, 64] block of x by the whole [64, 128] weight array on the matrix
  unit, into a zero accumulator; both operands pass through a rounding to bf16 first, which is the identity on extended
  reals. So the block it stores is, at (p, f), the sum over k of x_blk[p, k] · w[k, f].
-/
import proofs.«148048_j2284922601976_1_alg».proof.Proof.Gen.KernelIdeal.Skeleton
import proofs.«148048_j2284922601976_1_alg».proof.Proof.LibContract

noncomputable section

open scoped BigOperators

namespace Cert.KernelIdeal.RegH

open Idealize.ShloMosaic Idealize.ShloMosaic.ValueIdx
open Cert.KernelIdeal Cert.KernelIdeal.Gen

/-- The stored block at (p, f): the 64 products of row p of the x block with column f of the weights, summed. -/
theorem pay_apply (x0 : Vec Ideal S5000x64 .f32) (x1 : Vec Ideal S64x128 .f32) (p : Fin 5000) (f : Fin 128) :
    k0_pay1 (F := Ideal) x0 x1 (ix2 p f) = ∑ k : Fin 64, x0 (ix2 p k) * x1 (ix2 k f) := by
  unfold k0_pay1
  exact Cert.LibContract.matmul_zero_apply (M := 5000) (K := 64) (N := 128)
    Facts₀.dot_S5000x64_S64x128_S5000x128_1_0_0_1_n_n_wf none
    (truncf .bf16 x0 Facts₀.bitsLt_bf16_f32) (truncf .bf16 x1 Facts₀.bitsLt_bf16_f32) p f

end Cert.KernelIdeal.RegH

end
-- ==== Proof.RegionH.lean ====
/-
  The first region, read as a whole: after its 20 grid points the output array is h = x · W1.

  Point t of the grid takes rows 5000·t … 5000·t + 4999 of x (all 64 columns) and the whole weight array, and writes
  rows 5000·t … 5000·t + 4999 of the output (all 128 columns). Entry (p, f) of the block it writes is the sum over k of
  x_blk[p, k] · w[k, f]; as x_blk[p, k] = x[5000·t + p, k], that is entry (5000·t + p, f) of x · W1: every point writes
  ITS block of one whole-array function. Row r of the output lies in the block of point r / 5000, so the 20 blocks
  cover the array, and the array ends holding that function everywhere.
-/
import proofs.«148048_j2284922601976_1_alg».proof.Proof.Gen.KernelIdeal.Frame
import proofs.«148048_j2284922601976_1_alg».proof.Proof.RegionH1
import proofs.«148048_j2284922601976_1_alg».proof.Proof.RegionH2
import Idealize.ShloMosaic.Lib.Pipeline.Value

set_option maxRecDepth 16384

noncomputable section

open scoped BigOperators

namespace Cert.KernelIdeal.RegH

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The zero offsets of a whole-buffer rectangle, however spelt. -/
theorem hz : (![0, 0] : Fin 2 → Nat) = fun _ => 0 := funext fun a => by fin_cases a <;> rfl

/-- The block index maps over the grid: the x window and the output window are at row block t, column block 0; the
    weight window is always at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of x · W1, x and W1 being the two arrays as the region finds them. -/
theorem flushed_eq (c : Dev nD) (t : Fin cfg0.N) :
    (dat0 (F := Ideal) V c).flushed 2 t
      = ((cfg0.win 2).blk t).view.read (Elt Ideal) (Cert.SpecH.h (V c main_arg0) (V c main_arg3)) := by
  show (cfg0.win 2).cut (grid0.coords t) ((dat0 (F := Ideal) V c).after 2 t) = _
  rw [after0_2]
  unfold out0_2
  rw [View.canon_unit_zero hz]
  simp only [View.ld_unit_zero (S := S5000x64) hz, View.ld_unit_zero (S := S64x128) hz]
  obtain ⟨e00, e01, e10, e11, e20, e21⟩ := idx_facts t
  have hN : grid0.N = 20 := N_0
  have ht : t.val < grid0.N := t.isLt
  funext j
  have hj0 : (j 0).val < 5000 := (j 0).isLt
  have hj1 : (j 1).val < 128 := (j 1).isLt
  -- the entry of the stored block
  have ej : (cfg0.win 2).xinj (grid0.coords t) j = ix2 (⟨(j 0).val, hj0⟩ : Fin 5000) (⟨(j 1).val, hj1⟩ : Fin 128) :=
    funext fun a => Fin.ext (by
      match a with
      | ⟨0, _⟩ => rfl
      | ⟨1, _⟩ => rfl)
  show k0_pay1 (F := Ideal) (iblk0 V c 0 t) (iblk0 V c 1 t) ((cfg0.win 2).xinj (grid0.coords t) j)
    = Cert.SpecH.h (V c main_arg0) (V c main_arg3) (((cfg0.win 2).blk t).view.emb j)
  refine (congrArg (k0_pay1 (F := Ideal) (iblk0 V c 0 t) (iblk0 V c 1 t)) ej).trans ?_
  refine (pay_apply (iblk0 V c 0 t) (iblk0 V c 1 t) ⟨(j 0).val, hj0⟩ ⟨(j 1).val, hj1⟩).trans ?_
  -- the entry of x · W1 under it
  refine Eq.trans ?_ (Cert.SpecH.h_apply_of_val (V c main_arg0) (V c main_arg3) (((cfg0.win 2).blk t).view.emb j)
    (⟨t.val * 5000 + (j 0).val, by omega⟩ : Fin 100000) (⟨(j 1).val, hj1⟩ : Fin 128) ?_ ?_).symm
  · refine Finset.sum_congr rfl fun k _ => ?_
    have h0 : iblk0 V c 0 t (ix2 (⟨(j 0).val, hj0⟩ : Fin 5000) k)
        = V c main_arg0 (ix2 (⟨t.val * 5000 + (j 0).val, by omega⟩ : Fin 100000) k) := by
      show V c main_arg0 (((cfg0.win 0).blk t).view.emb (ix2 (⟨(j 0).val, hj0⟩ : Fin 5000) k)) = _
      refine congrArg (V c main_arg0) (funext fun a => Fin.ext ?_)
      match a with
      | ⟨0, _⟩ => show win0_0.index t (0 : Fin 2) * 5000 + 1 * (j 0).val = t.val * 5000 + (j 0).val; omega
      | ⟨1, _⟩ => show win0_0.index t (1 : Fin 2) * 64 + 1 * k.val = k.val; omega
    have h1 : iblk0 V c 1 t (ix2 k (⟨(j 1).val, hj1⟩ : Fin 128)) = V c main_arg3 (ix2 k (⟨(j 1).val, hj1⟩ : Fin 128)) := by
      show V c main_arg3 (((cfg0.win 1).blk t).view.emb (ix2 k (⟨(j 1).val, hj1⟩ : Fin 128))) = _
      refine congrArg (V c main_arg3) (funext fun a => Fin.ext ?_)
      match a with
      | ⟨0, _⟩ => show win0_1.index t (0 : Fin 2) * 64 + 1 * k.val = k.val; omega
      | ⟨1, _⟩ => show win0_1.index t (1 : Fin 2) * 128 + 1 * (j 1).val = (j 1).val; omega
    rw [h0, h1]
  · show win0_2.index t (0 : Fin 2) * 5000 + 1 * (j 0).val = t.val * 5000 + (j 0).val; omega
  · show win0_2.index t (1 : Fin 2) * 128 + 1 * (j 1).val = (j 1).val; omega

/-- An index of the output array is in point t's block iff each coordinate is in the block's range on its axis. -/
theorem mem_blk (t : Fin cfg0.N) (i : S100000x128.Idx) :
    i ∈ ((cfg0.win 2).blk t).view.set
      ↔ ∀ a : Fin 2, win0_2.index t a * S5000x128.size a ≤ (i a).val
          ∧ (i a).val < win0_2.index t a * S5000x128.size a + S5000x128.size a := by
  show i ∈ ((View.whole main_v4).slice (win0_2.rect t)).set ↔ _
  rw [View.set_slice_whole, Rect.mem_set_unit]
  exact Iff.rfl

/-- Every index of the output array is in some point's block: row r is in the block of point r / 5000. -/
theorem cover (i : S100000x128.Idx) :
    ∃ t : Fin cfg0.N, (cfg0.win 2).flush t = true ∧ i ∈ ((cfg0.win 2).blk t).view.set := by
  have hN : grid0.N = 20 := N_0
  have hi0 : (i 0).val < 100000 := (i 0).isLt
  have hi1 : (i 1).val < 128 := (i 1).isLt
  have hlt : (i 0).val / 5000 < grid0.N := by omega
  refine ⟨⟨(i 0).val / 5000, hlt⟩, flush0_2 _, ?_⟩
  obtain ⟨-, -, -, -, e20, e21⟩ := idx_facts ⟨(i 0).val / 5000, hlt⟩
  have q0 : win0_2.index ⟨(i 0).val / 5000, hlt⟩ (0 : Fin 2) = (i 0).val / 5000 := e20
  rw [mem_blk]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    omega
  | ⟨1, _⟩ =>
    show win0_2.index ⟨(i 0).val / 5000, hlt⟩ (1 : Fin 2) * 128 ≤ (i 1).val
      ∧ (i 1).val < win0_2.index ⟨(i 0).val / 5000, hlt⟩ (1 : Fin 2) * 128 + 128
    omega

/-- THE OUTPUT ARRAY after all 20 points: x · W1, one function of the two input arrays as the region finds them. -/
theorem final (c : Dev nD) :
    (dat0 (F := Ideal) V c).arrAt 2 cfg0.N = Cert.SpecH.h (V c main_arg0) (V c main_arg3) :=
  (dat0 (F := Ideal) V c).arrAt_eq_of_cover 2 (Cert.SpecH.h (V c main_arg0) (V c main_arg3))
    (fun t _ => flushed_eq V c t) cover

end Cert.KernelIdeal.RegH

end
-- ==== Proof.LibDense.lean ====
/-
  GENERAL LEMMAS: one dense layer, and the rectifier after it, read at an index on extended reals — in the two spellings a
  kernel and a host program give them. Nothing here mentions a program; the extents R (rows), K (contracted) and N
  (columns) are arbitrary.

  * affine, relu: a dense layer and the rectifier on ONE row, as plain functions Fin K → EReal ↦ Fin N → EReal.
  * ix2_of_val, ix1_of_val: an index with known coordinates is the index built from them.
  * contraction_rows: a contraction of axis 1 of an [R, K] array with axis 0 of a [K, N] array (no batch axes), read at
    (p, j), is the sum over k : Fin K of l (p, k) · r (k, j); the dimension record enters only through four coordinate
    facts about its operand indices (for a printed record: two by rfl-style unfolding, two by
    DotDims.lhsIdx_val_of_single / rhsIdx_val_of_single) and the rank and extent of its contraction shape (both rfl).
  * tile_affine: the kernel's spelling — tpu.matmul of the activations and weights, each rounded to bf16 on the way in
    (the identity on extended reals), into a zero accumulator, plus a [1, N] bias row cast to its own shape and broadcast
    down the R rows — at (p, j) is affine of row p.
  * host_affine: the host's spelling — dot_general plus an [N] bias vector broadcast to [1, N] and then to [R, N] — at
    (p, j) is affine of row p.
  * relu_tile, relu_host: a maximum against the zero word, splat from a scalar (kernel) or broadcast from a rank-0
    constant (host), at (p, j) is relu of row p.
  No law of extended-real arithmetic beyond reindexing a finite sum is used, so none of these needs finite inputs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx
open scoped BigOperators

/-- One dense layer on a row: j ↦ (∑ k, h k · W (k, j)) + b j. -/
def affine {K N : ℕ} (W : (⟨2, ![K, N]⟩ : Shape).Idx → EReal) (b : Fin N → EReal) (h : Fin K → EReal) : Fin N → EReal :=
  fun j => (∑ k : Fin K, h k * W (ix2 k j)) + b j

/-- The rectifier on a row: each entry's maximum with the value of the zero word (kept as the word: both programs
    print the same word, so it is never evaluated). -/
def relu {N : ℕ} (v : Fin N → EReal) : Fin N → EReal :=
  fun j => max (v j) (Ideal.ofBits .f32 0x00000000#32)

/-- A rank-2 index with known coordinates is the index built from them. -/
theorem ix2_of_val {n0 n1 : ℕ} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- A rank-1 index with a known coordinate is the index built from it. -/
theorem ix1_of_val {n : ℕ} (f : (⟨1, ![n]⟩ : Shape).Idx) (a : Fin n) (h0 : (f 0).val = a.val) : f = ix1 a :=
  funext fun d => Fin.ext (by
    match d with
    | ⟨0, _⟩ => exact h0)

/-- A contraction of axis 1 of an [R, K] array with axis 0 of a [K, N] array (no batch axes), read at (p, j), is the
    sum over k : Fin K of l (p, k) · r (k, j): the record's operand indices are named by hl0 ... hr1, and its one-axis
    contraction index is Fin K (contrEquiv1). -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (l : (⟨2, ![R, K]⟩ : Shape).Idx → EReal) (r : (⟨2, ![K, N]⟩ : Shape).Idx → EReal) (p : Fin R) (j : Fin N) :
    ∑ q : d.contr.Idx, l (d.lhsIdx (ix2 p j) q) * r (d.rhsIdx (ix2 p j) q) = ∑ k : Fin K, l (ix2 p k) * r (ix2 k j) := by
  rw [← Equiv.sum_comp (contrEquiv1 d K hrank hsize).symm]
  refine Finset.sum_congr rfl fun k _ => ?_
  have hk := contrEquiv1_symm_val d K hrank hsize k
  have el : d.lhsIdx (ix2 p j) ((contrEquiv1 d K hrank hsize).symm k) = ix2 p k :=
    ix2_of_val _ p k (hl0 _ _) ((hl1 _ _).trans hk)
  have er : d.rhsIdx (ix2 p j) ((contrEquiv1 d K hrank hsize).symm k) = ix2 k j :=
    ix2_of_val _ k j ((hr0 _ _).trans hk) (hr1 _ _)
  rw [el, er]

/-- ONE DENSE LAYER AS A KERNEL SPELLS IT, read at (p, j): the matrix unit's product of the activations and the weights
    (both rounded to bf16 on the way in: the identity here) into a zero accumulator, plus the bias, a [1, N] row cast to
    its own shape and broadcast down the R rows — is affine of the weights, the bias row and row p of the activations. -/
theorem tile_affine {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (h : FVec Ideal ⟨2, ![R, K]⟩ .f32) (W : FVec Ideal ⟨2, ![K, N]⟩ .f32) (b : FVec Ideal ⟨2, ![1, N]⟩ .f32)
    (hlt : FTy.bf16.bits < FTy.f32.bits)
    (hsc : (⟨2, ![1, N]⟩ : Shape).ShapeCasts ⟨2, ![1, N]⟩) (hbc : (⟨2, ![1, N]⟩ : Shape).Broadcasts ⟨2, ![R, N]⟩)
    (p : Fin R) (j : Fin N) :
    addf (matmul d none (truncf .bf16 h hlt) (truncf .bf16 W hlt) (constant (F := Ideal) ⟨2, ![R, N]⟩ .f32 0x00000000#32))
        (broadcastTo ⟨2, ![R, N]⟩ (shapeCast ⟨2, ![1, N]⟩ b hsc) hbc) (ix2 p j)
      = affine W (fun j => b (ix2 (0 : Fin 1) j)) (fun k => h (ix2 p k)) j := by
  rw [addf_apply, shapeCast_self, broadcastTo_1b_ab_apply]
  refine congrArg (· + b (ix2 (0 : Fin 1) j)) ?_
  refine (Ideal.matmul_constant_zero_apply d none (truncf .bf16 h hlt) (truncf .bf16 W hlt) (ix2 p j)).trans ?_
  exact contraction_rows d hrank hsize hl0 hl1 hr0 hr1 h W p j

/-- ONE DENSE LAYER AS THE HOST SPELLS IT, read at (p, j): dot_general of the activations and the weights plus the bias, an
    [N] vector broadcast to [1, N] and then down the R rows — is affine of the weights, the bias and row p. -/
theorem host_affine {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (h : FVec Ideal ⟨2, ![R, K]⟩ .f32) (W : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![R, N]⟩ ![0, 1])
    (p : Fin R) (j : Fin N) :
    addf (Host.dotGeneral d none h W)
        (broadcastInDim ⟨2, ![R, N]⟩ ![0, 1] hb2 (broadcastInDim ⟨2, ![1, N]⟩ ![1] hb1 b)) (ix2 p j)
      = affine W (fun j => b (ix1 j)) (fun k => h (ix2 p k)) j := by
  rw [addf_apply]
  have e2 : broadcastInDim ⟨2, ![R, N]⟩ ![0, 1] hb2 (broadcastInDim ⟨2, ![1, N]⟩ ![1] hb1 b) (ix2 p j)
      = broadcastInDim ⟨2, ![1, N]⟩ ![1] hb1 b (ix2 (0 : Fin 1) j) :=
    broadcastInDim_apply _ hb2 _ (ix2 p j) (ix2 (0 : Fin 1) j) (fun a => match a with
      | ⟨0, _⟩ => by show (0 : ℕ) = if (1 : ℕ) = 1 then 0 else p.val; rw [if_pos rfl]
      | ⟨1, _⟩ => by
        show j.val = if N = 1 then 0 else j.val
        split
        · have := j.isLt; omega
        · rfl)
  have e1 : broadcastInDim ⟨2, ![1, N]⟩ ![1] hb1 b (ix2 (0 : Fin 1) j) = b (ix1 j) :=
    broadcastInDim_apply _ hb1 b (ix2 (0 : Fin 1) j) (ix1 j) (fun a => match a with
      | ⟨0, _⟩ => by
        show j.val = if N = 1 then 0 else j.val
        split
        · have := j.isLt; omega
        · rfl)
  rw [e2, e1]
  refine congrArg (· + b (ix1 j)) ?_
  refine (Ideal.dotGeneral_apply d none .single h W (ix2 p j)).trans ?_
  exact contraction_rows d hrank hsize hl0 hl1 hr0 hr1 h W p j

/-- The rectifier as a kernel spells it: a maximum against the splat of the zero word, read at (p, j), is the rectifier of
    row p at j. -/
theorem relu_tile {R N : ℕ} (a : FVec Ideal ⟨2, ![R, N]⟩ .f32) (p : Fin R) (j : Fin N) :
    maximumf a (broadcast ⟨2, ![R, N]⟩ (Scalar.ofBits (F := Ideal) .f32 0x00000000#32)) (ix2 p j)
      = relu (fun j => a (ix2 p j)) j := rfl

/-- The rectifier as the host spells it: a maximum against the zero constant, a scalar broadcast to the whole shape, read
    at (p, j), is the rectifier of row p at j. -/
theorem relu_host {R N : ℕ} (a : FVec Ideal ⟨2, ![R, N]⟩ .f32) (hb : (⟨0, ![]⟩ : Shape).BroadcastsInDim ⟨2, ![R, N]⟩ ![])
    (p : Fin R) (j : Fin N) :
    maximumf a (broadcastInDim ⟨2, ![R, N]⟩ ![] hb (constant (F := Ideal) ⟨0, ![]⟩ .f32 0x00000000#32)) (ix2 p j)
      = relu (fun j => a (ix2 p j)) j := by
  rw [maximumf_apply, broadcastInDim_apply _ hb _ (ix2 p j) ix0 (fun a => a.elim0)]
  rfl

end Cert.Dense

end
-- ==== Proof.RegionH_ref.lean ====
/-
  The reference's first dense layer is the same function: its host contraction of x [100000, 64] with W1 [64, 128]
  (columns of x against rows of W1, no batch axis), read at (r, f), is the sum over k of x[r, k] · W1[k, f].
-/
import proofs.«148048_j2284922601976_1_alg».proof.ReferenceIdeal
import proofs.«148048_j2284922601976_1_alg».proof.Proof.RegionH1
import proofs.«148048_j2284922601976_1_alg».proof.Proof.LibContract
import proofs.«148048_j2284922601976_1_alg».proof.Proof.LibDense

noncomputable section

open scoped BigOperators

namespace Cert.SpecH

open Idealize.ShloMosaic Idealize.ShloMosaic.ValueIdx

/-- The reference's contraction of x with W1 is x · W1, entry by entry. -/
theorem ref [Cert.ReferenceIdeal.Facts] (x : FVec Ideal Cert.ReferenceIdeal.S100000x64 .f32)
    (w : FVec Ideal Cert.ReferenceIdeal.S64x128 .f32) :
    Host.dotGeneral (F := Ideal) Cert.ReferenceIdeal.dot_S100000x64_S64x128_S100000x128_1_0_0_1_n_n none x w
      = Cert.SpecH.h x w := by
  funext i
  obtain ⟨r, f, rfl⟩ : ∃ (r : Fin 100000) (f : Fin 128), i = ix2 r f := ⟨i 0, i 1, eq_ix2 i⟩
  rw [h_apply]
  show FloatOps.dotGeneral (Cert.LibContract.matDims 100000 64 128
      Cert.ReferenceIdeal.Facts₀.dot_S100000x64_S64x128_S100000x128_1_0_0_1_n_n_wf) none _ x w (ix2 r f) = _
  refine (Ideal.dotGeneral_apply _ none _ x w (ix2 r f)).trans ?_
  exact Cert.Dense.contraction_rows _ rfl rfl (Cert.LibContract.mat_lhs_0 _) (Cert.LibContract.mat_lhs_1 _)
    (Cert.LibContract.mat_rhs_0 _) (Cert.LibContract.mat_rhs_1 _) x w r f

end Cert.SpecH

end
-- ==== Proof.ConcatCongr.lean ====
/-
  Rewriting inside the operands of a two-piece concatenation: the pieces' contents may be replaced by equal ones (the
  side condition only speaks of the pieces' shapes).
-/
import Idealize.ShloMosaic.PureOps.Ideal
import Idealize.ShloMosaic.Lib.StableHlo.Run

namespace Cert.Bridge

open Idealize.ShloMosaic

/-- A concatenation of two pieces depends on the pieces' contents only through their values. -/
@[congr] theorem concatenate_pair_congr {α : Type} (t : Shape) (a : Fin t.rank) (s₁ s₂ : Shape)
    (x x' : s₁.Idx → α) (y y' : s₂.Idx → α) (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

end Cert.Bridge
-- ==== Proof.LibColumns.lean ====
/-
  GENERAL LEMMAS: host broadcasts of a per-row statistic read at coordinates, for any extents a (rows) and b (lanes).

  * column_apply: an [a] vector set up as a column [a, 1] (broadcast_in_dim, dims = [0]) reads, at (p, 0), entry p;
  * spread_apply: a column [a, 1] spread over b lanes (broadcast_in_dim, dims = [0, 1]) reads, at (p, j), the column's
    entry of row p;
  * row_vec_apply: an [n] vector cast to a row [1, n] reads, at (0, j), entry j.
  The well-formedness proof of each operation is a variable, so the lemmas apply to any program's spelling.
-/
import Idealize.ShloMosaic.Lib.ValueLayout
import Idealize.ShloMosaic.Lib.Pipeline.Value

noncomputable section

namespace Cert.LibColumns

open Idealize.ShloMosaic Idealize.ShloMosaic.ValueIdx

variable {α : Type}

/-- A vector set up as a column reads, at (p, 0), the vector's entry p. -/
theorem column_apply {a : ℕ} (h : (⟨1, ![a]⟩ : Shape).BroadcastsInDim ⟨2, ![a, 1]⟩ ![0])
    (v : (⟨1, ![a]⟩ : Shape).Idx → α) (p : Fin a) :
    broadcastInDim ⟨2, ![a, 1]⟩ ![0] h v (ix2 p (0 : Fin 1)) = v (ix1 p) :=
  broadcastInDim_apply _ h v (ix2 p (0 : Fin 1)) (ix1 p) (fun ax => match ax with
    | ⟨0, _⟩ => by
      show p.val = if a = 1 then 0 else p.val
      split
      · have := p.isLt; omega
      · rfl)

/-- A column spread over the lanes reads, at (p, j), the column's entry of row p. -/
theorem spread_apply {a b : ℕ} (h : (⟨2, ![a, 1]⟩ : Shape).BroadcastsInDim ⟨2, ![a, b]⟩ ![0, 1])
    (v : (⟨2, ![a, 1]⟩ : Shape).Idx → α) (p : Fin a) (j : Fin b) :
    broadcastInDim ⟨2, ![a, b]⟩ ![0, 1] h v (ix2 p j) = v (ix2 p (0 : Fin 1)) :=
  broadcastInDim_apply _ h v (ix2 p j) (ix2 p (0 : Fin 1)) (fun ax => match ax with
    | ⟨0, _⟩ => by
      show p.val = if a = 1 then 0 else p.val
      split
      · have := p.isLt; omega
      · rfl
    | ⟨1, _⟩ => by show (0 : ℕ) = if (1 : ℕ) = 1 then 0 else j.val; rw [if_pos rfl])

/-- A vector cast to a one-row matrix reads, at (0, j), the vector's entry j: both list their entries in the same order. -/
theorem row_vec_apply {n : ℕ} (h : (⟨1, ![n]⟩ : Shape).ShapeCasts ⟨2, ![1, n]⟩) (x : (⟨1, ![n]⟩ : Shape).Idx → α) (j : Fin n) :
    shapeCast ⟨2, ![1, n]⟩ x h (ix2 (0 : Fin 1) j) = x (ix1 j) :=
  shapeCast_apply x h _ _ (by
    rw [Shape.rowMajor_val_two, Shape.rowMajor_val_one]
    show j.val = 0 * n + j.val
    omega)

end Cert.LibColumns

end
-- ==== Proof.BridgeA.lean ====
import Idealize.ShloMosaic.PureOps.Ideal
import proofs.«148048_j2284922601976_1_alg».proof.Proof.Gen.KernelIdeal.Launch
import proofs.«148048_j2284922601976_1_alg».proof.Proof.Gen.ReferenceIdeal
import proofs.«148048_j2284922601976_1_alg».proof.Proof.RefOps
import proofs.«148048_j2284922601976_1_alg».proof.Proof.ConcatCongr
import proofs.«148048_j2284922601976_1_alg».proof.Proof.LibColumns

set_option maxRecDepth 16384

/-! The graph aggregation is the same host computation in both programs: the kernel program's stretch between its
    first and second regions and the reference's statements up to %46 apply the same operations, in the same order, to
    the product x·W1 and the edge list. Each side's fold is opened into the composed operations; the two composed
    terms then differ only in where x·W1 and the edge list are read from. -/

noncomputable section

namespace Cert.Bridge

open Idealize.ShloMosaic Idealize.ShloMosaic.TcCoe Idealize.SL.Sem

variable (VK : Valuation Cert.KernelIdeal.τ Cert.KernelIdeal.sig (Elt Ideal)) (M : Valuation Cert.ReferenceIdeal.τ Cert.ReferenceIdeal.sig (Elt Ideal))

set_option maxHeartbeats 4000000 in
/-- The aggregated features agree once x·W1 and the edge list agree. -/
theorem agg_eq
    (h4 : VK (Proc.devRef .tc Cert.KernelIdeal.main_v4) = Host.dotGeneral (F := Ideal) (φ₁ := .f32) (φ₂ := .f32) Cert.ReferenceIdeal.dot_S100000x64_S64x128_S100000x128_1_0_0_1_n_n none (M (Proc.devRef .tc Cert.ReferenceIdeal.main_arg0)) (M (Proc.devRef .tc Cert.ReferenceIdeal.main_arg3)))
    (h1 : VK (Proc.devRef .tc Cert.KernelIdeal.main_arg1) = M (Proc.devRef .tc Cert.ReferenceIdeal.main_arg1)) :
    StableHlo.after (Cert.KernelIdeal.Gen.hostOps1 (F := Ideal)) VK (Proc.devRef .tc Cert.KernelIdeal.main_v46)
      = StableHlo.after (Cert.ReferenceIdeal.RefOps.refA (F := Ideal)) M (Proc.devRef .tc Cert.ReferenceIdeal.main_v46) := by
  after_results_simp
  rw [h4, h1]
  rfl

set_option maxHeartbeats 4000000 in
/-- The bias b1 set up as a one-row matrix for the second region reads, at (0, j), the vector's entry j. -/
theorem row_b1 (j : Fin 128) :
    StableHlo.after (Cert.KernelIdeal.Gen.hostOps1 (F := Ideal)) VK (Proc.devRef .tc Cert.KernelIdeal.main_v47) (ValueIdx.ix2 (0 : Fin 1) j)
      = VK (Proc.devRef .tc Cert.KernelIdeal.main_arg4) (ValueIdx.ix1 j) := by
  after_results_simp
  exact Cert.LibColumns.row_vec_apply _ _ j

set_option maxHeartbeats 4000000 in
/-- The bias bp set up as a one-row matrix for the second region reads, at (0, j), the vector's entry j. -/
theorem row_bp (j : Fin 9) :
    StableHlo.after (Cert.KernelIdeal.Gen.hostOps1 (F := Ideal)) VK (Proc.devRef .tc Cert.KernelIdeal.main_v48) (ValueIdx.ix2 (0 : Fin 1) j)
      = VK (Proc.devRef .tc Cert.KernelIdeal.main_arg6) (ValueIdx.ix1 j) := by
  after_results_simp
  exact Cert.LibColumns.row_vec_apply _ _ j

set_option maxHeartbeats 4000000 in
/-- The stretch between the first two regions writes neither weight matrix nor the edge list. -/
theorem keeps_arg5 : StableHlo.after (Cert.KernelIdeal.Gen.hostOps1 (F := Ideal)) VK (Proc.devRef .tc Cert.KernelIdeal.main_arg5) = VK (Proc.devRef .tc Cert.KernelIdeal.main_arg5) := by
  after_results_simp

end Cert.Bridge

end
-- ==== Proof.BridgeR.lean ====
import Idealize.ShloMosaic.PureOps.Ideal
import proofs.«148048_j2284922601976_1_alg».proof.Proof.Gen.KernelIdeal.Launch
import proofs.«148048_j2284922601976_1_alg».proof.Proof.Gen.ReferenceIdeal
import proofs.«148048_j2284922601976_1_alg».proof.Proof.RefOps
import proofs.«148048_j2284922601976_1_alg».proof.Proof.ConcatCongr

set_option maxRecDepth 16384

/-! Single reads of the reference's folds: which operation wrote a buffer, applied to the contents of its operands'
    buffers; and the edge lists, which both programs cut out of the same argument. -/

noncomputable section

namespace Cert.Bridge

open Idealize.ShloMosaic Idealize.ShloMosaic.TcCoe Idealize.SL.Sem

variable (M VA : Valuation Cert.ReferenceIdeal.τ Cert.ReferenceIdeal.sig (Elt Ideal)) (V0 : Valuation Cert.KernelIdeal.τ Cert.KernelIdeal.sig (Elt Ideal))

set_option maxHeartbeats 4000000 in
/-- %4 is the contraction of x with W1. -/
theorem ref_v4 : StableHlo.after (Cert.ReferenceIdeal.RefOps.refA (F := Ideal)) M (Proc.devRef .tc Cert.ReferenceIdeal.main_v4)
    = Host.dotGeneral (F := Ideal) (φ₁ := .f32) (φ₂ := .f32) Cert.ReferenceIdeal.dot_S100000x64_S64x128_S100000x128_1_0_0_1_n_n none (M (Proc.devRef .tc Cert.ReferenceIdeal.main_arg0)) (M (Proc.devRef .tc Cert.ReferenceIdeal.main_arg3)) := by
  after_results_simp

set_option maxHeartbeats 4000000 in
/-- %49 adds the bias row, spread over the rows, to the aggregated features %46. -/
theorem ref_v49 : @Eq (FVec Ideal Cert.ReferenceIdeal.S100000x128 .f32) (StableHlo.after (Cert.ReferenceIdeal.RefOps.refA (F := Ideal)) M (Proc.devRef .tc Cert.ReferenceIdeal.main_v49))
    (addf (StableHlo.after (Cert.ReferenceIdeal.RefOps.refA (F := Ideal)) M (Proc.devRef .tc Cert.ReferenceIdeal.main_v46))
        (broadcastInDim Cert.ReferenceIdeal.S100000x128 ![0, 1] Cert.ReferenceIdeal.Facts₀.bcast_S1x128_S100000x128_0_1
          (broadcastInDim Cert.ReferenceIdeal.S1x128 ![1] Cert.ReferenceIdeal.Facts₀.bcast_S128_S1x128_1 (M (Proc.devRef .tc Cert.ReferenceIdeal.main_arg4))))) := by
  after_results_simp

set_option maxHeartbeats 4000000 in
/-- The first stretch writes no argument. -/
theorem refA_arg5 : StableHlo.after (Cert.ReferenceIdeal.RefOps.refA (F := Ideal)) M (Proc.devRef .tc Cert.ReferenceIdeal.main_arg5) = M (Proc.devRef .tc Cert.ReferenceIdeal.main_arg5) := by
  after_results_simp
set_option maxHeartbeats 4000000 in
theorem refA_arg6 : StableHlo.after (Cert.ReferenceIdeal.RefOps.refA (F := Ideal)) M (Proc.devRef .tc Cert.ReferenceIdeal.main_arg6) = M (Proc.devRef .tc Cert.ReferenceIdeal.main_arg6) := by
  after_results_simp

set_option maxHeartbeats 4000000 in
/-- %50 is the rectifier of %49. -/
theorem ref_v50 : @Eq (FVec Ideal Cert.ReferenceIdeal.S100000x128 .f32) (StableHlo.after (Cert.ReferenceIdeal.RefOps.refS (F := Ideal)) VA (Proc.devRef .tc Cert.ReferenceIdeal.main_v50))
    (maximumf (VA (Proc.devRef .tc Cert.ReferenceIdeal.main_v49)) (broadcastInDim Cert.ReferenceIdeal.S100000x128 ![] Cert.ReferenceIdeal.Facts₀.bcast_S_S100000x128 (constant (F := Ideal) Cert.ReferenceIdeal.S_ .f32 0x00000000#32))) := by
  after_results_simp <;> rfl

set_option maxHeartbeats 4000000 in
/-- The source list of the edges: row 0 of the edge index, in both programs. -/
theorem src_eq (h1 : V0 (Proc.devRef .tc Cert.KernelIdeal.main_arg1) = M (Proc.devRef .tc Cert.ReferenceIdeal.main_arg1)) :
    StableHlo.after (Cert.KernelIdeal.Gen.hostOps0 (F := Ideal)) V0 (Proc.devRef .tc Cert.KernelIdeal.main_v1)
      = StableHlo.after (Cert.ReferenceIdeal.RefOps.refS (F := Ideal)) (StableHlo.after (Cert.ReferenceIdeal.RefOps.refA (F := Ideal)) M) (Proc.devRef .tc Cert.ReferenceIdeal.main_v1) := by
  after_results_simp
  rw [h1]
  rfl

set_option maxHeartbeats 4000000 in
/-- The target list of the edges: row 1 of the edge index, in both programs. -/
theorem dst_eq (h1 : V0 (Proc.devRef .tc Cert.KernelIdeal.main_arg1) = M (Proc.devRef .tc Cert.ReferenceIdeal.main_arg1)) :
    StableHlo.after (Cert.KernelIdeal.Gen.hostOps0 (F := Ideal)) V0 (Proc.devRef .tc Cert.KernelIdeal.main_v3)
      = StableHlo.after (Cert.ReferenceIdeal.RefOps.refS (F := Ideal)) (StableHlo.after (Cert.ReferenceIdeal.RefOps.refA (F := Ideal)) M) (Proc.devRef .tc Cert.ReferenceIdeal.main_v3) := by
  after_results_simp
  rw [h1]
  rfl

set_option maxHeartbeats 4000000 in
/-- The stretch before the first region writes no argument. -/
theorem ops0_arg (V0 : Valuation Cert.KernelIdeal.τ Cert.KernelIdeal.sig (Elt Ideal)) :
    StableHlo.after (Cert.KernelIdeal.Gen.hostOps0 (F := Ideal)) V0 (Proc.devRef .tc Cert.KernelIdeal.main_arg0) = V0 (Proc.devRef .tc Cert.KernelIdeal.main_arg0)
    ∧ StableHlo.after (Cert.KernelIdeal.Gen.hostOps0 (F := Ideal)) V0 (Proc.devRef .tc Cert.KernelIdeal.main_arg1) = V0 (Proc.devRef .tc Cert.KernelIdeal.main_arg1)
    ∧ StableHlo.after (Cert.KernelIdeal.Gen.hostOps0 (F := Ideal)) V0 (Proc.devRef .tc Cert.KernelIdeal.main_arg3) = V0 (Proc.devRef .tc Cert.KernelIdeal.main_arg3)
    ∧ StableHlo.after (Cert.KernelIdeal.Gen.hostOps0 (F := Ideal)) V0 (Proc.devRef .tc Cert.KernelIdeal.main_arg4) = V0 (Proc.devRef .tc Cert.KernelIdeal.main_arg4)
    ∧ StableHlo.after (Cert.KernelIdeal.Gen.hostOps0 (F := Ideal)) V0 (Proc.devRef .tc Cert.KernelIdeal.main_arg5) = V0 (Proc.devRef .tc Cert.KernelIdeal.main_arg5)
    ∧ StableHlo.after (Cert.KernelIdeal.Gen.hostOps0 (F := Ideal)) V0 (Proc.devRef .tc Cert.KernelIdeal.main_arg6) = V0 (Proc.devRef .tc Cert.KernelIdeal.main_arg6) := by
  refine ⟨?_, ?_, ?_, ?_, ?_, ?_⟩ <;> after_results_simp

set_option maxHeartbeats 4000000 in
/-- The stretch between the first two regions leaves the edge lists of the stretch before it alone. -/
theorem ops1_keeps (VK : Valuation Cert.KernelIdeal.τ Cert.KernelIdeal.sig (Elt Ideal)) :
    StableHlo.after (Cert.KernelIdeal.Gen.hostOps1 (F := Ideal)) VK (Proc.devRef .tc Cert.KernelIdeal.main_v1) = VK (Proc.devRef .tc Cert.KernelIdeal.main_v1)
    ∧ StableHlo.after (Cert.KernelIdeal.Gen.hostOps1 (F := Ideal)) VK (Proc.devRef .tc Cert.KernelIdeal.main_v3) = VK (Proc.devRef .tc Cert.KernelIdeal.main_v3) := by
  refine ⟨?_, ?_⟩ <;> after_results_simp

end Cert.Bridge

end
-- ==== Proof.KLeaf0.lean ====
import Idealize.ShloMosaic.PureOps.Ideal
import proofs.«148048_j2284922601976_1_alg».proof.Proof.Gen.KernelIdeal.Frame
import proofs.«148048_j2284922601976_1_alg».proof.Proof.Gen.ReferenceIdeal
import proofs.«148048_j2284922601976_1_alg».proof.Proof.RefOps
import proofs.«148048_j2284922601976_1_alg».proof.Proof.RegionH
import proofs.«148048_j2284922601976_1_alg».proof.Proof.RegionH_ref
import proofs.«148048_j2284922601976_1_alg».proof.Proof.BridgeA
import proofs.«148048_j2284922601976_1_alg».proof.Proof.BridgeR

set_option maxRecDepth 16384

/-! The kernel program's buffer contents at its region boundaries, up to the second region's entry, against the
    reference's first stretch: the product x·W1 (first region) and the aggregated features. -/

noncomputable section

namespace Cert.Bridge

open Idealize.ShloMosaic Idealize.ShloMosaic.TcCoe Idealize.SL.Sem

open Cert.KernelIdeal Cert.KernelIdeal.Gen

/-- The two launch memories agree on the seven argument arrays of device `c`. -/
def Agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-- The reference's launch memory as device `c`'s buffer contents. -/
abbrev MR (m' : (ℓ : Loc Cert.ReferenceIdeal.nD Cert.ReferenceIdeal.τ Cert.ReferenceIdeal.sig) → Buf (Elt Ideal) ℓ) (c : Dev Cert.ReferenceIdeal.nD) : Valuation Cert.ReferenceIdeal.τ Cert.ReferenceIdeal.sig (Elt Ideal) :=
  fun b => m' ((c : Dev Cert.ReferenceIdeal.nD), b)

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- Before the first region every argument is as launched. -/
theorem w1_args :
    W1 m ρ c (Proc.devRef .tc Cert.KernelIdeal.main_arg0) = m ((c.tc : Thread Cert.KernelIdeal.nD Cert.KernelIdeal.τ).loc Cert.KernelIdeal.main_arg0)
    ∧ W1 m ρ c (Proc.devRef .tc Cert.KernelIdeal.main_arg1) = m ((c.tc : Thread Cert.KernelIdeal.nD Cert.KernelIdeal.τ).loc Cert.KernelIdeal.main_arg1)
    ∧ W1 m ρ c (Proc.devRef .tc Cert.KernelIdeal.main_arg3) = m ((c.tc : Thread Cert.KernelIdeal.nD Cert.KernelIdeal.τ).loc Cert.KernelIdeal.main_arg3)
    ∧ W1 m ρ c (Proc.devRef .tc Cert.KernelIdeal.main_arg4) = m ((c.tc : Thread Cert.KernelIdeal.nD Cert.KernelIdeal.τ).loc Cert.KernelIdeal.main_arg4)
    ∧ W1 m ρ c (Proc.devRef .tc Cert.KernelIdeal.main_arg5) = m ((c.tc : Thread Cert.KernelIdeal.nD Cert.KernelIdeal.τ).loc Cert.KernelIdeal.main_arg5)
    ∧ W1 m ρ c (Proc.devRef .tc Cert.KernelIdeal.main_arg6) = m ((c.tc : Thread Cert.KernelIdeal.nD Cert.KernelIdeal.τ).loc Cert.KernelIdeal.main_arg6) :=
  let h := ops0_arg (W0 m ρ c)
  ⟨h.1, h.2.1, h.2.2.1, h.2.2.2.1, h.2.2.2.2.1, h.2.2.2.2.2⟩

/-- After the first region its output array holds x·W1. -/
theorem w2_v4 (hag : Agree m m' c) :
    W2 m ρ c (Proc.devRef .tc Cert.KernelIdeal.main_v4)
      = Host.dotGeneral (F := Ideal) (φ₁ := .f32) (φ₂ := .f32) Cert.ReferenceIdeal.dot_S100000x64_S64x128_S100000x128_1_0_0_1_n_n none (MR m' c (Proc.devRef .tc Cert.ReferenceIdeal.main_arg0)) (MR m' c (Proc.devRef .tc Cert.ReferenceIdeal.main_arg3)) := by
  refine (W2_arr m ρ c 2).trans ((Cert.KernelIdeal.RegH.final (V1 m ρ) c).trans ?_)
  rw [Cert.SpecH.ref]
  have e0 : V1 m ρ c main_arg0 = MR m' c (Proc.devRef .tc Cert.ReferenceIdeal.main_arg0) := (w1_args m ρ c).1.trans hag.1.symm
  have e3 : V1 m ρ c main_arg3 = MR m' c (Proc.devRef .tc Cert.ReferenceIdeal.main_arg3) := (w1_args m ρ c).2.2.1.trans hag.2.2.2.1.symm
  rw [e0, e3]

/-- The first region leaves every buffer that is not its output as it found it. -/
theorem w2_keep (b : Ref Cert.KernelIdeal.sig .tc) (hb : ∀ w, Pipeline.arrRef spec0 w ≠ b) :
    W2 m ρ c (Proc.devRef .tc b) = W1 m ρ c (Proc.devRef .tc b) := W2_of_ne m ρ c b hb

/-- At the second region's entry the aggregated features are the reference's %46. -/
theorem w3_v46 (hag : Agree m m' c) :
    W3 m ρ c (Proc.devRef .tc Cert.KernelIdeal.main_v46) = StableHlo.after (Cert.ReferenceIdeal.RefOps.refA (F := Ideal)) (MR m' c) (Proc.devRef .tc Cert.ReferenceIdeal.main_v46) :=
  agg_eq (W2 m ρ c) (MR m' c) (w2_v4 m ρ m' c hag)
    ((W2_of_ne m ρ c main_arg1 (by decide)).trans ((w1_args m ρ c).2.1.trans hag.2.1.symm))

end Cert.Bridge

end
-- ==== Proof.RegionS.lean ====
/-
  THE VALUE OF THE PROJECTION-AND-SOFTMAX STAGE, index by index on extended reals.

  * hx: the hidden activations — each aggregated entry plus its column's bias, rectified;
  * rowMax: the maximum of a row of logits, carried as the maximum of the value of the -∞ word with the fold of max from
    that value over the row's lanes (the spelling both programs give it; the word is never evaluated);
  * softmaxRow: a row of logits normalized — exp (v j − rowMax v) over the sum of those exponentials along the row;
  * s: the soft assignment — the softmax, along each row, of the dense layer (weights wp, bias bp) of that row of hx.
-/
import proofs.«148048_j2284922601976_1_alg».proof.Proof.LibDense

noncomputable section

namespace Cert.SpecS

open Idealize.ShloMosaic Idealize.ShloMosaic.ValueIdx
open scoped BigOperators

/-- The maximum of a row: the -∞ word's value against the fold of max, from that value, over the row's lanes. -/
def rowMax {N : ℕ} (v : Fin N → EReal) : EReal :=
  max (Ideal.ofBits .f32 0xFF800000#32) ((Finset.univ : Finset (Fin N)).fold max (Ideal.ofBits .f32 0xFF800000#32) v)

/-- The softmax of a row, entry j: exp (v j − max v) divided by the sum over the row of exp (v k − max v). -/
def softmaxRow {N : ℕ} (v : Fin N → EReal) (j : Fin N) : EReal :=
  Ideal.div (Ideal.exp (v j - rowMax v)) (∑ k : Fin N, Ideal.exp (v k - rowMax v))

/-- The hidden activations: relu (agg + b1), the bias along the columns. -/
def hx (agg : (⟨2, ![100000, 128]⟩ : Shape).Idx → EReal) (b1 : Fin 128 → EReal) :
    (⟨2, ![100000, 128]⟩ : Shape).Idx → EReal :=
  fun i => Cert.Dense.relu (fun j : Fin 128 => agg (ix2 (i 0) j) + b1 j) (i 1)

/-- The soft assignment: along each row, the softmax of the dense layer hx · wp + bp of that row. -/
def s (hx : (⟨2, ![100000, 128]⟩ : Shape).Idx → EReal) (wp : (⟨2, ![128, 9]⟩ : Shape).Idx → EReal) (bp : Fin 9 → EReal) :
    (⟨2, ![100000, 9]⟩ : Shape).Idx → EReal :=
  fun i => softmaxRow (Cert.Dense.affine wp bp (fun k : Fin 128 => hx (ix2 (i 0) k))) (i 1)

/-- hx at coordinates (p, j). -/
theorem hx_apply (agg : (⟨2, ![100000, 128]⟩ : Shape).Idx → EReal) (b1 : Fin 128 → EReal) (p : Fin 100000) (j : Fin 128) :
    hx agg b1 (ix2 p j) = Cert.Dense.relu (fun j : Fin 128 => agg (ix2 p j) + b1 j) j := rfl

/-- s at coordinates (p, j). -/
theorem s_apply (hx : (⟨2, ![100000, 128]⟩ : Shape).Idx → EReal) (wp : (⟨2, ![128, 9]⟩ : Shape).Idx → EReal)
    (bp : Fin 9 → EReal) (p : Fin 100000) (j : Fin 9) :
    s hx wp bp (ix2 p j) = softmaxRow (Cert.Dense.affine wp bp (fun k : Fin 128 => hx (ix2 p k))) j := rfl

end Cert.SpecS

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.RegionS1.lean ====
/-
  A row-wise softmax read at coordinates, in the two spellings a kernel and a host program give it; the extents R (rows)
  and N (lanes) are arbitrary and no program is mentioned.

  * rowMax_tile / rowMax_host: the maximum of row p — the -∞ splat against a max-reduction over the lane axis started
    from the -∞ word — is rowMax of that row, in both spellings (a fold of max over the lanes: the order is immaterial);
  * normalize_tile / normalize_host: given an array Mb constant (= μ) along row p, exp (z − Mb) divided by its own lane
    sum, set up as a column and spread back over the lanes, is at (p, j) exp (z(p,j) − μ) / ∑ₖ exp (z(p,k) − μ);
    the host's sum starts from the zero word, whose value is 0;
  * softmax_tile / softmax_host: the two composed, with μ the row maximum: softmaxRow of row p at j.
-/
import proofs.«148048_j2284922601976_1_alg».proof.Proof.RegionS
import proofs.«148048_j2284922601976_1_alg».proof.Proof.LibLayout
import proofs.«148048_j2284922601976_1_alg».proof.Proof.LibColumns

noncomputable section

namespace Cert.SpecS

open Idealize.ShloMosaic Idealize.ShloMosaic.ValueIdx
open scoped BigOperators

/-- The maximum of row p as a kernel spells it. -/
theorem rowMax_tile {R N : ℕ} (z : FVec Ideal ⟨2, ![R, N]⟩ .f32) (hred : Shape.Reduces ⟨2, ![R, N]⟩ [1] ⟨1, ![R]⟩)
    (hφ : FKind.Formats .f32) (hacc : (0xFF800000#32 : BitVec 32) = FKind.maximumf.neutral .f32 hφ) (p : Fin R) :
    maximumf (broadcast ⟨1, ![R]⟩ (Scalar.ofBits (F := Ideal) .f32 0xFF800000#32))
        (multiReduction .maximumf [1] ⟨1, ![R]⟩ z 0xFF800000#32 hred hφ hacc) (ix1 p)
      = rowMax (fun k : Fin N => z (ix2 p k)) := by
  rw [maximumf_apply]
  refine congrArg (max (Ideal.ofBits .f32 0xFF800000#32)) ?_
  refine (Ideal.multiReduction_maximumf_single z _ hred hφ hacc (ix1 p)).trans ?_
  show (Finset.univ : Finset (Fin N)).fold max (Ideal.ofBits .f32 0xFF800000#32) (z ∘ hred.lift (ix1 p)) = _
  refine congrArg (fun f => (Finset.univ : Finset (Fin N)).fold max (Ideal.ofBits .f32 0xFF800000#32) f)
    (funext fun k => ?_)
  exact congrArg z (Cert.LibLayout.lift_row hred p k)

/-- The maximum of row p as the host spells it. -/
theorem rowMax_host {R N : ℕ} (z : FVec Ideal ⟨2, ![R, N]⟩ .f32) (hrt : Shape.ReducesTo ⟨2, ![R, N]⟩ [1] ⟨1, ![R]⟩)
    (hred : Shape.Reduces ⟨2, ![R, N]⟩ [1] ⟨1, ![R]⟩) (hu : 0 < (⟨0, ![]⟩ : Shape).numel)
    (hb0 : (⟨0, ![]⟩ : Shape).BroadcastsInDim ⟨1, ![R]⟩ ![]) (p : Fin R) :
    maximumf (broadcastInDim ⟨1, ![R]⟩ ![] hb0 (constant (F := Ideal) ⟨0, ![]⟩ .f32 0xFF800000#32))
        (Host.reduce FloatOps.maximumf z (constant (F := Ideal) ⟨0, ![]⟩ .f32 0xFF800000#32) hrt hu) (ix1 p)
      = rowMax (fun k : Fin N => z (ix2 p k)) := by
  rw [maximumf_apply, broadcastInDim_apply _ hb0 _ (ix1 p) ix0 (fun a => a.elim0)]
  refine congrArg (max (Ideal.ofBits .f32 0xFF800000#32)) ?_
  refine (Host.reduce_eq_fold_single FloatOps.maximumf z _ hrt hred hu (ix1 p)).trans ?_
  show (Finset.univ : Finset (Fin N)).fold max (Ideal.ofBits .f32 0xFF800000#32) (z ∘ hred.lift (ix1 p)) = _
  refine congrArg (fun f => (Finset.univ : Finset (Fin N)).fold max (Ideal.ofBits .f32 0xFF800000#32) f)
    (funext fun k => ?_)
  exact congrArg z (Cert.LibLayout.lift_row hred p k)

/-- Normalizing row p as a kernel spells it, given the subtracted array is μ along that row. -/
theorem normalize_tile {R N : ℕ} (z Mb : FVec Ideal ⟨2, ![R, N]⟩ .f32) (μ : EReal) (p : Fin R)
    (hM : ∀ q : Fin N, Mb (ix2 p q) = μ)
    (hred : Shape.Reduces ⟨2, ![R, N]⟩ [1] ⟨1, ![R]⟩) (hφ : FKind.Formats .f32)
    (hacc : (0x00000000#32 : BitVec 32) = FKind.add.neutral .f32 hφ)
    (hsc : (⟨1, ![R]⟩ : Shape).ShapeCasts ⟨2, ![R, 1]⟩) (hbc : (⟨2, ![R, 1]⟩ : Shape).Broadcasts ⟨2, ![R, N]⟩)
    (j : Fin N) :
    divf (exp (subf z Mb))
        (broadcastTo ⟨2, ![R, N]⟩ (shapeCast ⟨2, ![R, 1]⟩
          (multiReduction .add [1] ⟨1, ![R]⟩ (exp (subf z Mb)) 0x00000000#32 hred hφ hacc) hsc) hbc) (ix2 p j)
      = Ideal.div (Ideal.exp (z (ix2 p j) - μ)) (∑ k : Fin N, Ideal.exp (z (ix2 p k) - μ)) := by
  have hE : ∀ q : Fin N, exp (subf z Mb) (ix2 p q) = Ideal.exp (z (ix2 p q) - μ) := fun q => by
    show Ideal.exp (z (ix2 p q) - Mb (ix2 p q)) = _
    rw [hM]
  rw [divf_apply, hE, Cert.LibLayout.broadcastTo_a1_ab_apply, Cert.LibLayout.shapeCast_a_a1_apply,
    Cert.LibLayout.laneSum_apply]
  exact congrArg (Ideal.div _) (Finset.sum_congr rfl fun k _ => hE k)

/-- Normalizing row p as the host spells it, given the subtracted array is μ along that row. -/
theorem normalize_host {R N : ℕ} (z Mb : FVec Ideal ⟨2, ![R, N]⟩ .f32) (μ : EReal) (p : Fin R)
    (hM : ∀ q : Fin N, Mb (ix2 p q) = μ)
    (hrt : Shape.ReducesTo ⟨2, ![R, N]⟩ [1] ⟨1, ![R]⟩) (hred : Shape.Reduces ⟨2, ![R, N]⟩ [1] ⟨1, ![R]⟩)
    (hu : 0 < (⟨0, ![]⟩ : Shape).numel)
    (hb1 : (⟨1, ![R]⟩ : Shape).BroadcastsInDim ⟨2, ![R, 1]⟩ ![0])
    (hb2 : (⟨2, ![R, 1]⟩ : Shape).BroadcastsInDim ⟨2, ![R, N]⟩ ![0, 1]) (j : Fin N) :
    Host.divf (Host.exp (subf z Mb))
        (broadcastInDim ⟨2, ![R, N]⟩ ![0, 1] hb2 (broadcastInDim ⟨2, ![R, 1]⟩ ![0] hb1
          (Host.reduceAdd (F := Ideal) (Host.exp (subf z Mb)) (constant (F := Ideal) ⟨0, ![]⟩ .f32 0x00000000#32) hrt hu)))
        (ix2 p j)
      = Ideal.div (Ideal.exp (z (ix2 p j) - μ)) (∑ k : Fin N, Ideal.exp (z (ix2 p k) - μ)) := by
  have hE : ∀ q : Fin N, Host.exp (subf z Mb) (ix2 p q) = Ideal.exp (z (ix2 p q) - μ) := fun q => by
    show Ideal.exp (z (ix2 p q) - Mb (ix2 p q)) = _
    rw [hM]
  show Ideal.div (Host.exp (subf z Mb) (ix2 p j)) _ = _
  rw [hE, Cert.LibColumns.spread_apply, Cert.LibColumns.column_apply]
  refine congrArg (Ideal.div _) ?_
  refine (Ideal.hostReduceAdd_single hrt hred (Host.exp (subf z Mb)) _ (ix1 p)).trans ?_
  show Ideal.ofBits .f32 0x00000000#32 + ∑ k : Fin N, Host.exp (subf z Mb) (hred.lift (ix1 p) k) = _
  rw [Ideal.ofBits_zero_f32, zero_add]
  refine Finset.sum_congr rfl fun k _ => ?_
  rw [Cert.LibLayout.lift_row hred p k]
  exact hE k

/-- THE SOFTMAX OF ROW p AS A KERNEL SPELLS IT, read at (p, j). -/
theorem softmax_tile {R N : ℕ} (z : FVec Ideal ⟨2, ![R, N]⟩ .f32)
    (hred : Shape.Reduces ⟨2, ![R, N]⟩ [1] ⟨1, ![R]⟩) (hφ : FKind.Formats .f32)
    (haccM : (0xFF800000#32 : BitVec 32) = FKind.maximumf.neutral .f32 hφ)
    (haccA : (0x00000000#32 : BitVec 32) = FKind.add.neutral .f32 hφ)
    (hsc : (⟨1, ![R]⟩ : Shape).ShapeCasts ⟨2, ![R, 1]⟩) (hbc : (⟨2, ![R, 1]⟩ : Shape).Broadcasts ⟨2, ![R, N]⟩)
    (p : Fin R) (j : Fin N) :
    divf
        (exp (subf z (broadcastTo ⟨2, ![R, N]⟩ (shapeCast ⟨2, ![R, 1]⟩
          (maximumf (broadcast ⟨1, ![R]⟩ (Scalar.ofBits (F := Ideal) .f32 0xFF800000#32))
            (multiReduction .maximumf [1] ⟨1, ![R]⟩ z 0xFF800000#32 hred hφ haccM)) hsc) hbc)))
        (broadcastTo ⟨2, ![R, N]⟩ (shapeCast ⟨2, ![R, 1]⟩
          (multiReduction .add [1] ⟨1, ![R]⟩
            (exp (subf z (broadcastTo ⟨2, ![R, N]⟩ (shapeCast ⟨2, ![R, 1]⟩
              (maximumf (broadcast ⟨1, ![R]⟩ (Scalar.ofBits (F := Ideal) .f32 0xFF800000#32))
                (multiReduction .maximumf [1] ⟨1, ![R]⟩ z 0xFF800000#32 hred hφ haccM)) hsc) hbc)))
            0x00000000#32 hred hφ haccA) hsc) hbc) (ix2 p j)
      = softmaxRow (fun k : Fin N => z (ix2 p k)) j :=
  normalize_tile z _ (rowMax (fun k : Fin N => z (ix2 p k))) p (fun q => by
    rw [Cert.LibLayout.broadcastTo_a1_ab_apply, Cert.LibLayout.shapeCast_a_a1_apply]
    exact rowMax_tile z hred hφ haccM p) hred hφ haccA hsc hbc j

/-- THE SOFTMAX OF ROW p AS THE HOST SPELLS IT, read at (p, j). -/
theorem softmax_host {R N : ℕ} (z : FVec Ideal ⟨2, ![R, N]⟩ .f32)
    (hrt : Shape.ReducesTo ⟨2, ![R, N]⟩ [1] ⟨1, ![R]⟩) (hred : Shape.Reduces ⟨2, ![R, N]⟩ [1] ⟨1, ![R]⟩)
    (hu : 0 < (⟨0, ![]⟩ : Shape).numel) (hb0 : (⟨0, ![]⟩ : Shape).BroadcastsInDim ⟨1, ![R]⟩ ![])
    (hb1 : (⟨1, ![R]⟩ : Shape).BroadcastsInDim ⟨2, ![R, 1]⟩ ![0])
    (hb2 : (⟨2, ![R, 1]⟩ : Shape).BroadcastsInDim ⟨2, ![R, N]⟩ ![0, 1]) (p : Fin R) (j : Fin N) :
    Host.divf
        (Host.exp (subf z (broadcastInDim ⟨2, ![R, N]⟩ ![0, 1] hb2 (broadcastInDim ⟨2, ![R, 1]⟩ ![0] hb1
          (maximumf (broadcastInDim ⟨1, ![R]⟩ ![] hb0 (constant (F := Ideal) ⟨0, ![]⟩ .f32 0xFF800000#32))
            (Host.reduce FloatOps.maximumf z (constant (F := Ideal) ⟨0, ![]⟩ .f32 0xFF800000#32) hrt hu))))))
        (broadcastInDim ⟨2, ![R, N]⟩ ![0, 1] hb2 (broadcastInDim ⟨2, ![R, 1]⟩ ![0] hb1
          (Host.reduceAdd (F := Ideal)
            (Host.exp (subf z (broadcastInDim ⟨2, ![R, N]⟩ ![0, 1] hb2 (broadcastInDim ⟨2, ![R, 1]⟩ ![0] hb1
              (maximumf (broadcastInDim ⟨1, ![R]⟩ ![] hb0 (constant (F := Ideal) ⟨0, ![]⟩ .f32 0xFF800000#32))
                (Host.reduce FloatOps.maximumf z (constant (F := Ideal) ⟨0, ![]⟩ .f32 0xFF800000#32) hrt hu))))))
            (constant (F := Ideal) ⟨0, ![]⟩ .f32 0x00000000#32) hrt hu))) (ix2 p j)
      = softmaxRow (fun k : Fin N => z (ix2 p k)) j :=
  normalize_host z _ (rowMax (fun k : Fin N => z (ix2 p k))) p (fun q => by
    rw [Cert.LibColumns.spread_apply, Cert.LibColumns.column_apply]
    exact rowMax_host z hrt hred hu hb0 p) hrt hred hu hb1 hb2 j

end Cert.SpecS

end
-- ==== Proof.RegionS2.lean ====
/-
  The two stored values of the projection-and-softmax body, read at coordinates (p, j) of its block of 5000 rows, on
  extended reals, as functions of the four loaded blocks: x0 the rows of the aggregated array, x1 the bias row b1,
  x2 the projection weights, x3 the bias row bp.

  * hidden_block: the first store is relu (x0(p, ·) + x1(0, ·)) at j;
  * assign_block: the second is the softmax, along row p, of the dense layer (weights x2, bias x3(0, ·)) of row p of the
    first store: the matrix unit's product into a zero accumulator with both operands rounded to bf16 on the way in
    (the identity on extended reals), plus the bias row, then the row-wise softmax of RegionS1.
-/
import proofs.«148048_j2284922601976_1_alg».proof.Proof.Gen.KernelIdeal.Skeleton
import proofs.«148048_j2284922601976_1_alg».proof.Proof.RegionS1
import proofs.«148048_j2284922601976_1_alg».proof.Proof.LibContract

noncomputable section

namespace Cert.KernelIdeal.RegS

open Idealize.ShloMosaic Idealize.ShloMosaic.ValueIdx
open Cert.KernelIdeal Cert.KernelIdeal.Gen

/-- The first store at (p, j): the rectified sum of the aggregated entry and its column's bias. -/
theorem hidden_block (x0 : Vec Ideal S5000x128 .f32) (x1 : Vec Ideal S1x128 .f32) (p : Fin 5000) (j : Fin 128) :
    Gen.k1_pay1 (F := Ideal) x0 x1 (ix2 p j)
      = Cert.Dense.relu (fun j : Fin 128 => x0 (ix2 p j) + x1 (ix2 (0 : Fin 1) j)) j := by
  unfold Gen.k1_pay1
  refine (Cert.Dense.relu_tile _ p j).trans ?_
  refine congrArg (fun v => Cert.Dense.relu v j) (funext fun q => ?_)
  rw [addf_apply, shapeCast_self, shapeCast_self, broadcastTo_1b_ab_apply]

/-- The second store at (p, j): the softmax along row p of the dense layer of the first store's row p. -/
theorem assign_block (x0 : Vec Ideal S5000x128 .f32) (x1 : Vec Ideal S1x128 .f32) (x2 : Vec Ideal S128x9 .f32)
    (x3 : Vec Ideal S1x9 .f32) (p : Fin 5000) (j : Fin 9) :
    Gen.k1_pay2 (F := Ideal) x0 x1 x2 x3 (ix2 p j)
      = Cert.SpecS.softmaxRow (Cert.Dense.affine x2 (fun j : Fin 9 => x3 (ix2 (0 : Fin 1) j))
          (fun k : Fin 128 => Gen.k1_pay1 (F := Ideal) x0 x1 (ix2 p k))) j := by
  unfold Gen.k1_pay2
  refine (Cert.SpecS.softmax_tile _ _ _ _ _ _ _ p j).trans ?_
  refine congrArg (fun v => Cert.SpecS.softmaxRow v j) (funext fun q => ?_)
  exact Cert.Dense.tile_affine dot_S5000x128_S128x9_S5000x9_1_0_0_1_n_n rfl rfl
    (Cert.LibContract.mat_lhs_0 Facts₀.dot_S5000x128_S128x9_S5000x9_1_0_0_1_n_n_wf)
    (Cert.LibContract.mat_lhs_1 Facts₀.dot_S5000x128_S128x9_S5000x9_1_0_0_1_n_n_wf)
    (Cert.LibContract.mat_rhs_0 Facts₀.dot_S5000x128_S128x9_S5000x9_1_0_0_1_n_n_wf)
    (Cert.LibContract.mat_rhs_1 Facts₀.dot_S5000x128_S128x9_S5000x9_1_0_0_1_n_n_wf)
    (Gen.k1_pay1 (F := Ideal) x0 x1) x2 x3 _ _ _ p q

end Cert.KernelIdeal.RegS

end
-- ==== Proof.RegionS3.lean ====
/-
  REGION 1 READ OFF ITS FRAME: what the projection-and-softmax pipeline leaves in its two output arrays, as functions of
  the arrays the region finds (V): window 0 the aggregated array in row blocks of 5000, windows 1, 2, 3 the bias row b1,
  the projection weights and the bias row bp whole, windows 4 and 5 the outputs in row blocks of 5000.

  * idx_facts: the printed index maps over the 20 grid points: the row-blocked windows sit at block (t, 0), the whole ones at (0, 0);
  * rows_block / row1_block / weights_block / row3_block: each input block read at an index of the block is the array at
    the corresponding index (row t·5000 + p for the row-blocked window);
  * hidden_flushed / assign_flushed: what point t writes back is block t of SpecS.hx / SpecS.s of the arrays;
  * cover4 / cover5: row r lies in the block of point r / 5000;
  * final4 / final5: the arrays after the region.
-/
import proofs.«148048_j2284922601976_1_alg».proof.Proof.Gen.KernelIdeal.Frame
import proofs.«148048_j2284922601976_1_alg».proof.Proof.RegionS2
import Idealize.ShloMosaic.Lib.Pipeline.Value

set_option maxRecDepth 16384

noncomputable section

namespace Cert.KernelIdeal.RegS

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Block t of the row-blocked input, at (p, j) of the block, is the array at row t·5000 + p. -/
theorem rows_block (c : Dev nD) (t : Fin cfg1.N) (Y : S5000x128.Idx) (I : S100000x128.Idx)
    (h0 : (I 0).val = t.val * 5000 + (Y 0).val) (h1 : (I 1).val = (Y 1).val) :
    (iblk1 V c 0 t : Vec Ideal S5000x128 .f32) Y = (V c main_v46 : S100000x128.Idx → EReal) I := by
  obtain ⟨e0, e1, -⟩ := idx_facts t
  unfold iblk1
  rw [View.read_apply]
  show V c main_v46 _ = V c main_v46 _
  refine congrArg _ (funext fun a => Fin.ext ?_)
  match a with
  | ⟨0, _⟩ => show win1_0.index t (0 : Fin 2) * 5000 + 1 * (Y 0).val = (I 0).val; rw [e0, h0]; omega
  | ⟨1, _⟩ => show win1_0.index t (1 : Fin 2) * 128 + 1 * (Y 1).val = (I 1).val; rw [e1, h1]; omega

/-- The bias row b1, staged whole: its block is the array. -/
theorem row1_block (c : Dev nD) (t : Fin cfg1.N) (Y : S1x128.Idx) :
    (iblk1 V c 1 t : Vec Ideal S1x128 .f32) Y = (V c main_v47 : S1x128.Idx → EReal) Y := by
  obtain ⟨-, -, e0, e1, -⟩ := idx_facts t
  unfold iblk1
  rw [View.read_apply]
  show V c main_v47 _ = V c main_v47 _
  refine congrArg _ (funext fun a => Fin.ext ?_)
  match a with
  | ⟨0, _⟩ => show win1_1.index t (0 : Fin 2) * 1 + 1 * (Y 0).val = (Y 0).val; rw [e0]; omega
  | ⟨1, _⟩ => show win1_1.index t (1 : Fin 2) * 128 + 1 * (Y 1).val = (Y 1).val; rw [e1]; omega

/-- The projection weights, staged whole: their block is the array. -/
theorem weights_block (c : Dev nD) (t : Fin cfg1.N) (Y : S128x9.Idx) :
    (iblk1 V c 2 t : Vec Ideal S128x9 .f32) Y = (V c main_arg5 : S128x9.Idx → EReal) Y := by
  obtain ⟨-, -, -, -, e0, e1, -⟩ := idx_facts t
  unfold iblk1
  rw [View.read_apply]
  show V c main_arg5 _ = V c main_arg5 _
  refine congrArg _ (funext fun a => Fin.ext ?_)
  match a with
  | ⟨0, _⟩ => show win1_2.index t (0 : Fin 2) * 128 + 1 * (Y 0).val = (Y 0).val; rw [e0]; omega
  | ⟨1, _⟩ => show win1_2.index t (1 : Fin 2) * 9 + 1 * (Y 1).val = (Y 1).val; rw [e1]; omega

/-- The bias row bp, staged whole: its block is the array. -/
theorem row3_block (c : Dev nD) (t : Fin cfg1.N) (Y : S1x9.Idx) :
    (iblk1 V c 3 t : Vec Ideal S1x9 .f32) Y = (V c main_v48 : S1x9.Idx → EReal) Y := by
  obtain ⟨-, -, -, -, -, -, e0, e1, -⟩ := idx_facts t
  unfold iblk1
  rw [View.read_apply]
  show V c main_v48 _ = V c main_v48 _
  refine congrArg _ (funext fun a => Fin.ext ?_)
  match a with
  | ⟨0, _⟩ => show win1_3.index t (0 : Fin 2) * 1 + 1 * (Y 0).val = (Y 0).val; rw [e0]; omega
  | ⟨1, _⟩ => show win1_3.index t (1 : Fin 2) * 9 + 1 * (Y 1).val = (Y 1).val; rw [e1]; omega

/-- The first store of point t, at an index Y of its block, is SpecS.hx at the array index I of row t·5000 + (row of Y). -/
theorem hidden_point (c : Dev nD) (t : Fin cfg1.N) (b1 : Fin 128 → EReal)
    (hb1 : ∀ j : Fin 128, (V c main_v47 : S1x128.Idx → EReal) (ix2 (0 : Fin 1) j) = b1 j)
    (Y : S5000x128.Idx) (I : S100000x128.Idx)
    (h0 : (I 0).val = t.val * 5000 + (Y 0).val) (h1 : (I 1).val = (Y 1).val) :
    k1_pay1 (F := Ideal) (iblk1 V c 0 t) (iblk1 V c 1 t) Y = Cert.SpecS.hx (V c main_v46) b1 I := by
  obtain ⟨p, j, rfl⟩ : ∃ (p : Fin 5000) (j : Fin 128), Y = ix2 p j := ⟨Y 0, Y 1, eq_ix2 Y⟩
  obtain ⟨r, j', rfl⟩ : ∃ (r : Fin 100000) (j' : Fin 128), I = ix2 r j' := ⟨I 0, I 1, eq_ix2 I⟩
  have hr : r.val = t.val * 5000 + p.val := h0
  obtain rfl : j' = j := Fin.ext h1
  refine (hidden_block (iblk1 V c 0 t) (iblk1 V c 1 t) p j').trans ?_
  refine (congrArg (fun v => Cert.Dense.relu v j') (funext fun q => ?_)).trans
    (Cert.SpecS.hx_apply (V c main_v46) b1 r j').symm
  refine congrArg₂ (fun a b : EReal => a + b) ?_ ?_
  · exact rows_block V c t (ix2 p q) (ix2 r q) hr rfl
  · exact (row1_block V c t (ix2 (0 : Fin 1) q)).trans (hb1 q)

/-- The second store of point t, at an index Y of its block, is SpecS.s at the array index I of row t·5000 + (row of Y). -/
theorem assign_point (c : Dev nD) (t : Fin cfg1.N) (b1 : Fin 128 → EReal)
    (hb1 : ∀ j : Fin 128, (V c main_v47 : S1x128.Idx → EReal) (ix2 (0 : Fin 1) j) = b1 j)
    (bp : Fin 9 → EReal) (hbp : ∀ j : Fin 9, (V c main_v48 : S1x9.Idx → EReal) (ix2 (0 : Fin 1) j) = bp j)
    (Y : S5000x9.Idx) (I : S100000x9.Idx)
    (h0 : (I 0).val = t.val * 5000 + (Y 0).val) (h1 : (I 1).val = (Y 1).val) :
    k1_pay2 (F := Ideal) (iblk1 V c 0 t) (iblk1 V c 1 t) (iblk1 V c 2 t) (iblk1 V c 3 t) Y
      = Cert.SpecS.s (Cert.SpecS.hx (V c main_v46) b1) (V c main_arg5) bp I := by
  obtain ⟨p, j, rfl⟩ : ∃ (p : Fin 5000) (j : Fin 9), Y = ix2 p j := ⟨Y 0, Y 1, eq_ix2 Y⟩
  obtain ⟨r, j', rfl⟩ : ∃ (r : Fin 100000) (j' : Fin 9), I = ix2 r j' := ⟨I 0, I 1, eq_ix2 I⟩
  have hr : r.val = t.val * 5000 + p.val := h0
  obtain rfl : j' = j := Fin.ext h1
  refine (assign_block (iblk1 V c 0 t) (iblk1 V c 1 t) (iblk1 V c 2 t) (iblk1 V c 3 t) p j').trans ?_
  refine (congrArg (fun v => Cert.SpecS.softmaxRow v j') (funext fun q => ?_)).trans
    (Cert.SpecS.s_apply (Cert.SpecS.hx (V c main_v46) b1) (V c main_arg5) bp r j').symm
  unfold Cert.Dense.affine
  refine congrArg₂ (fun a b : EReal => a + b) (Finset.sum_congr rfl fun k _ => ?_) ?_
  · refine congrArg₂ (fun a b : EReal => a * b) ?_ ?_
    · exact hidden_point V c t b1 hb1 (ix2 p k) (ix2 r k) hr rfl
    · exact weights_block V c t (ix2 k q)
  · exact (row3_block V c t (ix2 (0 : Fin 1) q)).trans (hbp q)

end Cert.KernelIdeal.RegS

end
-- ==== Proof.RegionS5.lean ====
/-
  REGION 1'S TWO OUTPUT ARRAYS AFTER THE REGION, as functions of the arrays the region finds.

  * hidden_flushed / assign_flushed: what point t writes back of each output window is block t (rows t·5000 ... t·5000 + 4999)
    of SpecS.hx, respectively SpecS.s, of those arrays: the body's one store per window covers the staging buffer, its
    payload at an index of the block is the specification at the corresponding row of the array (RegionS3);
  * mem_blk4 / mem_blk5: an index is in point t's block iff each coordinate lies in the block's range;
  * cover4 / cover5: row r lies in the block of point r / 5000, so the 20 blocks cover the array;
  * final4 / final5: hence the arrays end holding SpecS.hx and SpecS.s.
-/
import proofs.«148048_j2284922601976_1_alg».proof.Proof.RegionS3

set_option maxRecDepth 16384

noncomputable section

namespace Cert.KernelIdeal.RegS

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- What point t writes back of the hidden activations is block t of SpecS.hx. -/
theorem hidden_flushed (c : Dev nD) (t : Fin cfg1.N) (b1 : Fin 128 → EReal)
    (hb1 : ∀ j : Fin 128, V c main_v47 (ix2 0 j) = b1 j) :
    (dat1 V c).flushed 4 t = ((cfg1.win 4).blk t).view.read (Elt Ideal) (Cert.SpecS.hx (V c main_v46) b1) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz]
  obtain ⟨-, -, -, -, -, -, -, -, e0, e1, -⟩ := idx_facts t
  funext y
  show k1_pay1 (F := Ideal) (iblk1 V c 0 t) (iblk1 V c 1 t) ((cfg1.win 4).xinj (grid1.coords t) y)
    = Cert.SpecS.hx (V c main_v46) b1 (((cfg1.win 4).blk t).view.emb y)
  refine hidden_point V c t b1 hb1 _ _ ?_ ?_
  · show win1_4.index t (0 : Fin 2) * 5000 + 1 * (y 0).val = t.val * 5000 + (y 0).val; rw [e0]; omega
  · show win1_4.index t (1 : Fin 2) * 128 + 1 * (y 1).val = (y 1).val; rw [e1]; omega

/-- An index of the array is in point t's block of window 4 iff each coordinate is in the block's range on its axis. -/
theorem mem_blk4 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v49_0).slice (win1_4.rect t)).set ↔ _
  rw [View.set_slice_whole, Rect.mem_set_unit]
  exact Iff.rfl

/-- Row r is in the block of point r / 5000: the 20 row blocks cover the array. -/
theorem cover4 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, e0, e1, -⟩ := idx_facts t
  refine ⟨t, flush1_4 t, ?_⟩
  rw [mem_blk4]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 128 ≤ (i 1).val ∧ (i 1).val < win1_4.index t (1 : Fin 2) * 128 + 128
    rw [e1]; omega

/-- THE HIDDEN ACTIVATIONS AFTER THE REGION: relu (agg + b1), whatever the output array held before. -/
theorem final4 (c : Dev nD) (b1 : Fin 128 → EReal) (hb1 : ∀ j : Fin 128, V c main_v47 (ix2 0 j) = b1 j) :
    (Gen.dat1 (F := Ideal) V c).arrAt 4 cfg1.N = Cert.SpecS.hx (V c main_v46) b1 :=
  (dat1 V c).arrAt_eq_of_cover 4 (Cert.SpecS.hx (V c main_v46) b1) (fun t _ => hidden_flushed V c t b1 hb1) cover4

/-- What point t writes back of the soft assignment is block t of SpecS.s. -/
theorem assign_flushed (c : Dev nD) (t : Fin cfg1.N) (b1 : Fin 128 → EReal)
    (hb1 : ∀ j : Fin 128, V c main_v47 (ix2 0 j) = b1 j)
    (bp : Fin 9 → EReal) (hbp : ∀ j : Fin 9, V c main_v48 (ix2 0 j) = bp j) :
    (dat1 V c).flushed 5 t = ((cfg1.win 5).blk t).view.read (Elt Ideal)
      (Cert.SpecS.s (Cert.SpecS.hx (V c main_v46) b1) (V c main_arg5) bp) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz,
    View.ld_unit_zero (S := S128x9) hz, View.ld_unit_zero (S := S1x9) hz]
  obtain ⟨-, -, -, -, -, -, -, -, -, -, e0, e1⟩ := idx_facts t
  funext y
  show k1_pay2 (F := Ideal) (iblk1 V c 0 t) (iblk1 V c 1 t) (iblk1 V c 2 t) (iblk1 V c 3 t)
      ((cfg1.win 5).xinj (grid1.coords t) y)
    = Cert.SpecS.s (Cert.SpecS.hx (V c main_v46) b1) (V c main_arg5) bp (((cfg1.win 5).blk t).view.emb y)
  refine assign_point V c t b1 hb1 bp hbp _ _ ?_ ?_
  · show win1_5.index t (0 : Fin 2) * 5000 + 1 * (y 0).val = t.val * 5000 + (y 0).val; rw [e0]; omega
  · show win1_5.index t (1 : Fin 2) * 9 + 1 * (y 1).val = (y 1).val; rw [e1]; omega

/-- An index of the array is in point t's block of window 5 iff each coordinate is in the block's range on its axis. -/
theorem mem_blk5 (t : Fin cfg1.N) (i : S100000x9.Idx) :
    i ∈ ((cfg1.win 5).blk t).view.set ↔ ∀ a : Fin 2, win1_5.index t a * S5000x9.size a ≤ (i a).val
      ∧ (i a).val < win1_5.index t a * S5000x9.size a + S5000x9.size a := by
  show i ∈ ((View.whole main_v49_1).slice (win1_5.rect t)).set ↔ _
  rw [View.set_slice_whole, Rect.mem_set_unit]
  exact Iff.rfl

/-- Row r is in the block of point r / 5000: the 20 row blocks cover the array. -/
theorem cover5 (i : S100000x9.Idx) :
    ∃ t : Fin cfg1.N, (cfg1.win 5).flush t = true ∧ i ∈ ((cfg1.win 5).blk t).view.set := by
  have hi0 : (i 0).val < 100000 := (i 0).isLt
  have hi1 : (i 1).val < 9 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := idx_facts t
  refine ⟨t, flush1_5 t, ?_⟩
  rw [mem_blk5]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 9 ≤ (i 1).val ∧ (i 1).val < win1_5.index t (1 : Fin 2) * 9 + 9
    rw [e1]; omega

/-- THE SOFT ASSIGNMENT AFTER THE REGION: the row-wise softmax of hx · Wp + bp, whatever the output array held before. -/
theorem final5 (c : Dev nD) (b1 : Fin 128 → EReal) (hb1 : ∀ j : Fin 128, V c main_v47 (ix2 0 j) = b1 j)
    (bp : Fin 9 → EReal) (hbp : ∀ j : Fin 9, V c main_v48 (ix2 0 j) = bp j) :
    (Gen.dat1 (F := Ideal) V c).arrAt 5 cfg1.N
      = Cert.SpecS.s (Cert.SpecS.hx (V c main_v46) b1) (V c main_arg5) bp :=
  (dat1 V c).arrAt_eq_of_cover 5 (Cert.SpecS.s (Cert.SpecS.hx (V c main_v46) b1) (V c main_arg5) bp)
    (fun t _ => assign_flushed V c t b1 hb1 bp hbp) cover5

end Cert.KernelIdeal.RegS

end
-- ==== Proof.RegionP.lean ====
/-
  The two pooled products of a soft cluster assignment. For an assignment matrix s : [100000, 9] (row n gives the
  weights of node n in the 9 clusters) and node features hx : [100000, 128],

      xpool = s^T * hx : [9, 128],   xpool (b, r) = sum over the 100000 rows n of s (n, b) * hx (n, r),
      ss    = s^T * s  : [9, 9],     ss (b, b')   = sum over the 100000 rows n of s (n, b) * s (n, b'),

  each entry ONE sum over all rows, on extended reals. Beside the two definitions, the general facts used to bring both
  programs to them (nothing below mentions a program; the extents are arbitrary unless a literal is written):

  * ix2_of_val: a rank-2 index with known coordinates is the index built from them.
  * contraction_cols / matmul_cols: a contraction of axis 0 of a [K, R] array with axis 0 of a [K, N] array (no batch
    axes), read at (p, j), is the sum over k : Fin K of l (k, p) * r (k, j) -- the product of the TRANSPOSE of the left
    operand with the right one; matmul_cols is the matrix unit's spelling of it into a zero accumulator.
  * contraction_mat / hostdot_mat: the plain matrix product [R, K] x [K, N], the host's spelling.
  * sum_blocks / sum_rows_blocks: a sum over A * B consecutive rows is the sum over the A blocks of the sums over the B
    rows of each block (row B * t + k is row k of block t); with A = 20, B = 5000 and the blocks enumerated by a range
    of naturals this is the form a running sum over the blocks ends in.
  Only re-indexing of finite sums is used: no law of extended-real arithmetic that would need finite entries.
-/
import Idealize.ShloMosaic.PureOps.Ideal
import Idealize.ShloMosaic.PureOps.Ideal.Laws
import Idealize.ShloMosaic.Lib.ValueIdx

noncomputable section

namespace Cert.SpecP

open Idealize.ShloMosaic Idealize.ShloMosaic.ValueIdx
open scoped BigOperators

/-! ## The two pooled products -/

/-- xpool = s^T * hx: entry (b, r) is the sum over all rows n of s (n, b) * hx (n, r). -/
def xpool (s : (⟨2, ![100000, 9]⟩ : Shape).Idx → EReal) (hx : (⟨2, ![100000, 128]⟩ : Shape).Idx → EReal) :
    (⟨2, ![9, 128]⟩ : Shape).Idx → EReal :=
  fun i => ∑ n : Fin 100000, s (ix2 n (⟨(i 0).val, idx2_lt0 i⟩ : Fin 9)) * hx (ix2 n (⟨(i 1).val, idx2_lt1 i⟩ : Fin 128))

/-- ss = s^T * s: entry (b, b') is the sum over all rows n of s (n, b) * s (n, b'). -/
def ss (s : (⟨2, ![100000, 9]⟩ : Shape).Idx → EReal) : (⟨2, ![9, 9]⟩ : Shape).Idx → EReal :=
  fun i => ∑ n : Fin 100000, s (ix2 n (⟨(i 0).val, idx2_lt0 i⟩ : Fin 9)) * s (ix2 n (⟨(i 1).val, idx2_lt1 i⟩ : Fin 9))

/-- xpool at explicit coordinates. -/
theorem xpool_apply (s : (⟨2, ![100000, 9]⟩ : Shape).Idx → EReal) (hx : (⟨2, ![100000, 128]⟩ : Shape).Idx → EReal)
    (b : Fin 9) (r : Fin 128) : xpool s hx (ix2 b r) = ∑ n : Fin 100000, s (ix2 n b) * hx (ix2 n r) := rfl

/-- ss at explicit coordinates. -/
theorem ss_apply (s : (⟨2, ![100000, 9]⟩ : Shape).Idx → EReal) (b b' : Fin 9) :
    ss s (ix2 b b') = ∑ n : Fin 100000, s (ix2 n b) * s (ix2 n b') := rfl

/-! ## Contractions read at an index -/

/-- A rank-2 index with known coordinates is the index built from them. -/
theorem ix2_of_val {n0 n1 : ℕ} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- A contraction of axis 0 of a [K, R] array with axis 0 of a [K, N] array (no batch axes), read at (p, j): the sum over
    k of l (k, p) * r (k, j). The dimension record enters through four coordinate facts about its operand indices and
    the rank and extent of its one contracted axis. -/
theorem contraction_cols {K R N : ℕ} (d : DotDims ⟨2, ![K, R]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (q ⟨0, by omega⟩).val)
    (hl1 : ∀ (i : (⟨2, ![R, N]⟩ : Shape).Idx) (q : d.contr.Idx), (d.lhsIdx i q 1).val = (i 0).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (l : (⟨2, ![K, R]⟩ : Shape).Idx → EReal) (r : (⟨2, ![K, N]⟩ : Shape).Idx → EReal) (p : Fin R) (j : Fin N) :
    ∑ q : d.contr.Idx, l (d.lhsIdx (ix2 p j) q) * r (d.rhsIdx (ix2 p j) q) = ∑ k : Fin K, l (ix2 k p) * r (ix2 k j) := by
  rw [← Equiv.sum_comp (contrEquiv1 d K hrank hsize).symm]
  refine Finset.sum_congr rfl fun k _ => ?_
  have hk := contrEquiv1_symm_val d K hrank hsize k
  have el : d.lhsIdx (ix2 p j) ((contrEquiv1 d K hrank hsize).symm k) = ix2 k p :=
    ix2_of_val _ k p ((hl0 _ _).trans hk) (hl1 _ _)
  have er : d.rhsIdx (ix2 p j) ((contrEquiv1 d K hrank hsize).symm k) = ix2 k j :=
    ix2_of_val _ k j ((hr0 _ _).trans hk) (hr1 _ _)
  rw [el, er]

/-- The matrix unit's product of the transpose of a [K, R] operand with a [K, N] operand into a zero accumulator, read
    at (p, j). -/
theorem matmul_cols {K R N : ℕ} (d : DotDims ⟨2, ![K, R]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (q ⟨0, by omega⟩).val)
    (hl1 : ∀ (i : (⟨2, ![R, N]⟩ : Shape).Idx) (q : d.contr.Idx), (d.lhsIdx i q 1).val = (i 0).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    {φ₁ φ₂ : FTy} (l : FVec Ideal ⟨2, ![K, R]⟩ φ₁) (r : FVec Ideal ⟨2, ![K, N]⟩ φ₂) (p : Fin R) (j : Fin N) :
    matmul d none l r (constant (F := Ideal) ⟨2, ![R, N]⟩ .f32 0x00000000#32) (ix2 p j)
      = ∑ k : Fin K, l (ix2 k p) * r (ix2 k j) :=
  (Ideal.matmul_constant_zero_apply d none l r (ix2 p j)).trans
    (contraction_cols d hrank hsize hl0 hl1 hr0 hr1 l r p j)

/-- The plain matrix product: a contraction of axis 1 of an [R, K] array with axis 0 of a [K, N] array (no batch axes),
    read at (p, j), is the sum over k of l (p, k) * r (k, j). -/
theorem contraction_mat {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (l : (⟨2, ![R, K]⟩ : Shape).Idx → EReal) (r : (⟨2, ![K, N]⟩ : Shape).Idx → EReal) (p : Fin R) (j : Fin N) :
    ∑ q : d.contr.Idx, l (d.lhsIdx (ix2 p j) q) * r (d.rhsIdx (ix2 p j) q) = ∑ k : Fin K, l (ix2 p k) * r (ix2 k j) := by
  rw [← Equiv.sum_comp (contrEquiv1 d K hrank hsize).symm]
  refine Finset.sum_congr rfl fun k _ => ?_
  have hk := contrEquiv1_symm_val d K hrank hsize k
  have el : d.lhsIdx (ix2 p j) ((contrEquiv1 d K hrank hsize).symm k) = ix2 p k :=
    ix2_of_val _ p k (hl0 _ _) ((hl1 _ _).trans hk)
  have er : d.rhsIdx (ix2 p j) ((contrEquiv1 d K hrank hsize).symm k) = ix2 k j :=
    ix2_of_val _ k j ((hr0 _ _).trans hk) (hr1 _ _)
  rw [el, er]

/-- The host's dot_general of an [R, K] array with a [K, N] array, read at (p, j). -/
theorem hostdot_mat {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (l : FVec Ideal ⟨2, ![R, K]⟩ .f32) (r : FVec Ideal ⟨2, ![K, N]⟩ .f32) (p : Fin R) (j : Fin N) :
    Host.dotGeneral d none l r (ix2 p j) = ∑ k : Fin K, l (ix2 p k) * r (ix2 k j) :=
  (Ideal.dotGeneral_apply d none .single l r (ix2 p j)).trans
    (contraction_mat d hrank hsize hl0 hl1 hr0 hr1 l r p j)

/-! ## A sum over all rows, block by block -/

/-- Row k of block t, in blocks of B rows, is below A * B when t is below A and k below B. -/
theorem blk_lt {A B t k : ℕ} (ht : t < A) (hk : k < B) : B * t + k < A * B :=
  calc B * t + k < B * t + B := Nat.add_lt_add_left hk _
    _ = B * (t + 1) := (Nat.mul_succ B t).symm
    _ ≤ B * A := Nat.mul_le_mul_left B ht
    _ = A * B := Nat.mul_comm B A

/-- A sum over N = A * B rows is the sum over the A blocks of the sums over each block's B rows. -/
theorem sum_blocks {M : Type*} [AddCommMonoid M] (A B N : ℕ) (hN : A * B = N) (f : Fin N → M) :
    ∑ n : Fin N, f n = ∑ t : Fin A, ∑ k : Fin B, f ⟨B * t.val + k.val, hN ▸ blk_lt t.isLt k.isLt⟩ := by
  subst hN
  rw [← Equiv.sum_comp finProdFinEquiv f, Fintype.sum_prod_type]
  refine Finset.sum_congr rfl fun t _ => Finset.sum_congr rfl fun k _ => congrArg f (Fin.ext ?_)
  show k.val + B * t.val = B * t.val + k.val
  exact Nat.add_comm _ _

/-- Row k of block t of 5000 rows, as a row of the 100000 (taken modulo 100000, so that it is a row for every natural
    t; for t below 20 nothing wraps). -/
def rowOf (t : ℕ) (k : Fin 5000) : Fin 100000 := ⟨(5000 * t + k.val) % 100000, Nat.mod_lt _ (by decide)⟩

/-- The value of rowOf at a block below 20. -/
theorem rowOf_val {t : ℕ} (ht : t < 20) (k : Fin 5000) : (rowOf t k).val = 5000 * t + k.val := by
  have hk := k.isLt
  show (5000 * t + k.val) % 100000 = 5000 * t + k.val
  omega

/-- The sum over the 20 blocks, enumerated by the naturals below 20, of the sums over each block's 5000 rows, is the sum
    over all 100000 rows. -/
theorem sum_rows_blocks {M : Type*} [AddCommMonoid M] (f : Fin 100000 → M) :
    ∑ t ∈ Finset.range 20, ∑ k : Fin 5000, f (rowOf t k) = ∑ n : Fin 100000, f n := by
  rw [sum_blocks 20 5000 100000 (by decide) f, ← Fin.sum_univ_eq_sum_range (fun t => ∑ k : Fin 5000, f (rowOf t k)) 20]
  refine Finset.sum_congr rfl fun t _ => Finset.sum_congr rfl fun k _ => congrArg f (Fin.ext ?_)
  exact rowOf_val t.isLt k

end Cert.SpecP

end
-- ==== Proof.RegionP1.lean ====
/-
  The pooling region's body, one grid point at a time: what it leaves in its two output blocks, as values.

  The body sees a block s_t : [5000, 9] of the assignment matrix and the matching block hx_t : [5000, 128] of the features,
  and two output blocks that stay in place across the 20 points: acc : [9, 128] and acc' : [9, 9]. At the first point it
  first stores zeros into both; at every point it then stores acc + s_t^T * hx_t and acc' + s_t^T * s_t. The run of the
  body found, per control case, the list of stores into each output; here each list is read back as ONE value:

    case A (first point):  acc  becomes  pay4 s_t hx_t 0,    acc' becomes  pay5 s_t 0
    case B (later points): acc  becomes  pay4 s_t hx_t acc,  acc' becomes  pay5 s_t acc'

  where pay4 v3 v6 v9 = v9 + (v3 as bf16)^T * (v6 as bf16) and pay5 v3 v14 = v14 + (v3 as bf16)^T * (v3 as bf16) are the
  body's two arithmetic terms and 0 is the zero splat. In case A the accumulator the body reads back is the zero block it
  has just stored (a load covered by the earlier store). All four statements hold for any float instance.
-/
import proofs.«148048_j2284922601976_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RegP

open Cert.KernelIdeal Cert.KernelIdeal.Gen

variable {F : FTy → Type} [FloatOps F]

/-- The whole-block rectangles sit at zero offsets. -/
theorem hz : (![0, 0] : Fin 2 → Nat) = fun _ => 0 := funext fun a => by fin_cases a <;> rfl

/-- CASE B, the [9, 128] output: the one covering store's payload, its loads reading the whole staging buffers. -/
theorem out_B_2 (c : Dev nD) (i : grid2.Coords) (a1 : Memref sig .tc .vmem S5000x9 .f32) (h1 : a1.IsWhole)
    (a2 : Memref sig .tc .vmem S5000x128 .f32) (h2 : a2.IsWhole) (a3 : Memref sig .tc .vmem S9x128 .f32) (h3 : a3.IsWhole)
    (a4 : Memref sig .tc .vmem S9x9 .f32) (h4 : a4.IsWhole) (hc : ¬cond2_0 i)
    (x0 : Vec F S5000x9 .f32) (x1 : Vec F S5000x128 .f32) (xo2 : Vec F S9x128 .f32) (xo3 : Vec F S9x9 .f32) :
    out2_B_2 c i a1 h1 a2 h2 a3 h3 a4 h4 hc x0 x1 xo2 xo3 = k2_pay4 x0 x1 xo2 := by
  unfold out2_B_2
  rw [View.read_writes_eq_canon _ _ _ (cover2_B_2 c i a1 h1 a2 h2 a3 h3 a4 h4 hc x0 x1 xo2 xo3)]
  unfold kernelRun2_B
  dsimp only
  rw [View.canon_unit_zero hz]
  simp only [View.readAt_eq_ld, h1.read_unread, h2.read_unread, h3.read_unread, View.ld_unit_zero (S := S5000x9) hz,
    View.ld_unit_zero (S := S5000x128) hz, View.ld_unit_zero (S := S9x128) hz]

/-- CASE B, the [9, 9] output. -/
theorem out_B_3 (c : Dev nD) (i : grid2.Coords) (a1 : Memref sig .tc .vmem S5000x9 .f32) (h1 : a1.IsWhole)
    (a2 : Memref sig .tc .vmem S5000x128 .f32) (h2 : a2.IsWhole) (a3 : Memref sig .tc .vmem S9x128 .f32) (h3 : a3.IsWhole)
    (a4 : Memref sig .tc .vmem S9x9 .f32) (h4 : a4.IsWhole) (hc : ¬cond2_0 i)
    (x0 : Vec F S5000x9 .f32) (x1 : Vec F S5000x128 .f32) (xo2 : Vec F S9x128 .f32) (xo3 : Vec F S9x9 .f32) :
    out2_B_3 c i a1 h1 a2 h2 a3 h3 a4 h4 hc x0 x1 xo2 xo3 = k2_pay5 x0 xo3 := by
  unfold out2_B_3
  rw [View.read_writes_eq_canon _ _ _ (cover2_B_3 c i a1 h1 a2 h2 a3 h3 a4 h4 hc x0 x1 xo2 xo3)]
  unfold kernelRun2_B
  dsimp only
  rw [View.canon_unit_zero hz]
  simp only [View.readAt_eq_ld, h1.read_unread, h4.read_unread, View.ld_unit_zero (S := S5000x9) hz,
    View.ld_unit_zero (S := S9x9) hz]

/-- CASE A, the [9, 128] output: the zero block is stored, read back (a load the first store covers), and the sum stored
    over it. -/
theorem out_A_2 (c : Dev nD) (i : grid2.Coords) (a1 : Memref sig .tc .vmem S5000x9 .f32) (h1 : a1.IsWhole)
    (a2 : Memref sig .tc .vmem S5000x128 .f32) (h2 : a2.IsWhole) (a3 : Memref sig .tc .vmem S9x128 .f32) (h3 : a3.IsWhole)
    (a4 : Memref sig .tc .vmem S9x9 .f32) (h4 : a4.IsWhole) (hc : cond2_0 i)
    (x0 : Vec F S5000x9 .f32) (x1 : Vec F S5000x128 .f32) :
    out2_A_2 c i a1 h1 a2 h2 a3 h3 a4 h4 hc x0 x1 = k2_pay4 x0 x1 (k2_pay1 (F := F)) := by
  unfold out2_A_2
  rw [View.read_writes_eq_canon _ _ _ (cover2_A_2 c i a1 h1 a2 h2 a3 h3 a4 h4 hc x0 x1)]
  unfold kernelRun2_A
  dsimp only
  sl_unfold_words
  rw [View.canon_cons_unit_zero (S := S9x128) hz, View.readCov_unit_zero (S := S9x128) _ hz]
  simp only [View.readAt_eq_ld, h1.read_unread, h2.read_unread, View.ld_unit_zero (S := S5000x9) hz,
    View.ld_unit_zero (S := S5000x128) hz]

/-- CASE A, the [9, 9] output. -/
theorem out_A_3 (c : Dev nD) (i : grid2.Coords) (a1 : Memref sig .tc .vmem S5000x9 .f32) (h1 : a1.IsWhole)
    (a2 : Memref sig .tc .vmem S5000x128 .f32) (h2 : a2.IsWhole) (a3 : Memref sig .tc .vmem S9x128 .f32) (h3 : a3.IsWhole)
    (a4 : Memref sig .tc .vmem S9x9 .f32) (h4 : a4.IsWhole) (hc : cond2_0 i)
    (x0 : Vec F S5000x9 .f32) (x1 : Vec F S5000x128 .f32) :
    out2_A_3 c i a1 h1 a2 h2 a3 h3 a4 h4 hc x0 x1 = k2_pay5 x0 (k2_pay2 (F := F)) := by
  unfold out2_A_3
  rw [View.read_writes_eq_canon _ _ _ (cover2_A_3 c i a1 h1 a2 h2 a3 h3 a4 h4 hc x0 x1)]
  unfold kernelRun2_A
  dsimp only
  sl_unfold_words
  rw [View.canon_cons_unit_zero (S := S9x9) hz, View.readCov_unit_zero (S := S9x9) _ hz]
  simp only [View.readAt_eq_ld, h1.read_unread, View.ld_unit_zero (S := S5000x9) hz]

end Cert.KernelIdeal.RegP

end
-- ==== Proof.RegionP2.lean ====
/-
  The pooling region, point by point, on extended reals: after the body at grid point n the two output blocks hold the
  partial sums over the row blocks 0 .. n,

      acc  (b, r)  = sum over t <= n of  sum over the 5000 rows k of block t of  s (5000 t + k, b) * hx (5000 t + k, r),
      acc' (b, b') = sum over t <= n of  sum over the 5000 rows k of block t of  s (5000 t + k, b) * s  (5000 t + k, b'),

  of the arrays s : [100000, 9] and hx : [100000, 128] as the region finds them. The steps:

  * the matrix unit's two dimension records contract axis 0 of both operands (four coordinate facts each);
  * pay4 / pay5 read at (b, r): the accumulator there plus the sum over the 5000 rows of the block of the products -- the
    rounding of the operands to bf16 and the casts of each block to its own shape are the identity on extended reals;
    the zero splat reads 0, and 0 + x = x;
  * a block of s or hx read at (k, .) is the array at row 5000 t + k: a block coordinate is the block index times the
    block size plus the coordinate inside the block, and the index map of both inputs is t |-> (t, 0);
  * the induction on the point: the first point resets (case A), every later one adds to what the point before left
    (case B).
-/
import proofs.«148048_j2284922601976_1_alg».proof.Proof.Gen.KernelIdeal.Frame
import proofs.«148048_j2284922601976_1_alg».proof.Proof.RegionP
import proofs.«148048_j2284922601976_1_alg».proof.Proof.RegionP1
import Idealize.ShloMosaic.PureOps.Ideal.Laws
import Idealize.ShloMosaic.Lib.ValueIdx
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RegP

open Cert.KernelIdeal Cert.KernelIdeal.Gen

open Idealize.ShloMosaic.ValueIdx Cert.SpecP
open scoped BigOperators

/-! ## The matrix unit's records: both contract axis 0 of both operands -/

theorem dxp_l0 (i : S9x128.Idx) (q : dot_S5000x9_S5000x128_S9x128_0_0_1_1_n_n.contr.Idx) :
    (dot_S5000x9_S5000x128_S9x128_0_0_1_1_n_n.lhsIdx i q 0).val = (q ⟨0, Nat.one_pos⟩).val :=
  dot_S5000x9_S5000x128_S9x128_0_0_1_1_n_n.lhsIdx_val_of_single rfl i q

theorem dxp_l1 (i : S9x128.Idx) (q : dot_S5000x9_S5000x128_S9x128_0_0_1_1_n_n.contr.Idx) :
    (dot_S5000x9_S5000x128_S9x128_0_0_1_1_n_n.lhsIdx i q 1).val = (i 0).val := by
  unfold DotDims.lhsIdx
  rw [dif_neg (show ¬(1 : Fin S5000x9.rank) ∈ dot_S5000x9_S5000x128_S9x128_0_0_1_1_n_n.lhsBatch from List.not_mem_nil),
    dif_pos (show (1 : Fin S5000x9.rank) ∈ dot_S5000x9_S5000x128_S9x128_0_0_1_1_n_n.lhsNonContracting from List.mem_singleton.mpr rfl)]
  rfl

theorem dxp_r0 (i : S9x128.Idx) (q : dot_S5000x9_S5000x128_S9x128_0_0_1_1_n_n.contr.Idx) :
    (dot_S5000x9_S5000x128_S9x128_0_0_1_1_n_n.rhsIdx i q 0).val = (q ⟨0, Nat.one_pos⟩).val :=
  dot_S5000x9_S5000x128_S9x128_0_0_1_1_n_n.rhsIdx_val_of_single rfl i q

theorem dxp_r1 (i : S9x128.Idx) (q : dot_S5000x9_S5000x128_S9x128_0_0_1_1_n_n.contr.Idx) :
    (dot_S5000x9_S5000x128_S9x128_0_0_1_1_n_n.rhsIdx i q 1).val = (i 1).val := by
  unfold DotDims.rhsIdx
  rw [dif_neg (show ¬(1 : Fin S5000x128.rank) ∈ dot_S5000x9_S5000x128_S9x128_0_0_1_1_n_n.rhsBatch from List.not_mem_nil),
    dif_pos (show (1 : Fin S5000x128.rank) ∈ dot_S5000x9_S5000x128_S9x128_0_0_1_1_n_n.rhsNonContracting from List.mem_singleton.mpr rfl)]
  rfl

theorem dss_l0 (i : S9x9.Idx) (q : dot_S5000x9_S5000x9_S9x9_0_0_1_1_n_n.contr.Idx) :
    (dot_S5000x9_S5000x9_S9x9_0_0_1_1_n_n.lhsIdx i q 0).val = (q ⟨0, Nat.one_pos⟩).val :=
  dot_S5000x9_S5000x9_S9x9_0_0_1_1_n_n.lhsIdx_val_of_single rfl i q

theorem dss_l1 (i : S9x9.Idx) (q : dot_S5000x9_S5000x9_S9x9_0_0_1_1_n_n.contr.Idx) :
    (dot_S5000x9_S5000x9_S9x9_0_0_1_1_n_n.lhsIdx i q 1).val = (i 0).val := by
  unfold DotDims.lhsIdx
  rw [dif_neg (show ¬(1 : Fin S5000x9.rank) ∈ dot_S5000x9_S5000x9_S9x9_0_0_1_1_n_n.lhsBatch from List.not_mem_nil),
    dif_pos (show (1 : Fin S5000x9.rank) ∈ dot_S5000x9_S5000x9_S9x9_0_0_1_1_n_n.lhsNonContracting from List.mem_singleton.mpr rfl)]
  rfl

theorem dss_r0 (i : S9x9.Idx) (q : dot_S5000x9_S5000x9_S9x9_0_0_1_1_n_n.contr.Idx) :
    (dot_S5000x9_S5000x9_S9x9_0_0_1_1_n_n.rhsIdx i q 0).val = (q ⟨0, Nat.one_pos⟩).val :=
  dot_S5000x9_S5000x9_S9x9_0_0_1_1_n_n.rhsIdx_val_of_single rfl i q

theorem dss_r1 (i : S9x9.Idx) (q : dot_S5000x9_S5000x9_S9x9_0_0_1_1_n_n.contr.Idx) :
    (dot_S5000x9_S5000x9_S9x9_0_0_1_1_n_n.rhsIdx i q 1).val = (i 1).val := by
  unfold DotDims.rhsIdx
  rw [dif_neg (show ¬(1 : Fin S5000x9.rank) ∈ dot_S5000x9_S5000x9_S9x9_0_0_1_1_n_n.rhsBatch from List.not_mem_nil),
    dif_pos (show (1 : Fin S5000x9.rank) ∈ dot_S5000x9_S5000x9_S9x9_0_0_1_1_n_n.rhsNonContracting from List.mem_singleton.mpr rfl)]
  rfl

/-! ## The body's arithmetic at an index -/

/-- The [9, 128] update at (b, r): the accumulator there plus the sum over the block's rows of s_t (k, b) * hx_t (k, r). -/
theorem pay4_apply (v3 : Vec Ideal S5000x9 .f32) (v6 : Vec Ideal S5000x128 .f32) (v9 : Vec Ideal S9x128 .f32)
    (b : Fin 9) (r : Fin 128) :
    k2_pay4 (F := Ideal) v3 v6 v9 (ix2 b r) = v9 (ix2 b r) + ∑ k : Fin 5000, v3 (ix2 k b) * v6 (ix2 k r) := by
  unfold k2_pay4 k2_pay3
  simp only [shapeCast_self]
  exact congrArg (v9 (ix2 b r) + ·)
    (matmul_cols dot_S5000x9_S5000x128_S9x128_0_0_1_1_n_n rfl rfl dxp_l0 dxp_l1 dxp_r0 dxp_r1 _ _ b r)

/-- The [9, 9] update at (b, b'): the accumulator there plus the sum over the block's rows of s_t (k, b) * s_t (k, b'). -/
theorem pay5_apply (v3 : Vec Ideal S5000x9 .f32) (v14 : Vec Ideal S9x9 .f32) (b b' : Fin 9) :
    k2_pay5 (F := Ideal) v3 v14 (ix2 b b') = v14 (ix2 b b') + ∑ k : Fin 5000, v3 (ix2 k b) * v3 (ix2 k b') := by
  unfold k2_pay5 k2_pay3
  simp only [shapeCast_self]
  exact congrArg (v14 (ix2 b b') + ·)
    (matmul_cols dot_S5000x9_S5000x9_S9x9_0_0_1_1_n_n rfl rfl dss_l0 dss_l1 dss_r0 dss_r1 _ _ b b')

/-- The zero splat of the [9, 128] block reads 0. -/
theorem pay1_apply (i : S9x128.Idx) : k2_pay1 (F := Ideal) i = 0 := Ideal.ofBits_zero_f32

/-- The zero splat of the [9, 9] block reads 0. -/
theorem pay2_apply (i : S9x9.Idx) : k2_pay2 (F := Ideal) i = 0 := Ideal.ofBits_zero_f32

/-! ## The input blocks, read where they sit in the arrays -/

section AtV

variable (V : (c : Dev nD) → (b : Ref sig .tc) → Buf (Elt Ideal) ((c : Thread nD τ).loc b))

/-- The assignment matrix s as the region finds it: the array of input window 0. -/
abbrev sArr (c : Dev nD) : (⟨2, ![100000, 9]⟩ : Shape).Idx → EReal := V c main_v49_1

/-- The features hx as the region finds them: the array of input window 1. -/
abbrev hxArr (c : Dev nD) : (⟨2, ![100000, 128]⟩ : Shape).Idx → EReal := V c main_v49_0

/-- Both inputs' index map is t |-> (t, 0), decided over the grid. -/
theorem idx_in : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- Row k of the block of s at point t is row 5000 t + k of s. -/
theorem blk_s (c : Dev nD) (t : Fin cfg2.N) (k : Fin 5000) (b : Fin 9) :
    (iblk2 V c 0 t : Vec Ideal S5000x9 .f32) (ix2 k b) = sArr V c (ix2 (rowOf t.val k) b) := by
  have hN : t.val < 20 := lt_of_lt_of_eq t.isLt (show cfg2.N = 20 from N_2)
  obtain ⟨e0, e1, -, -⟩ := idx_in t
  unfold iblk2
  rw [View.read_apply]
  show V c main_v49_1 _ = V c main_v49_1 _
  congr 1
  funext a
  apply Fin.ext
  match a with
  | ⟨0, _⟩ =>
    show win2_0.index t (0 : Fin 2) * 5000 + 1 * k.val = (rowOf t.val k).val
    rw [rowOf_val hN k, e0]; omega
  | ⟨1, _⟩ =>
    show win2_0.index t (1 : Fin 2) * 9 + 1 * b.val = b.val
    rw [e1]; omega

/-- Row k of the block of hx at point t is row 5000 t + k of hx. -/
theorem blk_hx (c : Dev nD) (t : Fin cfg2.N) (k : Fin 5000) (r : Fin 128) :
    (iblk2 V c 1 t : Vec Ideal S5000x128 .f32) (ix2 k r) = hxArr V c (ix2 (rowOf t.val k) r) := by
  have hN : t.val < 20 := lt_of_lt_of_eq t.isLt (show cfg2.N = 20 from N_2)
  obtain ⟨-, -, e0, e1⟩ := idx_in t
  unfold iblk2
  rw [View.read_apply]
  show V c main_v49_0 _ = V c main_v49_0 _
  congr 1
  funext a
  apply Fin.ext
  match a with
  | ⟨0, _⟩ =>
    show win2_1.index t (0 : Fin 2) * 5000 + 1 * k.val = (rowOf t.val k).val
    rw [rowOf_val hN k, e0]; omega
  | ⟨1, _⟩ =>
    show win2_1.index t (1 : Fin 2) * 128 + 1 * r.val = r.val
    rw [e1]; omega

/-! ## The partial sums -/

/-- Block t's share of xpool (b, r): the sum over its 5000 rows. -/
def xpTerm (c : Dev nD) (b : Fin 9) (r : Fin 128) (t : ℕ) : EReal :=
  ∑ k : Fin 5000, sArr V c (ix2 (rowOf t k) b) * hxArr V c (ix2 (rowOf t k) r)

/-- Block t's share of ss (b, b'). -/
def ssTerm (c : Dev nD) (b b' : Fin 9) (t : ℕ) : EReal :=
  ∑ k : Fin 5000, sArr V c (ix2 (rowOf t k) b) * sArr V c (ix2 (rowOf t k) b')

/-- The sum over the rows of two blocks that are block t of s and of hx: block t's share of xpool. -/
theorem blk_xpTerm (c : Dev nD) (t : ℕ) (x0 : Vec Ideal S5000x9 .f32) (x1 : Vec Ideal S5000x128 .f32)
    (h0 : ∀ (k : Fin 5000) (b : Fin 9), x0 (ix2 k b) = sArr V c (ix2 (rowOf t k) b))
    (h1 : ∀ (k : Fin 5000) (r : Fin 128), x1 (ix2 k r) = hxArr V c (ix2 (rowOf t k) r)) (b : Fin 9) (r : Fin 128) :
    ∑ k : Fin 5000, x0 (ix2 k b) * x1 (ix2 k r) = xpTerm V c b r t :=
  Finset.sum_congr rfl fun k _ => by rw [h0 k b, h1 k r]

/-- The same for ss. -/
theorem blk_ssTerm (c : Dev nD) (t : ℕ) (x0 : Vec Ideal S5000x9 .f32)
    (h0 : ∀ (k : Fin 5000) (b : Fin 9), x0 (ix2 k b) = sArr V c (ix2 (rowOf t k) b)) (b b' : Fin 9) :
    ∑ k : Fin 5000, x0 (ix2 k b) * x0 (ix2 k b') = ssTerm V c b b' t :=
  Finset.sum_congr rfl fun k _ => by rw [h0 k b, h0 k b']

/-- THE INVARIANT, [9, 128] output: after the body at point n the block holds the partial sums over the row blocks 0 .. n
    -- by induction on the point: the first point resets (0 + its share), a later one adds its share. -/
theorem acc2_eq (c : Dev nD) : ∀ (n : ℕ) (h : n < cfg2.N) (b : Fin 9) (r : Fin 128),
    ((outsAt2 V c n h).1 : Vec Ideal S9x128 .f32) (ix2 b r) = ∑ t ∈ Finset.range (n + 1), xpTerm V c b r t
  | 0, h, b, r => by
    rw [outsAt2_A V c ⟨0, h⟩ rfl]
    dsimp only
    rw [out_A_2, pay4_apply, pay1_apply, zero_add, Finset.sum_range_one]
    exact blk_xpTerm V c 0 _ _ (blk_s V c ⟨0, h⟩) (blk_hx V c ⟨0, h⟩) b r
  | n + 1, h, b, r => by
    have hN : cfg2.N = 20 := N_2
    have hB : ¬(⟨n + 1, h⟩ : Fin cfg2.N).val % 20 = 0 := by dsimp only; omega
    rw [outsAt2_B V c ⟨n + 1, h⟩ hB]
    dsimp only
    rw [out_B_2, pay4_apply, Finset.sum_range_succ _ (n + 1),
      blk_xpTerm V c (n + 1) _ _ (blk_s V c ⟨n + 1, h⟩) (blk_hx V c ⟨n + 1, h⟩) b r]
    exact congrArg (· + xpTerm V c b r (n + 1)) (acc2_eq c n (Nat.lt_of_succ_lt h) b r)

/-- THE INVARIANT, [9, 9] output. -/
theorem acc3_eq (c : Dev nD) : ∀ (n : ℕ) (h : n < cfg2.N) (b b' : Fin 9),
    ((outsAt2 V c n h).2 : Vec Ideal S9x9 .f32) (ix2 b b') = ∑ t ∈ Finset.range (n + 1), ssTerm V c b b' t
  | 0, h, b, b' => by
    rw [outsAt2_A V c ⟨0, h⟩ rfl]
    dsimp only
    rw [out_A_3, pay5_apply, pay2_apply, zero_add, Finset.sum_range_one]
    exact blk_ssTerm V c 0 _ (blk_s V c ⟨0, h⟩) b b'
  | n + 1, h, b, b' => by
    have hN : cfg2.N = 20 := N_2
    have hB : ¬(⟨n + 1, h⟩ : Fin cfg2.N).val % 20 = 0 := by dsimp only; omega
    rw [outsAt2_B V c ⟨n + 1, h⟩ hB]
    dsimp only
    rw [out_B_3, pay5_apply, Finset.sum_range_succ _ (n + 1),
      blk_ssTerm V c (n + 1) _ (blk_s V c ⟨n + 1, h⟩) b b']
    exact congrArg (· + ssTerm V c b b' (n + 1)) (acc3_eq c n (Nat.lt_of_succ_lt h) b b')

/-- After the last point the [9, 128] block is xpool of the arrays. -/
theorem acc2_last (c : Dev nD) (h : 19 < cfg2.N) :
    ((outsAt2 V c 19 h).1 : Vec Ideal S9x128 .f32) = xpool (sArr V c) (hxArr V c) := by
  funext i
  obtain ⟨b, r, rfl⟩ : ∃ (b : Fin 9) (r : Fin 128), i = ix2 b r := ⟨i 0, i 1, eq_ix2 i⟩
  rw [acc2_eq V c 19 h b r, xpool_apply]
  exact sum_rows_blocks fun n => sArr V c (ix2 n b) * hxArr V c (ix2 n r)

/-- After the last point the [9, 9] block is ss of the array s. -/
theorem acc3_last (c : Dev nD) (h : 19 < cfg2.N) :
    ((outsAt2 V c 19 h).2 : Vec Ideal S9x9 .f32) = ss (sArr V c) := by
  funext i
  obtain ⟨b, b', rfl⟩ : ∃ (b : Fin 9) (b' : Fin 9), i = ix2 b b' := ⟨i 0, i 1, eq_ix2 i⟩
  rw [acc3_eq V c 19 h b b', ss_apply]
  exact sum_rows_blocks fun n => sArr V c (ix2 n b) * sArr V c (ix2 n b')

end AtV

end Cert.KernelIdeal.RegP

end
-- ==== Proof.RegionP3.lean ====
/-
  The pooling region's two result arrays.

  Each output window has ONE block, the whole array, at block index (0, 0) for every grid point, and is written back once,
  after the last point (point 19). What is written back there is the output block after the body at point 19: the full
  sums, that is xpool of s and hx for the [9, 128] output and ss of s for the [9, 9] output (the arrays s and hx as the
  region finds them). That one block covers every index of the array, so the array ends holding exactly that -- whatever
  it held when the region was entered.
-/
import proofs.«148048_j2284922601976_1_alg».proof.Proof.Gen.KernelIdeal.Frame
import proofs.«148048_j2284922601976_1_alg».proof.Proof.RegionP
import proofs.«148048_j2284922601976_1_alg».proof.Proof.RegionP2
import Idealize.ShloMosaic.Lib.ValueIdx
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RegP

open Cert.KernelIdeal Cert.KernelIdeal.Gen

open Idealize.ShloMosaic.ValueIdx Cert.SpecP
open scoped BigOperators

variable (V : (c : Dev nD) → (b : Ref sig .tc) → Buf (Elt Ideal) ((c : Thread nD τ).loc b))

/-- Both outputs' index map is constantly (0, 0), decided over the grid. -/
theorem idx_out : ∀ t : Fin cfg2.N, win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- The last grid point. -/
abbrev tLast : Fin cfg2.N := ⟨19, lt_of_lt_of_eq (by decide : 19 < 20) (show cfg2.N = 20 from N_2).symm⟩

/-- The [9, 128] block after the body at a point numbered 19 is xpool of the arrays. -/
theorem acc2_at (c : Dev nD) (n : ℕ) (h : n < cfg2.N) (e : n = 19) :
    ((outsAt2 V c n h).1 : Vec Ideal S9x128 .f32) = xpool (sArr V c) (hxArr V c) := by
  subst e; exact acc2_last V c h

/-- The [9, 9] block after the body at a point numbered 19 is ss of the array s. -/
theorem acc3_at (c : Dev nD) (n : ℕ) (h : n < cfg2.N) (e : n = 19) :
    ((outsAt2 V c n h).2 : Vec Ideal S9x9 .f32) = ss (sArr V c) := by
  subst e; exact acc3_last V c h

/-- The one write-back of the [9, 128] output, at point 19, writes xpool: block (0, 0) of the array, read through zero
    offsets, is the array. -/
theorem flushed2_eq (c : Dev nD) (t : Fin cfg2.N) (hf : (cfg2.win 2).flush t = true) :
    (dat2 V c).flushed 2 t = ((cfg2.win 2).blk t).view.read (Elt Ideal) (xpool (sArr V c) (hxArr V c)) := by
  have hN : cfg2.N = 20 := N_2
  have h19 : t.val = 19 := by have := (flush2_2 t).mp hf; have := t.isLt; omega
  obtain ⟨e0, e1, -, -⟩ := idx_out t
  show (cfg2.win 2).cut (grid2.coords t) ((dat2 V c).after 2 t) = _
  rw [after2_2, acc2_at V c t.val t.isLt h19]
  have hz' : (fun a => win2_2.index t a * main_v50_0.ty.shape.size a) = fun _ => 0 := funext fun a => by
    match a with
    | ⟨0, _⟩ => show win2_2.index t (0 : Fin 2) * 9 = 0; rw [e0]
    | ⟨1, _⟩ => show win2_2.index t (1 : Fin 2) * 128 = 0; rw [e1]
  exact (Memref.read_access_unit_zero (Elt Ideal) main_v50_0 hz' (fun a => by rw [congrFun hz' a]; simp)
    (xpool (sArr V c) (hxArr V c))).symm

/-- The one write-back of the [9, 9] output, at point 19, writes ss. -/
theorem flushed3_eq (c : Dev nD) (t : Fin cfg2.N) (hf : (cfg2.win 3).flush t = true) :
    (dat2 V c).flushed 3 t = ((cfg2.win 3).blk t).view.read (Elt Ideal) (ss (sArr V c)) := by
  have hN : cfg2.N = 20 := N_2
  have h19 : t.val = 19 := by have := (flush2_3 t).mp hf; have := t.isLt; omega
  obtain ⟨-, -, e0, e1⟩ := idx_out t
  show (cfg2.win 3).cut (grid2.coords t) ((dat2 V c).after 3 t) = _
  rw [after2_3, acc3_at V c t.val t.isLt h19]
  have hz' : (fun a => win2_3.index t a * main_v50_1.ty.shape.size a) = fun _ => 0 := funext fun a => by
    match a with
    | ⟨0, _⟩ => show win2_3.index t (0 : Fin 2) * 9 = 0; rw [e0]
    | ⟨1, _⟩ => show win2_3.index t (1 : Fin 2) * 9 = 0; rw [e1]
  exact (Memref.read_access_unit_zero (Elt Ideal) main_v50_1 hz' (fun a => by rw [congrFun hz' a]; simp)
    (ss (sArr V c))).symm

/-- THE [9, 128] RESULT ARRAY after the region: xpool of the arrays s and hx as the region finds them. -/
theorem final2 (c : Dev nD) :
    (dat2 (F := Ideal) V c).arrAt 2 cfg2.N = Cert.SpecP.xpool (V c main_v49_1) (V c main_v49_0) :=
  (dat2 V c).arrAt_eq_of_cover 2 (xpool (sArr V c) (hxArr V c)) (flushed2_eq V c) fun i =>
    ⟨tLast, (flush2_2 tLast).mpr rfl, by
      obtain ⟨e0, e1, -, -⟩ := idx_out tLast
      show i ∈ ((View.whole main_v50_0).slice (win2_2.rect tLast)).set
      rw [View.set_slice_whole, Rect.mem_set_unit]
      intro a
      have h0 : (i 0 : Nat) < 9 := (i 0).isLt
      have h1 : (i 1 : Nat) < 128 := (i 1).isLt
      match a with
      | ⟨0, _⟩ =>
        show win2_2.index tLast (0 : Fin 2) * 9 ≤ (i 0 : Nat) ∧ (i 0 : Nat) < win2_2.index tLast (0 : Fin 2) * 9 + 9
        rw [e0]; omega
      | ⟨1, _⟩ =>
        show win2_2.index tLast (1 : Fin 2) * 128 ≤ (i 1 : Nat) ∧ (i 1 : Nat) < win2_2.index tLast (1 : Fin 2) * 128 + 128
        rw [e1]; omega⟩

/-- THE [9, 9] RESULT ARRAY after the region: ss of the array s as the region finds it. -/
theorem final3 (c : Dev nD) :
    (dat2 (F := Ideal) V c).arrAt 3 cfg2.N = Cert.SpecP.ss (V c main_v49_1) :=
  (dat2 V c).arrAt_eq_of_cover 3 (ss (sArr V c)) (flushed3_eq V c) fun i =>
    ⟨tLast, (flush2_3 tLast).mpr rfl, by
      obtain ⟨-, -, e0, e1⟩ := idx_out tLast
      show i ∈ ((View.whole main_v50_1).slice (win2_3.rect tLast)).set
      rw [View.set_slice_whole, Rect.mem_set_unit]
      intro a
      have h0 : (i 0 : Nat) < 9 := (i 0).isLt
      have h1 : (i 1 : Nat) < 9 := (i 1).isLt
      match a with
      | ⟨0, _⟩ =>
        show win2_3.index tLast (0 : Fin 2) * 9 ≤ (i 0 : Nat) ∧ (i 0 : Nat) < win2_3.index tLast (0 : Fin 2) * 9 + 9
        rw [e0]; omega
      | ⟨1, _⟩ =>
        show win2_3.index tLast (1 : Fin 2) * 9 ≤ (i 1 : Nat) ∧ (i 1 : Nat) < win2_3.index tLast (1 : Fin 2) * 9 + 9
        rw [e1]; omega⟩

end Cert.KernelIdeal.RegP

end
-- ==== Proof.RegionP4.lean ====
/-
  The reference's two pooled products are xpool and ss.

  The reference computes x_pool as dot_general (transpose s) hx and ss as dot_general (transpose s) s, both contracting
  axis 1 of the transposed assignment matrix [9, 100000] with axis 0 of the right operand, no batch axes. Read at (b, r),
  the product is the sum over the 100000 rows n of (transpose s) (b, n) * hx (n, r), and the transpose at (b, n) is s at
  (n, b): the sums that define xpool and ss. The dimension records enter through four coordinate facts each.
-/
import proofs.«148048_j2284922601976_1_alg».proof.ReferenceIdeal
import proofs.«148048_j2284922601976_1_alg».proof.Proof.RegionP
import Idealize.ShloMosaic.PureOps.Ideal.Laws
import Idealize.ShloMosaic.Lib.ValueIdx
import Idealize.ShloMosaic.Lib.Pipeline.Value

noncomputable section

namespace Cert.SpecP

open Idealize.ShloMosaic Idealize.ShloMosaic.ValueIdx Cert.ReferenceIdeal
open Cert.ReferenceIdeal.Facts₀ Cert.ReferenceIdeal.Facts
open scoped BigOperators

variable [Cert.ReferenceIdeal.Facts]

/-! ## The two host records: axis 1 of the left operand against axis 0 of the right one -/

theorem rxp_l0 (i : S9x128.Idx) (q : dot_S9x100000_S100000x128_S9x128_1_0_0_1_n_n.contr.Idx) :
    (dot_S9x100000_S100000x128_S9x128_1_0_0_1_n_n.lhsIdx i q 0).val = (i 0).val := by
  unfold DotDims.lhsIdx
  rw [dif_neg (show ¬(0 : Fin S9x100000.rank) ∈ dot_S9x100000_S100000x128_S9x128_1_0_0_1_n_n.lhsBatch from List.not_mem_nil),
    dif_pos (show (0 : Fin S9x100000.rank) ∈ dot_S9x100000_S100000x128_S9x128_1_0_0_1_n_n.lhsNonContracting from List.mem_singleton.mpr rfl)]
  rfl

theorem rxp_l1 (i : S9x128.Idx) (q : dot_S9x100000_S100000x128_S9x128_1_0_0_1_n_n.contr.Idx) :
    (dot_S9x100000_S100000x128_S9x128_1_0_0_1_n_n.lhsIdx i q 1).val = (q ⟨0, Nat.one_pos⟩).val :=
  dot_S9x100000_S100000x128_S9x128_1_0_0_1_n_n.lhsIdx_val_of_single rfl i q

theorem rxp_r0 (i : S9x128.Idx) (q : dot_S9x100000_S100000x128_S9x128_1_0_0_1_n_n.contr.Idx) :
    (dot_S9x100000_S100000x128_S9x128_1_0_0_1_n_n.rhsIdx i q 0).val = (q ⟨0, Nat.one_pos⟩).val :=
  dot_S9x100000_S100000x128_S9x128_1_0_0_1_n_n.rhsIdx_val_of_single rfl i q

theorem rxp_r1 (i : S9x128.Idx) (q : dot_S9x100000_S100000x128_S9x128_1_0_0_1_n_n.contr.Idx) :
    (dot_S9x100000_S100000x128_S9x128_1_0_0_1_n_n.rhsIdx i q 1).val = (i 1).val := by
  unfold DotDims.rhsIdx
  rw [dif_neg (show ¬(1 : Fin S100000x128.rank) ∈ dot_S9x100000_S100000x128_S9x128_1_0_0_1_n_n.rhsBatch from List.not_mem_nil),
    dif_pos (show (1 : Fin S100000x128.rank) ∈ dot_S9x100000_S100000x128_S9x128_1_0_0_1_n_n.rhsNonContracting from List.mem_singleton.mpr rfl)]
  rfl

theorem rss_l0 (i : S9x9.Idx) (q : dot_S9x100000_S100000x9_S9x9_1_0_0_1_n_n.contr.Idx) :
    (dot_S9x100000_S100000x9_S9x9_1_0_0_1_n_n.lhsIdx i q 0).val = (i 0).val := by
  unfold DotDims.lhsIdx
  rw [dif_neg (show ¬(0 : Fin S9x100000.rank) ∈ dot_S9x100000_S100000x9_S9x9_1_0_0_1_n_n.lhsBatch from List.not_mem_nil),
    dif_pos (show (0 : Fin S9x100000.rank) ∈ dot_S9x100000_S100000x9_S9x9_1_0_0_1_n_n.lhsNonContracting from List.mem_singleton.mpr rfl)]
  rfl

theorem rss_l1 (i : S9x9.Idx) (q : dot_S9x100000_S100000x9_S9x9_1_0_0_1_n_n.contr.Idx) :
    (dot_S9x100000_S100000x9_S9x9_1_0_0_1_n_n.lhsIdx i q 1).val = (q ⟨0, Nat.one_pos⟩).val :=
  dot_S9x100000_S100000x9_S9x9_1_0_0_1_n_n.lhsIdx_val_of_single rfl i q

theorem rss_r0 (i : S9x9.Idx) (q : dot_S9x100000_S100000x9_S9x9_1_0_0_1_n_n.contr.Idx) :
    (dot_S9x100000_S100000x9_S9x9_1_0_0_1_n_n.rhsIdx i q 0).val = (q ⟨0, Nat.one_pos⟩).val :=
  dot_S9x100000_S100000x9_S9x9_1_0_0_1_n_n.rhsIdx_val_of_single rfl i q

theorem rss_r1 (i : S9x9.Idx) (q : dot_S9x100000_S100000x9_S9x9_1_0_0_1_n_n.contr.Idx) :
    (dot_S9x100000_S100000x9_S9x9_1_0_0_1_n_n.rhsIdx i q 1).val = (i 1).val := by
  unfold DotDims.rhsIdx
  rw [dif_neg (show ¬(1 : Fin S100000x9.rank) ∈ dot_S9x100000_S100000x9_S9x9_1_0_0_1_n_n.rhsBatch from List.not_mem_nil),
    dif_pos (show (1 : Fin S100000x9.rank) ∈ dot_S9x100000_S100000x9_S9x9_1_0_0_1_n_n.rhsNonContracting from List.mem_singleton.mpr rfl)]
  rfl

/-! ## The transposed assignment matrix -/

/-- The transpose of s read at (b, n) is s at (n, b). -/
theorem transpose_s_apply (s : FVec Ideal S100000x9 .f32) (b : Fin 9) (n : Fin 100000) :
    transpose S9x100000 [1, 0] s transposes_S100000x9_S9x100000_1_0 (ix2 b n) = s (ix2 n b) :=
  transpose_apply [1, 0] s transposes_S100000x9_S9x100000_1_0 (ix2 b n) (ix2 n b) (fun a => by
    match a with
    | ⟨0, _⟩ => rfl
    | ⟨1, _⟩ => rfl)

/-! ## The reference's products -/

/-- The reference's x_pool is xpool of s and hx. -/
theorem ref_xpool (s : FVec Ideal S100000x9 .f32) (hx : FVec Ideal S100000x128 .f32) :
    Host.dotGeneral (F := Ideal) dot_S9x100000_S100000x128_S9x128_1_0_0_1_n_n none
      (transpose S9x100000 [1, 0] s transposes_S100000x9_S9x100000_1_0) hx = Cert.SpecP.xpool s hx := by
  funext i
  obtain ⟨b, r, rfl⟩ : ∃ (b : Fin 9) (r : Fin 128), i = ix2 b r := ⟨i 0, i 1, eq_ix2 i⟩
  rw [xpool_apply]
  refine (hostdot_mat dot_S9x100000_S100000x128_S9x128_1_0_0_1_n_n rfl rfl rxp_l0 rxp_l1 rxp_r0 rxp_r1 _ hx b r).trans ?_
  exact Finset.sum_congr rfl fun n _ => congrArg (· * hx (ix2 n r)) (transpose_s_apply s b n)

/-- The reference's ss is ss of s. -/
theorem ref_ss (s : FVec Ideal S100000x9 .f32) :
    Host.dotGeneral (F := Ideal) dot_S9x100000_S100000x9_S9x9_1_0_0_1_n_n none
      (transpose S9x100000 [1, 0] s transposes_S100000x9_S9x100000_1_0) s = Cert.SpecP.ss s := by
  funext i
  obtain ⟨b, b', rfl⟩ : ∃ (b : Fin 9) (b' : Fin 9), i = ix2 b b' := ⟨i 0, i 1, eq_ix2 i⟩
  rw [ss_apply]
  refine (hostdot_mat dot_S9x100000_S100000x9_S9x9_1_0_0_1_n_n rfl rfl rss_l0 rss_l1 rss_r0 rss_r1 _ s b b').trans ?_
  exact Finset.sum_congr rfl fun n _ => congrArg (· * s (ix2 n b')) (transpose_s_apply s b n)

end Cert.SpecP

end
-- ==== Proof.RegionS4.lean ====
/-
  THE REFERENCE'S PROJECTION-AND-SOFTMAX STAGE IS THE SPECIFICATION, index by index on extended reals.

  * bias_rows_apply: an [N] vector broadcast to [1, N] and then down R rows reads, at (p, j), the vector's entry j;
  * ref_hx: the bias b1 broadcast down the rows, added to the aggregated array and rectified against the broadcast zero
    constant, is SpecS.hx;
  * ref_s: dot_general of the hidden activations with the weights, plus the bias bp broadcast down the rows, then the
    host's row-wise softmax (max-reduce from -∞, maximum with the -∞ splat, the two broadcasts, subtract, exponential,
    sum-reduce from 0, the two broadcasts, divide) is SpecS.s.
-/
import proofs.«148048_j2284922601976_1_alg».proof.ReferenceIdeal
import proofs.«148048_j2284922601976_1_alg».proof.Proof.RegionS1
import proofs.«148048_j2284922601976_1_alg».proof.Proof.LibContract

noncomputable section

namespace Cert.SpecS

open Idealize.ShloMosaic Idealize.ShloMosaic.ValueIdx
open Cert.ReferenceIdeal Cert.ReferenceIdeal.Facts₀

/-- An [N] vector broadcast to a row [1, N] and then down R rows reads, at (p, j), the vector's entry j. -/
theorem bias_rows_apply {α : Type} {R N : ℕ} (b : (⟨1, ![N]⟩ : Shape).Idx → α)
    (hb1 : (⟨1, ![N]⟩ : Shape).BroadcastsInDim ⟨2, ![1, N]⟩ ![1])
    (hb2 : (⟨2, ![1, N]⟩ : Shape).BroadcastsInDim ⟨2, ![R, N]⟩ ![0, 1]) (p : Fin R) (j : Fin N) :
    broadcastInDim ⟨2, ![R, N]⟩ ![0, 1] hb2 (broadcastInDim ⟨2, ![1, N]⟩ ![1] hb1 b) (ix2 p j) = b (ix1 j) := by
  have e2 : broadcastInDim ⟨2, ![R, N]⟩ ![0, 1] hb2 (broadcastInDim ⟨2, ![1, N]⟩ ![1] hb1 b) (ix2 p j)
      = broadcastInDim ⟨2, ![1, N]⟩ ![1] hb1 b (ix2 (0 : Fin 1) j) :=
    broadcastInDim_apply _ hb2 _ (ix2 p j) (ix2 (0 : Fin 1) j) (fun a => match a with
      | ⟨0, _⟩ => by show (0 : ℕ) = if (1 : ℕ) = 1 then 0 else p.val; rw [if_pos rfl]
      | ⟨1, _⟩ => by
        show j.val = if N = 1 then 0 else j.val
        split
        · have := j.isLt; omega
        · rfl)
  have e1 : broadcastInDim ⟨2, ![1, N]⟩ ![1] hb1 b (ix2 (0 : Fin 1) j) = b (ix1 j) :=
    broadcastInDim_apply _ hb1 b (ix2 (0 : Fin 1) j) (ix1 j) (fun a => match a with
      | ⟨0, _⟩ => by
        show j.val = if N = 1 then 0 else j.val
        split
        · have := j.isLt; omega
        · rfl)
  rw [e2, e1]

/-- The reference's hidden activations are SpecS.hx of the aggregated array and the bias. -/
theorem ref_hx [Cert.ReferenceIdeal.Facts] (agg : FVec Ideal S100000x128 .f32) (b1 : FVec Ideal S128 .f32) :
    maximumf (addf agg (broadcastInDim S100000x128 ![0, 1] bcast_S1x128_S100000x128_0_1
        (broadcastInDim S1x128 ![1] bcast_S128_S1x128_1 b1)))
      (broadcastInDim S100000x128 ![] bcast_S_S100000x128 (constant (F := Ideal) S_ .f32 0x00000000#32))
      = Cert.SpecS.hx agg (fun j : Fin 128 => b1 (ix1 j)) := by
  funext i
  obtain ⟨p, j, rfl⟩ : ∃ (p : Fin 100000) (j : Fin 128), i = ix2 p j := ⟨i 0, i 1, eq_ix2 i⟩
  refine (Cert.Dense.relu_host _ bcast_S_S100000x128 p j).trans ?_
  rw [hx_apply]
  refine congrArg (fun v => Cert.Dense.relu v j) (funext fun q => ?_)
  rw [addf_apply]
  exact congrArg (agg (ix2 p q) + ·) (bias_rows_apply b1 bcast_S128_S1x128_1 bcast_S1x128_S100000x128_0_1 p q)

/-- The reference's soft assignment is SpecS.s of the hidden activations, the weights and the bias. -/
theorem ref_s [Cert.ReferenceIdeal.Facts] (hx : FVec Ideal S100000x128 .f32) (wp : FVec Ideal S128x9 .f32)
    (bp : FVec Ideal S9 .f32) :
    Host.divf (F := Ideal) (Host.exp (F := Ideal) (subf (addf (Host.dotGeneral (F := Ideal) dot_S100000x128_S128x9_S100000x9_1_0_0_1_n_n none hx wp)
        (broadcastInDim S100000x9 ![0, 1] bcast_S1x9_S100000x9_0_1 (broadcastInDim S1x9 ![1] bcast_S9_S1x9_1 bp))) (broadcastInDim S100000x9 ![0, 1] bcast_S100000x1_S100000x9_0_1 (broadcastInDim S100000x1 ![0] bcast_S100000_S100000x1_0
        (maximumf (broadcastInDim S100000 ![] bcast_S_S100000 (constant (F := Ideal) S_ .f32 0xFF800000#32))
          (Host.reduce FloatOps.maximumf (addf (Host.dotGeneral (F := Ideal) dot_S100000x128_S128x9_S100000x9_1_0_0_1_n_n none hx wp)
        (broadcastInDim S100000x9 ![0, 1] bcast_S1x9_S100000x9_0_1 (broadcastInDim S1x9 ![1] bcast_S9_S1x9_1 bp))) (constant (F := Ideal) S_ .f32 0xFF800000#32) reducesTo_S100000x9_S100000_d1 h_S_))))))
      (broadcastInDim S100000x9 ![0, 1] bcast_S100000x1_S100000x9_0_1 (broadcastInDim S100000x1 ![0] bcast_S100000_S100000x1_0
        (Host.reduceAdd (F := Ideal) (Host.exp (F := Ideal) (subf (addf (Host.dotGeneral (F := Ideal) dot_S100000x128_S128x9_S100000x9_1_0_0_1_n_n none hx wp)
        (broadcastInDim S100000x9 ![0, 1] bcast_S1x9_S100000x9_0_1 (broadcastInDim S1x9 ![1] bcast_S9_S1x9_1 bp))) (broadcastInDim S100000x9 ![0, 1] bcast_S100000x1_S100000x9_0_1 (broadcastInDim S100000x1 ![0] bcast_S100000_S100000x1_0
        (maximumf (broadcastInDim S100000 ![] bcast_S_S100000 (constant (F := Ideal) S_ .f32 0xFF800000#32))
          (Host.reduce FloatOps.maximumf (addf (Host.dotGeneral (F := Ideal) dot_S100000x128_S128x9_S100000x9_1_0_0_1_n_n none hx wp)
        (broadcastInDim S100000x9 ![0, 1] bcast_S1x9_S100000x9_0_1 (broadcastInDim S1x9 ![1] bcast_S9_S1x9_1 bp))) (constant (F := Ideal) S_ .f32 0xFF800000#32) reducesTo_S100000x9_S100000_d1 h_S_)))))) (constant (F := Ideal) S_ .f32 0x00000000#32) reducesTo_S100000x9_S100000_d1 h_S_)))
      = Cert.SpecS.s hx wp (fun j : Fin 9 => bp (ix1 j)) := by
  funext i
  obtain ⟨p, j, rfl⟩ : ∃ (p : Fin 100000) (j : Fin 9), i = ix2 p j := ⟨i 0, i 1, eq_ix2 i⟩
  refine (softmax_host _ reducesTo_S100000x9_S100000_d1 (by decide) h_S_ bcast_S_S100000 bcast_S100000_S100000x1_0
    bcast_S100000x1_S100000x9_0_1 p j).trans ?_
  rw [s_apply]
  refine congrArg (fun v => softmaxRow v j) (funext fun q => ?_)
  exact Cert.Dense.host_affine dot_S100000x128_S128x9_S100000x9_1_0_0_1_n_n rfl rfl
    (Cert.LibContract.mat_lhs_0 dot_S100000x128_S128x9_S100000x9_1_0_0_1_n_n_wf)
    (Cert.LibContract.mat_lhs_1 dot_S100000x128_S128x9_S100000x9_1_0_0_1_n_n_wf)
    (Cert.LibContract.mat_rhs_0 dot_S100000x128_S128x9_S100000x9_1_0_0_1_n_n_wf)
    (Cert.LibContract.mat_rhs_1 dot_S100000x128_S128x9_S100000x9_1_0_0_1_n_n_wf)
    hx wp bp bcast_S9_S1x9_1 bcast_S1x9_S100000x9_0_1 p q

end Cert.SpecS

end
-- ==== Proof.BridgeS.lean ====
import Idealize.ShloMosaic.PureOps.Ideal
import proofs.«148048_j2284922601976_1_alg».proof.Proof.Gen.ReferenceIdeal
import proofs.«148048_j2284922601976_1_alg».proof.Proof.RefOps
import proofs.«148048_j2284922601976_1_alg».proof.Proof.ConcatCongr
import proofs.«148048_j2284922601976_1_alg».proof.Proof.RegionS
import proofs.«148048_j2284922601976_1_alg».proof.Proof.RegionS4
import proofs.«148048_j2284922601976_1_alg».proof.Proof.BridgeR

set_option maxRecDepth 16384

/-! The reference's rectified features %50 and assignment matrix %65 as the shared index-by-index functions. -/

noncomputable section

namespace Cert.Bridge

open Idealize.ShloMosaic Idealize.ShloMosaic.TcCoe Idealize.SL.Sem

open Idealize.ShloMosaic.ValueIdx
variable (M VA : Valuation Cert.ReferenceIdeal.τ Cert.ReferenceIdeal.sig (Elt Ideal))

set_option maxHeartbeats 4000000 in
/-- %65 is the row softmax of %50·Wp + bp. -/
theorem ref_v65 : StableHlo.after (Cert.ReferenceIdeal.RefOps.refS (F := Ideal)) VA (Proc.devRef .tc Cert.ReferenceIdeal.main_v65)
    = Cert.SpecS.s (StableHlo.after (Cert.ReferenceIdeal.RefOps.refS (F := Ideal)) VA (Proc.devRef .tc Cert.ReferenceIdeal.main_v50)) (VA (Proc.devRef .tc Cert.ReferenceIdeal.main_arg5))
        (fun j : Fin 9 => VA (Proc.devRef .tc Cert.ReferenceIdeal.main_arg6) (ix1 j)) := by
  refine Eq.trans ?_ (Cert.SpecS.ref_s (StableHlo.after (Cert.ReferenceIdeal.RefOps.refS (F := Ideal)) VA (Proc.devRef .tc Cert.ReferenceIdeal.main_v50)) (VA (Proc.devRef .tc Cert.ReferenceIdeal.main_arg5)) (VA (Proc.devRef .tc Cert.ReferenceIdeal.main_arg6)))
  after_results_simp <;> rfl

/-- %50 is the rectifier of the aggregated features plus the bias. -/
theorem ref_hx50 : StableHlo.after (Cert.ReferenceIdeal.RefOps.refS (F := Ideal)) (StableHlo.after (Cert.ReferenceIdeal.RefOps.refA (F := Ideal)) M) (Proc.devRef .tc Cert.ReferenceIdeal.main_v50)
    = Cert.SpecS.hx (StableHlo.after (Cert.ReferenceIdeal.RefOps.refA (F := Ideal)) M (Proc.devRef .tc Cert.ReferenceIdeal.main_v46)) (fun j : Fin 128 => M (Proc.devRef .tc Cert.ReferenceIdeal.main_arg4) (ix1 j)) := by
  rw [ref_v50, ref_v49]
  exact Cert.SpecS.ref_hx _ _

end Cert.Bridge

end
-- ==== Proof.KLeaf1.lean ====
import Idealize.ShloMosaic.PureOps.Ideal
import proofs.«148048_j2284922601976_1_alg».proof.Proof.Gen.KernelIdeal.Frame
import proofs.«148048_j2284922601976_1_alg».proof.Proof.Gen.ReferenceIdeal
import proofs.«148048_j2284922601976_1_alg».proof.Proof.RefOps
import proofs.«148048_j2284922601976_1_alg».proof.Proof.RegionS
import proofs.«148048_j2284922601976_1_alg».proof.Proof.RegionS5
import proofs.«148048_j2284922601976_1_alg».proof.Proof.RegionP
import proofs.«148048_j2284922601976_1_alg».proof.Proof.RegionP3
import proofs.«148048_j2284922601976_1_alg».proof.Proof.RegionP4
import proofs.«148048_j2284922601976_1_alg».proof.Proof.BridgeA
import proofs.«148048_j2284922601976_1_alg».proof.Proof.BridgeR
import proofs.«148048_j2284922601976_1_alg».proof.Proof.BridgeS
import proofs.«148048_j2284922601976_1_alg».proof.Proof.KLeaf0

set_option maxRecDepth 16384

/-! The kernel program's buffer contents after its second and third regions against the reference's folds: the
    rectified features, the assignment matrix s, the pooled features sᵀ·hx, the Gram matrix sᵀ·s, and the edge lists. -/

noncomputable section

namespace Cert.Bridge

open Idealize.ShloMosaic Idealize.ShloMosaic.TcCoe Idealize.SL.Sem

open Cert.KernelIdeal Cert.KernelIdeal.Gen Idealize.ShloMosaic.ValueIdx

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The first region leaves the small arguments alone. -/
theorem w2_arg4 (hag : Agree m m' c) : W2 m ρ c (Proc.devRef .tc Cert.KernelIdeal.main_arg4) = MR m' c (Proc.devRef .tc Cert.ReferenceIdeal.main_arg4) :=
  (W2_of_ne m ρ c main_arg4 (by decide)).trans ((w1_args m ρ c).2.2.2.1.trans hag.2.2.2.2.1.symm)
theorem w2_arg5 (hag : Agree m m' c) : W2 m ρ c (Proc.devRef .tc Cert.KernelIdeal.main_arg5) = MR m' c (Proc.devRef .tc Cert.ReferenceIdeal.main_arg5) :=
  (W2_of_ne m ρ c main_arg5 (by decide)).trans ((w1_args m ρ c).2.2.2.2.1.trans hag.2.2.2.2.2.1.symm)
theorem w2_arg6 (hag : Agree m m' c) : W2 m ρ c (Proc.devRef .tc Cert.KernelIdeal.main_arg6) = MR m' c (Proc.devRef .tc Cert.ReferenceIdeal.main_arg6) :=
  (W2_of_ne m ρ c main_arg6 (by decide)).trans ((w1_args m ρ c).2.2.2.2.2.trans hag.2.2.2.2.2.2.symm)

/-- The bias row the second region stages is b1. -/
theorem hb1 (hag : Agree m m' c) (j : Fin 128) : V3 m ρ c main_v47 (ix2 0 j) = MR m' c (Proc.devRef .tc Cert.ReferenceIdeal.main_arg4) (ix1 j) :=
  (row_b1 (W2 m ρ c) j).trans (congrFun (w2_arg4 m ρ m' c hag) (ix1 j))
/-- The bias row of the projection is bp. -/
theorem hbp (hag : Agree m m' c) (j : Fin 9) : V3 m ρ c main_v48 (ix2 0 j) = MR m' c (Proc.devRef .tc Cert.ReferenceIdeal.main_arg6) (ix1 j) :=
  (row_bp (W2 m ρ c) j).trans (congrFun (w2_arg6 m ρ m' c hag) (ix1 j))

/-- After the second region its first output holds the reference's rectified features %50. -/
theorem w4_hx (hag : Agree m m' c) : W4 m ρ c (Proc.devRef .tc Cert.KernelIdeal.main_v49_0) = (StableHlo.after (Cert.ReferenceIdeal.RefOps.refS (F := Ideal)) (StableHlo.after (Cert.ReferenceIdeal.RefOps.refA (F := Ideal)) (MR m' c))) (Proc.devRef .tc Cert.ReferenceIdeal.main_v50) := by
  rw [ref_hx50]
  refine (W4_arr m ρ c 4).trans ((Cert.KernelIdeal.RegS.final4 (V3 m ρ) c (fun j => MR m' c (Proc.devRef .tc Cert.ReferenceIdeal.main_arg4) (ix1 j)) (hb1 m ρ m' c hag)).trans ?_)
  exact congrArg (fun a => Cert.SpecS.hx a _) (w3_v46 m ρ m' c hag)

/-- After the second region its second output holds the reference's assignment matrix %65. -/
theorem w4_s (hag : Agree m m' c) : W4 m ρ c (Proc.devRef .tc Cert.KernelIdeal.main_v49_1) = (StableHlo.after (Cert.ReferenceIdeal.RefOps.refS (F := Ideal)) (StableHlo.after (Cert.ReferenceIdeal.RefOps.refA (F := Ideal)) (MR m' c))) (Proc.devRef .tc Cert.ReferenceIdeal.main_v65) := by
  rw [ref_v65, ref_hx50, refA_arg5, refA_arg6]
  refine (W4_arr m ρ c 5).trans ((Cert.KernelIdeal.RegS.final5 (V3 m ρ) c (fun j => MR m' c (Proc.devRef .tc Cert.ReferenceIdeal.main_arg4) (ix1 j)) (hb1 m ρ m' c hag)
    (fun j => MR m' c (Proc.devRef .tc Cert.ReferenceIdeal.main_arg6) (ix1 j)) (hbp m ρ m' c hag)).trans ?_)
  have e5 : V3 m ρ c main_arg5 = MR m' c (Proc.devRef .tc Cert.ReferenceIdeal.main_arg5) := (keeps_arg5 (W2 m ρ c)).trans (w2_arg5 m ρ m' c hag)
  have e46 : V3 m ρ c main_v46 = (StableHlo.after (Cert.ReferenceIdeal.RefOps.refA (F := Ideal)) (MR m' c)) (Proc.devRef .tc Cert.ReferenceIdeal.main_v46) := w3_v46 m ρ m' c hag
  rw [e5, e46]

/-- The third region leaves its two input arrays as it found them. -/
theorem w5_s : W5 m ρ c (Proc.devRef .tc Cert.KernelIdeal.main_v49_1) = W4 m ρ c (Proc.devRef .tc Cert.KernelIdeal.main_v49_1) :=
  (W5_arr m ρ c 0).trans (((dat2 (V4 m ρ) c).arrAt_in 0 rfl _).trans (A_eq2 (V4 m ρ) c 0))

/-- After the third region its first output holds the pooled features, the reference's contraction %67. -/
theorem w5_xpool (hag : Agree m m' c) : W5 m ρ c (Proc.devRef .tc Cert.KernelIdeal.main_v50_0)
    = Host.dotGeneral (F := Ideal) (φ₁ := .f32) (φ₂ := .f32) Cert.ReferenceIdeal.dot_S9x100000_S100000x128_S9x128_1_0_0_1_n_n none (transpose Cert.ReferenceIdeal.S9x100000 [1, 0] ((StableHlo.after (Cert.ReferenceIdeal.RefOps.refS (F := Ideal)) (StableHlo.after (Cert.ReferenceIdeal.RefOps.refA (F := Ideal)) (MR m' c))) (Proc.devRef .tc Cert.ReferenceIdeal.main_v65)) Cert.ReferenceIdeal.Facts₀.transposes_S100000x9_S9x100000_1_0) ((StableHlo.after (Cert.ReferenceIdeal.RefOps.refS (F := Ideal)) (StableHlo.after (Cert.ReferenceIdeal.RefOps.refA (F := Ideal)) (MR m' c))) (Proc.devRef .tc Cert.ReferenceIdeal.main_v50)) := by
  rw [Cert.SpecP.ref_xpool]
  refine (W5_arr m ρ c 2).trans ((Cert.KernelIdeal.RegP.final2 (V4 m ρ) c).trans ?_)
  have es : V4 m ρ c main_v49_1 = (StableHlo.after (Cert.ReferenceIdeal.RefOps.refS (F := Ideal)) (StableHlo.after (Cert.ReferenceIdeal.RefOps.refA (F := Ideal)) (MR m' c))) (Proc.devRef .tc Cert.ReferenceIdeal.main_v65) := w4_s m ρ m' c hag
  have eh : V4 m ρ c main_v49_0 = (StableHlo.after (Cert.ReferenceIdeal.RefOps.refS (F := Ideal)) (StableHlo.after (Cert.ReferenceIdeal.RefOps.refA (F := Ideal)) (MR m' c))) (Proc.devRef .tc Cert.ReferenceIdeal.main_v50) := w4_hx m ρ m' c hag
  rw [es, eh]

/-- After the third region its second output holds the Gram matrix, the reference's contraction %96. -/
theorem w5_ss (hag : Agree m m' c) : W5 m ρ c (Proc.devRef .tc Cert.KernelIdeal.main_v50_1)
    = Host.dotGeneral (F := Ideal) (φ₁ := .f32) (φ₂ := .f32) Cert.ReferenceIdeal.dot_S9x100000_S100000x9_S9x9_1_0_0_1_n_n none (transpose Cert.ReferenceIdeal.S9x100000 [1, 0] ((StableHlo.after (Cert.ReferenceIdeal.RefOps.refS (F := Ideal)) (StableHlo.after (Cert.ReferenceIdeal.RefOps.refA (F := Ideal)) (MR m' c))) (Proc.devRef .tc Cert.ReferenceIdeal.main_v65)) Cert.ReferenceIdeal.Facts₀.transposes_S100000x9_S9x100000_1_0) ((StableHlo.after (Cert.ReferenceIdeal.RefOps.refS (F := Ideal)) (StableHlo.after (Cert.ReferenceIdeal.RefOps.refA (F := Ideal)) (MR m' c))) (Proc.devRef .tc Cert.ReferenceIdeal.main_v65)) := by
  rw [Cert.SpecP.ref_ss]
  refine (W5_arr m ρ c 3).trans ((Cert.KernelIdeal.RegP.final3 (V4 m ρ) c).trans ?_)
  have es : V4 m ρ c main_v49_1 = (StableHlo.after (Cert.ReferenceIdeal.RefOps.refS (F := Ideal)) (StableHlo.after (Cert.ReferenceIdeal.RefOps.refA (F := Ideal)) (MR m' c))) (Proc.devRef .tc Cert.ReferenceIdeal.main_v65) := w4_s m ρ m' c hag
  rw [es]

/-- The edge lists reach the last stretch unchanged: no region and no later operation writes them. -/
theorem w5_src (hag : Agree m m' c) : W5 m ρ c (Proc.devRef .tc Cert.KernelIdeal.main_v1) = (StableHlo.after (Cert.ReferenceIdeal.RefOps.refS (F := Ideal)) (StableHlo.after (Cert.ReferenceIdeal.RefOps.refA (F := Ideal)) (MR m' c))) (Proc.devRef .tc Cert.ReferenceIdeal.main_v1) :=
  (W5_of_ne m ρ c main_v1 (by decide)).trans ((W4_of_ne m ρ c main_v1 (by decide)).trans ((ops1_keeps (W2 m ρ c)).1.trans
    ((W2_of_ne m ρ c main_v1 (by decide)).trans (src_eq (MR m' c) (W0 m ρ c) hag.2.1.symm))))
theorem w5_dst (hag : Agree m m' c) : W5 m ρ c (Proc.devRef .tc Cert.KernelIdeal.main_v3) = (StableHlo.after (Cert.ReferenceIdeal.RefOps.refS (F := Ideal)) (StableHlo.after (Cert.ReferenceIdeal.RefOps.refA (F := Ideal)) (MR m' c))) (Proc.devRef .tc Cert.ReferenceIdeal.main_v3) :=
  (W5_of_ne m ρ c main_v3 (by decide)).trans ((W4_of_ne m ρ c main_v3 (by decide)).trans ((ops1_keeps (W2 m ρ c)).2.trans
    ((W2_of_ne m ρ c main_v3 (by decide)).trans (dst_eq (MR m' c) (W0 m ρ c) hag.2.1.symm))))

end Cert.Bridge

end
-- ==== Proof.Bridge_tail_out.lean ====
import Idealize.ShloMosaic.PureOps.Ideal
import proofs.«148048_j2284922601976_1_alg».proof.Proof.Gen.KernelIdeal.Launch
import proofs.«148048_j2284922601976_1_alg».proof.Proof.Gen.ReferenceIdeal
import proofs.«148048_j2284922601976_1_alg».proof.Proof.RefOps
import proofs.«148048_j2284922601976_1_alg».proof.Proof.ConcatCongr

set_option maxRecDepth 16384

/-! Downstream of the assignment matrix s both programs apply the same host operations; the kernel program reads the
    pooled features sᵀ·hx and the Gram matrix sᵀ·s from its third region's outputs where the reference computes them by
    two contractions. Each side's fold is opened into the composed operations; the composed terms then differ only in
    those reads. -/

noncomputable section

namespace Cert.Bridge

open Idealize.ShloMosaic Idealize.ShloMosaic.TcCoe Idealize.SL.Sem

variable (V5 : Valuation Cert.KernelIdeal.τ Cert.KernelIdeal.sig (Elt Ideal)) (VS : Valuation Cert.ReferenceIdeal.τ Cert.ReferenceIdeal.sig (Elt Ideal))

set_option maxHeartbeats 8000000 in
/-- The row log-softmax of the pooled features. -/
theorem tail_out
    (hs : V5 (Proc.devRef .tc Cert.KernelIdeal.main_v49_1) = VS (Proc.devRef .tc Cert.ReferenceIdeal.main_v65))
    (hxp : V5 (Proc.devRef .tc Cert.KernelIdeal.main_v50_0) = Host.dotGeneral (F := Ideal) (φ₁ := .f32) (φ₂ := .f32) Cert.ReferenceIdeal.dot_S9x100000_S100000x128_S9x128_1_0_0_1_n_n none (transpose Cert.ReferenceIdeal.S9x100000 [1, 0] (VS (Proc.devRef .tc Cert.ReferenceIdeal.main_v65)) Cert.ReferenceIdeal.Facts₀.transposes_S100000x9_S9x100000_1_0) (VS (Proc.devRef .tc Cert.ReferenceIdeal.main_v50)))
    (hss : V5 (Proc.devRef .tc Cert.KernelIdeal.main_v50_1) = Host.dotGeneral (F := Ideal) (φ₁ := .f32) (φ₂ := .f32) Cert.ReferenceIdeal.dot_S9x100000_S100000x9_S9x9_1_0_0_1_n_n none (transpose Cert.ReferenceIdeal.S9x100000 [1, 0] (VS (Proc.devRef .tc Cert.ReferenceIdeal.main_v65)) Cert.ReferenceIdeal.Facts₀.transposes_S100000x9_S9x100000_1_0) (VS (Proc.devRef .tc Cert.ReferenceIdeal.main_v65)))
    (hsrc : V5 (Proc.devRef .tc Cert.KernelIdeal.main_v1) = VS (Proc.devRef .tc Cert.ReferenceIdeal.main_v1))
    (hdst : V5 (Proc.devRef .tc Cert.KernelIdeal.main_v3) = VS (Proc.devRef .tc Cert.ReferenceIdeal.main_v3)) :
    StableHlo.after (Cert.KernelIdeal.Gen.hostOps3_8 (F := Ideal)) (StableHlo.after (Cert.KernelIdeal.Gen.hostOps3_7 (F := Ideal)) (StableHlo.after (Cert.KernelIdeal.Gen.hostOps3_6 (F := Ideal)) (StableHlo.after (Cert.KernelIdeal.Gen.hostOps3_5 (F := Ideal)) (StableHlo.after (Cert.KernelIdeal.Gen.hostOps3_4 (F := Ideal)) (StableHlo.after (Cert.KernelIdeal.Gen.hostOps3_3 (F := Ideal)) (StableHlo.after (Cert.KernelIdeal.Gen.hostOps3_2 (F := Ideal)) (StableHlo.after (Cert.KernelIdeal.Gen.hostOps3_1 (F := Ideal)) (StableHlo.after (Cert.KernelIdeal.Gen.hostOps3 (F := Ideal)) (V5))))))))) (Proc.devRef .tc Cert.KernelIdeal.main_v112)
      = StableHlo.after (Cert.ReferenceIdeal.RefOps.refT2 (F := Ideal)) (StableHlo.after (Cert.ReferenceIdeal.RefOps.refT1 (F := Ideal)) VS) (Proc.devRef .tc Cert.ReferenceIdeal.main_v131) := by
  after_results_simp
  simp only [hxp]

end Cert.Bridge

end
-- ==== Proof.Bridge_tail_mc.lean ====
import Idealize.ShloMosaic.PureOps.Ideal
import proofs.«148048_j2284922601976_1_alg».proof.Proof.Gen.KernelIdeal.Launch
import proofs.«148048_j2284922601976_1_alg».proof.Proof.Gen.ReferenceIdeal
import proofs.«148048_j2284922601976_1_alg».proof.Proof.RefOps
import proofs.«148048_j2284922601976_1_alg».proof.Proof.ConcatCongr

set_option maxRecDepth 16384

/-! Downstream of the assignment matrix s both programs apply the same host operations; the kernel program reads the
    pooled features sᵀ·hx and the Gram matrix sᵀ·s from its third region's outputs where the reference computes them by
    two contractions. Each side's fold is opened into the composed operations; the composed terms then differ only in
    those reads. -/

noncomputable section

namespace Cert.Bridge

open Idealize.ShloMosaic Idealize.ShloMosaic.TcCoe Idealize.SL.Sem

variable (V5 : Valuation Cert.KernelIdeal.τ Cert.KernelIdeal.sig (Elt Ideal)) (VS : Valuation Cert.ReferenceIdeal.τ Cert.ReferenceIdeal.sig (Elt Ideal))

set_option maxHeartbeats 8000000 in
/-- The cut loss. -/
theorem tail_mc
    (hs : V5 (Proc.devRef .tc Cert.KernelIdeal.main_v49_1) = VS (Proc.devRef .tc Cert.ReferenceIdeal.main_v65))
    (hxp : V5 (Proc.devRef .tc Cert.KernelIdeal.main_v50_0) = Host.dotGeneral (F := Ideal) (φ₁ := .f32) (φ₂ := .f32) Cert.ReferenceIdeal.dot_S9x100000_S100000x128_S9x128_1_0_0_1_n_n none (transpose Cert.ReferenceIdeal.S9x100000 [1, 0] (VS (Proc.devRef .tc Cert.ReferenceIdeal.main_v65)) Cert.ReferenceIdeal.Facts₀.transposes_S100000x9_S9x100000_1_0) (VS (Proc.devRef .tc Cert.ReferenceIdeal.main_v50)))
    (hss : V5 (Proc.devRef .tc Cert.KernelIdeal.main_v50_1) = Host.dotGeneral (F := Ideal) (φ₁ := .f32) (φ₂ := .f32) Cert.ReferenceIdeal.dot_S9x100000_S100000x9_S9x9_1_0_0_1_n_n none (transpose Cert.ReferenceIdeal.S9x100000 [1, 0] (VS (Proc.devRef .tc Cert.ReferenceIdeal.main_v65)) Cert.ReferenceIdeal.Facts₀.transposes_S100000x9_S9x100000_1_0) (VS (Proc.devRef .tc Cert.ReferenceIdeal.main_v65)))
    (hsrc : V5 (Proc.devRef .tc Cert.KernelIdeal.main_v1) = VS (Proc.devRef .tc Cert.ReferenceIdeal.main_v1))
    (hdst : V5 (Proc.devRef .tc Cert.KernelIdeal.main_v3) = VS (Proc.devRef .tc Cert.ReferenceIdeal.main_v3)) :
    StableHlo.after (Cert.KernelIdeal.Gen.hostOps3_8 (F := Ideal)) (StableHlo.after (Cert.KernelIdeal.Gen.hostOps3_7 (F := Ideal)) (StableHlo.after (Cert.KernelIdeal.Gen.hostOps3_6 (F := Ideal)) (StableHlo.after (Cert.KernelIdeal.Gen.hostOps3_5 (F := Ideal)) (StableHlo.after (Cert.KernelIdeal.Gen.hostOps3_4 (F := Ideal)) (StableHlo.after (Cert.KernelIdeal.Gen.hostOps3_3 (F := Ideal)) (StableHlo.after (Cert.KernelIdeal.Gen.hostOps3_2 (F := Ideal)) (StableHlo.after (Cert.KernelIdeal.Gen.hostOps3_1 (F := Ideal)) (StableHlo.after (Cert.KernelIdeal.Gen.hostOps3 (F := Ideal)) (V5))))))))) (Proc.devRef .tc Cert.KernelIdeal.main_v77)
      = StableHlo.after (Cert.ReferenceIdeal.RefOps.refT2 (F := Ideal)) (StableHlo.after (Cert.ReferenceIdeal.RefOps.refT1 (F := Ideal)) VS) (Proc.devRef .tc Cert.ReferenceIdeal.main_v94) := by
  after_results_simp
  simp only [hs, hsrc, hdst]
  rfl

end Cert.Bridge

end
-- ==== Proof.Bridge_tail_o.lean ====
import Idealize.ShloMosaic.PureOps.Ideal
import proofs.«148048_j2284922601976_1_alg».proof.Proof.Gen.KernelIdeal.Launch
import proofs.«148048_j2284922601976_1_alg».proof.Proof.Gen.ReferenceIdeal
import proofs.«148048_j2284922601976_1_alg».proof.Proof.RefOps
import proofs.«148048_j2284922601976_1_alg».proof.Proof.ConcatCongr

set_option maxRecDepth 16384

/-! Downstream of the assignment matrix s both programs apply the same host operations; the kernel program reads the
    pooled features sᵀ·hx and the Gram matrix sᵀ·s from its third region's outputs where the reference computes them by
    two contractions. Each side's fold is opened into the composed operations; the composed terms then differ only in
    those reads. -/

noncomputable section

namespace Cert.Bridge

open Idealize.ShloMosaic Idealize.ShloMosaic.TcCoe Idealize.SL.Sem

variable (V5 : Valuation Cert.KernelIdeal.τ Cert.KernelIdeal.sig (Elt Ideal)) (VS : Valuation Cert.ReferenceIdeal.τ Cert.ReferenceIdeal.sig (Elt Ideal))

set_option maxHeartbeats 8000000 in
/-- The orthogonality loss. -/
theorem tail_o
    (hs : V5 (Proc.devRef .tc Cert.KernelIdeal.main_v49_1) = VS (Proc.devRef .tc Cert.ReferenceIdeal.main_v65))
    (hxp : V5 (Proc.devRef .tc Cert.KernelIdeal.main_v50_0) = Host.dotGeneral (F := Ideal) (φ₁ := .f32) (φ₂ := .f32) Cert.ReferenceIdeal.dot_S9x100000_S100000x128_S9x128_1_0_0_1_n_n none (transpose Cert.ReferenceIdeal.S9x100000 [1, 0] (VS (Proc.devRef .tc Cert.ReferenceIdeal.main_v65)) Cert.ReferenceIdeal.Facts₀.transposes_S100000x9_S9x100000_1_0) (VS (Proc.devRef .tc Cert.ReferenceIdeal.main_v50)))
    (hss : V5 (Proc.devRef .tc Cert.KernelIdeal.main_v50_1) = Host.dotGeneral (F := Ideal) (φ₁ := .f32) (φ₂ := .f32) Cert.ReferenceIdeal.dot_S9x100000_S100000x9_S9x9_1_0_0_1_n_n none (transpose Cert.ReferenceIdeal.S9x100000 [1, 0] (VS (Proc.devRef .tc Cert.ReferenceIdeal.main_v65)) Cert.ReferenceIdeal.Facts₀.transposes_S100000x9_S9x100000_1_0) (VS (Proc.devRef .tc Cert.ReferenceIdeal.main_v65)))
    (hsrc : V5 (Proc.devRef .tc Cert.KernelIdeal.main_v1) = VS (Proc.devRef .tc Cert.ReferenceIdeal.main_v1))
    (hdst : V5 (Proc.devRef .tc Cert.KernelIdeal.main_v3) = VS (Proc.devRef .tc Cert.ReferenceIdeal.main_v3)) :
    StableHlo.after (Cert.KernelIdeal.Gen.hostOps3_8 (F := Ideal)) (StableHlo.after (Cert.KernelIdeal.Gen.hostOps3_7 (F := Ideal)) (StableHlo.after (Cert.KernelIdeal.Gen.hostOps3_6 (F := Ideal)) (StableHlo.after (Cert.KernelIdeal.Gen.hostOps3_5 (F := Ideal)) (StableHlo.after (Cert.KernelIdeal.Gen.hostOps3_4 (F := Ideal)) (StableHlo.after (Cert.KernelIdeal.Gen.hostOps3_3 (F := Ideal)) (StableHlo.after (Cert.KernelIdeal.Gen.hostOps3_2 (F := Ideal)) (StableHlo.after (Cert.KernelIdeal.Gen.hostOps3_1 (F := Ideal)) (StableHlo.after (Cert.KernelIdeal.Gen.hostOps3 (F := Ideal)) (V5))))))))) (Proc.devRef .tc Cert.KernelIdeal.main_v91)
      = StableHlo.after (Cert.ReferenceIdeal.RefOps.refT2 (F := Ideal)) (StableHlo.after (Cert.ReferenceIdeal.RefOps.refT1 (F := Ideal)) VS) (Proc.devRef .tc Cert.ReferenceIdeal.main_v110) := by
  after_results_simp
  simp only [hss]

end Cert.Bridge

end
-- ==== Proof.Bridge_tail_oa.lean ====
import Idealize.ShloMosaic.PureOps.Ideal
import proofs.«148048_j2284922601976_1_alg».proof.Proof.Gen.KernelIdeal.Launch
import proofs.«148048_j2284922601976_1_alg».proof.Proof.Gen.ReferenceIdeal
import proofs.«148048_j2284922601976_1_alg».proof.Proof.RefOps
import proofs.«148048_j2284922601976_1_alg».proof.Proof.ConcatCongr

set_option maxRecDepth 16384

/-! Downstream of the assignment matrix s both programs apply the same host operations; the kernel program reads the
    pooled features sᵀ·hx and the Gram matrix sᵀ·s from its third region's outputs where the reference computes them by
    two contractions. Each side's fold is opened into the composed operations; the composed terms then differ only in
    those reads. -/

noncomputable section

namespace Cert.Bridge

open Idealize.ShloMosaic Idealize.ShloMosaic.TcCoe Idealize.SL.Sem

variable (V5 : Valuation Cert.KernelIdeal.τ Cert.KernelIdeal.sig (Elt Ideal)) (VS : Valuation Cert.ReferenceIdeal.τ Cert.ReferenceIdeal.sig (Elt Ideal))

set_option maxHeartbeats 8000000 in
/-- The normalised pooled adjacency. -/
theorem tail_oa
    (hs : V5 (Proc.devRef .tc Cert.KernelIdeal.main_v49_1) = VS (Proc.devRef .tc Cert.ReferenceIdeal.main_v65))
    (hxp : V5 (Proc.devRef .tc Cert.KernelIdeal.main_v50_0) = Host.dotGeneral (F := Ideal) (φ₁ := .f32) (φ₂ := .f32) Cert.ReferenceIdeal.dot_S9x100000_S100000x128_S9x128_1_0_0_1_n_n none (transpose Cert.ReferenceIdeal.S9x100000 [1, 0] (VS (Proc.devRef .tc Cert.ReferenceIdeal.main_v65)) Cert.ReferenceIdeal.Facts₀.transposes_S100000x9_S9x100000_1_0) (VS (Proc.devRef .tc Cert.ReferenceIdeal.main_v50)))
    (hss : V5 (Proc.devRef .tc Cert.KernelIdeal.main_v50_1) = Host.dotGeneral (F := Ideal) (φ₁ := .f32) (φ₂ := .f32) Cert.ReferenceIdeal.dot_S9x100000_S100000x9_S9x9_1_0_0_1_n_n none (transpose Cert.ReferenceIdeal.S9x100000 [1, 0] (VS (Proc.devRef .tc Cert.ReferenceIdeal.main_v65)) Cert.ReferenceIdeal.Facts₀.transposes_S100000x9_S9x100000_1_0) (VS (Proc.devRef .tc Cert.ReferenceIdeal.main_v65)))
    (hsrc : V5 (Proc.devRef .tc Cert.KernelIdeal.main_v1) = VS (Proc.devRef .tc Cert.ReferenceIdeal.main_v1))
    (hdst : V5 (Proc.devRef .tc Cert.KernelIdeal.main_v3) = VS (Proc.devRef .tc Cert.ReferenceIdeal.main_v3)) :
    StableHlo.after (Cert.KernelIdeal.Gen.hostOps3_8 (F := Ideal)) (StableHlo.after (Cert.KernelIdeal.Gen.hostOps3_7 (F := Ideal)) (StableHlo.after (Cert.KernelIdeal.Gen.hostOps3_6 (F := Ideal)) (StableHlo.after (Cert.KernelIdeal.Gen.hostOps3_5 (F := Ideal)) (StableHlo.after (Cert.KernelIdeal.Gen.hostOps3_4 (F := Ideal)) (StableHlo.after (Cert.KernelIdeal.Gen.hostOps3_3 (F := Ideal)) (StableHlo.after (Cert.KernelIdeal.Gen.hostOps3_2 (F := Ideal)) (StableHlo.after (Cert.KernelIdeal.Gen.hostOps3_1 (F := Ideal)) (StableHlo.after (Cert.KernelIdeal.Gen.hostOps3 (F := Ideal)) (V5))))))))) (Proc.devRef .tc Cert.KernelIdeal.main_v113)
      = StableHlo.after (Cert.ReferenceIdeal.RefOps.refT2 (F := Ideal)) (StableHlo.after (Cert.ReferenceIdeal.RefOps.refT1 (F := Ideal)) VS) (Proc.devRef .tc Cert.ReferenceIdeal.main_v132) := by
  after_results_simp
  simp only [hs, hsrc, hdst]
  rfl

end Cert.Bridge

end
-- ==== Proof.Value.lean ====
import Idealize.ShloMosaic.PureOps.Ideal
import proofs.«148048_j2284922601976_1_alg».proof.Proof.Gen.KernelIdeal.Frame
import proofs.«148048_j2284922601976_1_alg».proof.Proof.Gen.ReferenceIdeal
import proofs.«148048_j2284922601976_1_alg».proof.Proof.RefOps
import proofs.«148048_j2284922601976_1_alg».proof.Proof.RefRun
import proofs.«148048_j2284922601976_1_alg».proof.Proof.KLeaf0
import proofs.«148048_j2284922601976_1_alg».proof.Proof.KLeaf1
import proofs.«148048_j2284922601976_1_alg».proof.Proof.Bridge_tail_out
import proofs.«148048_j2284922601976_1_alg».proof.Proof.Bridge_tail_mc
import proofs.«148048_j2284922601976_1_alg».proof.Proof.Bridge_tail_o
import proofs.«148048_j2284922601976_1_alg».proof.Proof.Bridge_tail_oa

set_option maxRecDepth 16384

/-! The five results: what the kernel program's last boundary valuation holds at each result buffer is what the
    reference's fold holds at the corresponding one, whenever the two launch memories agree on the arguments. -/

noncomputable section

namespace Cert.Bridge

open Idealize.ShloMosaic Idealize.ShloMosaic.TcCoe Idealize.SL.Sem

open Cert.KernelIdeal Cert.KernelIdeal.Gen

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The assignment matrix reaches the last stretch as the second region left it. -/
theorem w5_s_eq (hag : Agree m m' c) : W5 m ρ c (Proc.devRef .tc Cert.KernelIdeal.main_v49_1) = (StableHlo.after (Cert.ReferenceIdeal.RefOps.refS (F := Ideal)) (StableHlo.after (Cert.ReferenceIdeal.RefOps.refA (F := Ideal)) (MR m' c))) (Proc.devRef .tc Cert.ReferenceIdeal.main_v65) :=
  (w5_s m ρ c).trans (w4_s m ρ m' c hag)

set_option maxHeartbeats 4000000 in
/-- No operation after the third region writes the assignment matrix. -/
theorem tail_keeps_s (V5 : Valuation Cert.KernelIdeal.τ Cert.KernelIdeal.sig (Elt Ideal)) :
    StableHlo.after (Cert.KernelIdeal.Gen.hostOps3_8 (F := Ideal)) (StableHlo.after (Cert.KernelIdeal.Gen.hostOps3_7 (F := Ideal)) (StableHlo.after (Cert.KernelIdeal.Gen.hostOps3_6 (F := Ideal)) (StableHlo.after (Cert.KernelIdeal.Gen.hostOps3_5 (F := Ideal)) (StableHlo.after (Cert.KernelIdeal.Gen.hostOps3_4 (F := Ideal)) (StableHlo.after (Cert.KernelIdeal.Gen.hostOps3_3 (F := Ideal)) (StableHlo.after (Cert.KernelIdeal.Gen.hostOps3_2 (F := Ideal)) (StableHlo.after (Cert.KernelIdeal.Gen.hostOps3_1 (F := Ideal)) (StableHlo.after (Cert.KernelIdeal.Gen.hostOps3 (F := Ideal)) (V5))))))))) (Proc.devRef .tc Cert.KernelIdeal.main_v49_1) = V5 (Proc.devRef .tc Cert.KernelIdeal.main_v49_1) := by
  after_results_simp

/-- Result 0: the row log-softmax of the pooled features. -/
theorem res_out (hag : Agree m m' c) : W14 m ρ c (Proc.devRef .tc Cert.KernelIdeal.main_v112) = Cert.ReferenceIdeal.RefRun.RW (F := Ideal) m' c (Proc.devRef .tc Cert.ReferenceIdeal.main_v131) :=
  tail_out (W5 m ρ c) (StableHlo.after (Cert.ReferenceIdeal.RefOps.refS (F := Ideal)) (StableHlo.after (Cert.ReferenceIdeal.RefOps.refA (F := Ideal)) (MR m' c))) (w5_s_eq m ρ m' c hag) (w5_xpool m ρ m' c hag) (w5_ss m ρ m' c hag) (w5_src m ρ m' c hag) (w5_dst m ρ m' c hag)
/-- Result 1: the cut loss. -/
theorem res_mc (hag : Agree m m' c) : W14 m ρ c (Proc.devRef .tc Cert.KernelIdeal.main_v77) = Cert.ReferenceIdeal.RefRun.RW (F := Ideal) m' c (Proc.devRef .tc Cert.ReferenceIdeal.main_v94) :=
  tail_mc (W5 m ρ c) (StableHlo.after (Cert.ReferenceIdeal.RefOps.refS (F := Ideal)) (StableHlo.after (Cert.ReferenceIdeal.RefOps.refA (F := Ideal)) (MR m' c))) (w5_s_eq m ρ m' c hag) (w5_xpool m ρ m' c hag) (w5_ss m ρ m' c hag) (w5_src m ρ m' c hag) (w5_dst m ρ m' c hag)
/-- Result 2: the orthogonality loss. -/
theorem res_o (hag : Agree m m' c) : W14 m ρ c (Proc.devRef .tc Cert.KernelIdeal.main_v91) = Cert.ReferenceIdeal.RefRun.RW (F := Ideal) m' c (Proc.devRef .tc Cert.ReferenceIdeal.main_v110) :=
  tail_o (W5 m ρ c) (StableHlo.after (Cert.ReferenceIdeal.RefOps.refS (F := Ideal)) (StableHlo.after (Cert.ReferenceIdeal.RefOps.refA (F := Ideal)) (MR m' c))) (w5_s_eq m ρ m' c hag) (w5_xpool m ρ m' c hag) (w5_ss m ρ m' c hag) (w5_src m ρ m' c hag) (w5_dst m ρ m' c hag)
/-- Result 3: the assignment matrix itself. -/
theorem res_s (hag : Agree m m' c) : W14 m ρ c (Proc.devRef .tc Cert.KernelIdeal.main_v49_1) = Cert.ReferenceIdeal.RefRun.RW (F := Ideal) m' c (Proc.devRef .tc Cert.ReferenceIdeal.main_v65) :=
  (tail_keeps_s (W5 m ρ c)).trans ((w5_s_eq m ρ m' c hag).trans (Cert.ReferenceIdeal.RefRun.RW_main_v65 (F := Ideal) m' c).symm)
/-- Result 4: the normalised pooled adjacency. -/
theorem res_oa (hag : Agree m m' c) : W14 m ρ c (Proc.devRef .tc Cert.KernelIdeal.main_v113) = Cert.ReferenceIdeal.RefRun.RW (F := Ideal) m' c (Proc.devRef .tc Cert.ReferenceIdeal.main_v132) :=
  tail_oa (W5 m ρ c) (StableHlo.after (Cert.ReferenceIdeal.RefOps.refS (F := Ideal)) (StableHlo.after (Cert.ReferenceIdeal.RefOps.refA (F := Ideal)) (MR m' c))) (w5_s_eq m ρ m' c hag) (w5_xpool m ρ m' c hag) (w5_ss m ρ m' c hag) (w5_src m ρ m' c hag) (w5_dst m ρ m' c hag)

end Cert.Bridge

end
-- ==== Proof.lean ====
/-
  The certificate: a graph-convolution layer with soft cluster pooling — h = x·W1 aggregated over the edges with
  symmetric degree normalisation, hx = max(agg + b1, 0), the assignment matrix s = softmax(hx·Wp + bp) along each row,
  the pooled features sᵀ·hx and Gram matrix sᵀ·s, and from them the row log-softmax of the pooled features, the cut
  loss, the orthogonality loss and the normalised pooled adjacency — computed by a program with three kernel regions
  (the product x·W1 on row blocks; the rectifier, projection and row softmax on row blocks; the two contractions over
  the rows accumulated block by block) against a reference that uses host operations only.

  At the ideal instance the two programs agree result by result: a matrix product accumulated in a zero
  accumulator, block by block or all at once, is the same finite sum (only commutativity and associativity of + on the
  extended reals are used, so the inputs' finiteness is never opened); a change of float format is the identity; and
  everything else is the same host operations applied to equal operands. The frames of the two kernel programs are the
  generated ones; the reference's frame is its run with the results dropped. No operation was rewritten by the ideal
  pass, so the preservation claim is trivially true.
-/
import proofs.«148048_j2284922601976_1_alg».proof.Defs
import proofs.«148048_j2284922601976_1_alg».proof.Proof.Gen.Kernel
import proofs.«148048_j2284922601976_1_alg».proof.Proof.Gen.Kernel.Frame
import proofs.«148048_j2284922601976_1_alg».proof.Proof.Gen.KernelIdeal
import proofs.«148048_j2284922601976_1_alg».proof.Proof.Gen.KernelIdeal.Frame
import proofs.«148048_j2284922601976_1_alg».proof.Proof.Gen.ReferenceIdeal
import proofs.«148048_j2284922601976_1_alg».proof.Proof.Gen.Pre_finite_inputs
import proofs.«148048_j2284922601976_1_alg».proof.Proof.KRun
import proofs.«148048_j2284922601976_1_alg».proof.Proof.RefRun
import proofs.«148048_j2284922601976_1_alg».proof.Proof.Value
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ

/-- The reference's frame: its run, which names every buffer's final contents, with the arguments read back to the
    launch memory (no operation writes an argument). -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.RW_main_arg0 (F := Ideal) m c),
     (h c Cert.ReferenceIdeal.main_arg1).trans (Cert.ReferenceIdeal.RefRun.RW_main_arg1 (F := Ideal) m c),
     (h c Cert.ReferenceIdeal.main_arg2).trans (Cert.ReferenceIdeal.RefRun.RW_main_arg2 (F := Ideal) m c),
     (h c Cert.ReferenceIdeal.main_arg3).trans (Cert.ReferenceIdeal.RefRun.RW_main_arg3 (F := Ideal) m c),
     (h c Cert.ReferenceIdeal.main_arg4).trans (Cert.ReferenceIdeal.RefRun.RW_main_arg4 (F := Ideal) m c),
     (h c Cert.ReferenceIdeal.main_arg5).trans (Cert.ReferenceIdeal.RefRun.RW_main_arg5 (F := Ideal) m c),
     (h c Cert.ReferenceIdeal.main_arg6).trans (Cert.ReferenceIdeal.RefRun.RW_main_arg6 (F := Ideal) m c)⟩)
    (Cert.ReferenceIdeal.RefRun.run (F := Ideal) m ρ)

theorem preserves : Cert.preserves_Kernel_KernelIdeal := trivial

/-- Both programs run, and each result of the kernel program is the reference's: the witnesses are the reference's
    fold at its five result buffers. -/
theorem algebraic : Cert.algebraic_KernelIdeal_ReferenceIdeal := by
  intro m ρ m' ρ' _ hagree
  refine ⟨fun c => Cert.ReferenceIdeal.RefRun.RW (F := Ideal) m' c (Proc.devRef .tc Cert.ReferenceIdeal.main_v131), fun c => Cert.ReferenceIdeal.RefRun.RW (F := Ideal) m' c (Proc.devRef .tc Cert.ReferenceIdeal.main_v94),
    fun c => Cert.ReferenceIdeal.RefRun.RW (F := Ideal) m' c (Proc.devRef .tc Cert.ReferenceIdeal.main_v110), fun c => Cert.ReferenceIdeal.RefRun.RW (F := Ideal) m' c (Proc.devRef .tc Cert.ReferenceIdeal.main_v65),
    fun c => Cert.ReferenceIdeal.RefRun.RW (F := Ideal) m' c (Proc.devRef .tc Cert.ReferenceIdeal.main_v132), ?_, ?_⟩
  · refine (θ_run Cert.KernelIdeal.defs _ _).mono (fun r h c => ?_) (Cert.KernelIdeal.KRun.run (F := Ideal) m ρ)
    have hag : Cert.Bridge.Agree m m' c := hagree c
    exact ⟨(h c).1.trans (Cert.Bridge.res_out m ρ m' c hag), (h c).2.1.trans (Cert.Bridge.res_mc m ρ m' c hag),
      (h c).2.2.1.trans (Cert.Bridge.res_o m ρ m' c hag), (h c).2.2.2.1.trans (Cert.Bridge.res_s m ρ m' c hag),
      (h c).2.2.2.2.1.trans (Cert.Bridge.res_oa m ρ m' c hag), (h c).2.2.2.2.2⟩
  · refine (θ_run Cert.ReferenceIdeal.defs _ _).mono (fun r h c => ?_) (Cert.ReferenceIdeal.RefRun.run (F := Ideal) m' ρ')
    exact ⟨h c Cert.ReferenceIdeal.main_v131, h c Cert.ReferenceIdeal.main_v94, h c Cert.ReferenceIdeal.main_v110, h c Cert.ReferenceIdeal.main_v65, h c Cert.ReferenceIdeal.main_v132,
      (h c Cert.ReferenceIdeal.main_arg0).trans (Cert.ReferenceIdeal.RefRun.RW_main_arg0 (F := Ideal) m' c),
      (h c Cert.ReferenceIdeal.main_arg1).trans (Cert.ReferenceIdeal.RefRun.RW_main_arg1 (F := Ideal) m' c),
      (h c Cert.ReferenceIdeal.main_arg2).trans (Cert.ReferenceIdeal.RefRun.RW_main_arg2 (F := Ideal) m' c),
      (h c Cert.ReferenceIdeal.main_arg3).trans (Cert.ReferenceIdeal.RefRun.RW_main_arg3 (F := Ideal) m' c),
      (h c Cert.ReferenceIdeal.main_arg4).trans (Cert.ReferenceIdeal.RefRun.RW_main_arg4 (F := Ideal) m' c),
      (h c Cert.ReferenceIdeal.main_arg5).trans (Cert.ReferenceIdeal.RefRun.RW_main_arg5 (F := Ideal) m' c),
      (h c Cert.ReferenceIdeal.main_arg6).trans (Cert.ReferenceIdeal.RefRun.RW_main_arg6 (F := Ideal) m' c)⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
